-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x128 : Shape := ⟨3, ![4, 8192, 128]⟩
abbrev S4x8192x16x64 : Shape := ⟨4, ![4, 8192, 16, 64]⟩
abbrev S4x8192x16 : Shape := ⟨3, ![4, 8192, 16]⟩
abbrev S256x320 : Shape := ⟨2, ![256, 320]⟩
abbrev S256 : Shape := ⟨1, ![256]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel
  bcast_S_S4x8192x16x64 : S_.BroadcastsInDim S4x8192x16x64 (![] : Fin 0 → Fin S4x8192x16x64.rank)
  reducesTo_S4x8192x16x64_S_d0_1_2_3 : S4x8192x16x64.ReducesTo [0, 1, 2, 3] S_
  bcast_S_S256x320 : S_.BroadcastsInDim S256x320 (![] : Fin 0 → Fin S256x320.rank)
  reducesTo_S256x320_S_d0_1 : S256x320.ReducesTo [0, 1] S_
  bcast_S_S256 : S_.BroadcastsInDim S256 (![] : Fin 0 → Fin S256.rank)
  reducesTo_S256_S_d0 : S256.ReducesTo [0] S_
  reducesTo_S_S_d : S_.ReducesTo [] S_

variable [Facts]

def fn_part1 {F : FTy → Type} [FloatOps F] (main_arg5 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S4x8192x128 .f32) (main_arg1 : FVec F S4x8192x16x64 .f32) (main_arg2 : IVec S4x8192x16 32) (main_arg3 : FVec F S256x320 .f32) (main_arg4 : FVec F S256 .f32) (main_arg5 : FVec F S_ .f32) : IVec S_ 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S4x8192x16x64 .f32 := Host.absf main_arg1
  let main_cst_0 : FVec F S_ .f32 := constant S_ .f32 0x7F800000#32
  let main_v5 : FVec F S4x8192x16x64 .f32 := broadcastInDim S4x8192x16x64 ![] bcast_S_S4x8192x16x64 main_cst_0
  let main_v6 : IVec S4x8192x16x64 1 := cmpf .olt main_v4 main_v5
  let main_c_1 : IVec S_ 1 := constantI S_ 1 1#1
  let main_v7 : IVec S_ 1 := (fun x v => Host.reduce IntOp.andi x v reducesTo_S4x8192x16x64_S_d0_1_2_3 h_S_) main_v6 main_c_1
  let main_v8 : IVec S_ 1 := andi main_v3 main_v7
  let main_v9 : FVec F S256x320 .f32 := Host.absf main_arg3
  let main_cst_2 : FVec F S_ .f32 := constant S_ .f32 0x7F800000#32
  let main_v10 : FVec F S256x320 .f32 := broadcastInDim S256x320 ![] bcast_S_S256x320 main_cst_2
  let main_v11 : IVec S256x320 1 := cmpf .olt main_v9 main_v10
  let main_c_3 : IVec S_ 1 := constantI S_ 1 1#1
  let main_v12 : IVec S_ 1 := (fun x v => Host.reduce IntOp.andi x v reducesTo_S256x320_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_v13 main_v16
-- ==== Kernel.lean ====
abbrev S4x8192x128 : Shape := ⟨3, ![4, 8192, 128]⟩
abbrev S4x8192x16x64 : Shape := ⟨4, ![4, 8192, 16, 64]⟩
abbrev S4x8192x16 : Shape := ⟨3, ![4, 8192, 16]⟩
abbrev S256x320 : Shape := ⟨2, ![256, 320]⟩
abbrev S256 : Shape := ⟨1, ![256]⟩
abbrev S_ : Shape := ⟨0, ![]⟩
abbrev S4 : Shape := ⟨1, ![4]⟩
abbrev S4x1x1 : Shape := ⟨3, ![4, 1, 1]⟩
abbrev S4x8192x16x1 : Shape := ⟨4, ![4, 8192, 16, 1]⟩
abbrev S4x8192x16x2 : Shape := ⟨4, ![4, 8192, 16, 2]⟩
abbrev S4x8192x16x128 : Shape := ⟨4, ![4, 8192, 16, 128]⟩
abbrev S256x128 : Shape := ⟨2, ![256, 128]⟩
abbrev S128x256 : Shape := ⟨2, ![128, 256]⟩
abbrev S256x64 : Shape := ⟨2, ![256, 64]⟩
abbrev S64x256 : Shape := ⟨2, ![64, 256]⟩
abbrev S1x256 : Shape := ⟨2, ![1, 256]⟩
abbrev S1x1 : Shape := ⟨2, ![1, 1]⟩
abbrev S1x256x128 : Shape := ⟨3, ![1, 256, 128]⟩
abbrev S1x256x16x128 : Shape := ⟨4, ![1, 256, 16, 128]⟩
abbrev S1x256x16x64 : Shape := ⟨4, ![1, 256, 16, 64]⟩
abbrev S1x256x16 : Shape := ⟨3, ![1, 256, 16]⟩
abbrev S256x256 : Shape := ⟨2, ![256, 256]⟩
abbrev S256x16 : Shape := ⟨2, ![256, 16]⟩
abbrev S256x16x128 : Shape := ⟨3, ![256, 16, 128]⟩
abbrev S256x16x64 : Shape := ⟨3, ![256, 16, 64]⟩
abbrev S256x1x128 : Shape := ⟨3, ![256, 1, 128]⟩
abbrev S256x1x64 : Shape := ⟨3, ![256, 1, 64]⟩
abbrev S256x1 : Shape := ⟨2, ![256, 1]⟩

abbrev nBuf : Space → Nat
  | .hbm => 39
  | .vmem => 15
  | .smem => 0
  | _ => 0

abbrev bufTy : (tb : Table) → Fin (tcTables nBuf tb) → BufTy
  | .hbm, ⟨0, _⟩ => ⟨S4x8192x128, .f32⟩
  | .hbm, ⟨1, _⟩ => ⟨S4x8192x16x64, .f32⟩
  | .hbm, ⟨2, _⟩ => ⟨S4x8192x16, .i32⟩
  | .hbm, ⟨3, _⟩ => ⟨S256x320, .f32⟩
  | .hbm, ⟨4, _⟩ => ⟨S256, .f32⟩
  | .hbm, ⟨5, _⟩ => ⟨S_, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S_, .i32⟩
  | .hbm, ⟨12, _⟩ => ⟨S4x1x1, .i32⟩
  | .hbm, ⟨13, _⟩ => ⟨S4x1x1, .i32⟩
  | .hbm, ⟨14, _⟩ => ⟨S4x1x1, .i32⟩
  | .hbm, ⟨15, _⟩ => ⟨S_, .i32⟩
  | .hbm, ⟨16, _⟩ => ⟨S4x8192x16, .i32⟩
  | .hbm, ⟨17, _⟩ => ⟨S4x8192x16, .i1⟩
  | .hbm, ⟨18, _⟩ => ⟨S_, .i32⟩
  | .hbm, ⟨19, _⟩ => ⟨S4x8192x16, .i32⟩
  | .hbm, ⟨20, _⟩ => ⟨S4x8192x16, .i32⟩
  | .hbm, ⟨21, _⟩ => ⟨S4x8192x16, .i32⟩
  | .hbm, ⟨22, _⟩ => ⟨S4x8192x16, .i32⟩
  | .hbm, ⟨23, _⟩ => ⟨S4x8192x16x1, .i32⟩
  | .hbm, ⟨24, _⟩ => ⟨S4x8192x16x1, .i32⟩
  | .hbm, ⟨25, _⟩ => ⟨S4x8192x16x2, .i32⟩
  | .hbm, ⟨26, _⟩ => ⟨S4x8192x16x128, .f32⟩
  | .hbm, ⟨27, _⟩ => ⟨S256x128, .f32⟩
  | .hbm, ⟨28, _⟩ => ⟨S128x256, .f32⟩
  | .hbm, ⟨29, _⟩ => ⟨S128x256, .bf16⟩
  | .hbm, ⟨30, _⟩ => ⟨S256x128, .f32⟩
  | .hbm, ⟨31, _⟩ => ⟨S128x256, .f32⟩
  | .hbm, ⟨32, _⟩ => ⟨S128x256, .bf16⟩
  | .hbm, ⟨33, _⟩ => ⟨S256x64, .f32⟩
  | .hbm, ⟨34, _⟩ => ⟨S64x256, .f32⟩
  | .hbm, ⟨35, _⟩ => ⟨S64x256, .bf16⟩
  | .hbm, ⟨36, _⟩ => ⟨S1x256, .f32⟩
  | .hbm, ⟨37, _⟩ => ⟨S1x1, .f32⟩
  | .hbm, ⟨38, _⟩ => ⟨S4x8192x128, .f32⟩
  | .local _ .vmem, ⟨0, _⟩ => ⟨S1x256x128, .f32⟩
  | .local _ .vmem, ⟨1, _⟩ => ⟨S1x256x128, .f32⟩
  | .local _ .vmem, ⟨2, _⟩ => ⟨S1x256x16x128, .f32⟩
  | .local _ .vmem, ⟨3, _⟩ => ⟨S1x256x16x128, .f32⟩
  | .local _ .vmem, ⟨4, _⟩ => ⟨S1x256x16x64, .f32⟩
  | .local _ .vmem, ⟨5, _⟩ => ⟨S1x256x16x64, .f32⟩
  | .local _ .vmem, ⟨6, _⟩ => ⟨S1x256x16, .i32⟩
  | .local _ .vmem, ⟨7, _⟩ => ⟨S1x256x16, .i32⟩
  | .local _ .vmem, ⟨8, _⟩ => ⟨S128x256, .bf16⟩
  | .local _ .vmem, ⟨9, _⟩ => ⟨S128x256, .bf16⟩
  | .local _ .vmem, ⟨10, _⟩ => ⟨S64x256, .bf16⟩
  | .local _ .vmem, ⟨11, _⟩ => ⟨S1x256, .f32⟩
  | .local _ .vmem, ⟨12, _⟩ => ⟨S1x1, .f32⟩
  | .local _ .vmem, ⟨13, _⟩ => ⟨S1x256x128, .f32⟩
  | .local _ .vmem, ⟨14, _⟩ => ⟨S1x256x128, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x8192x16 : S_.BroadcastsInDim S4x8192x16 (![] : Fin 0 → Fin S4x8192x16.rank)
  bcast_S4x1x1_S4x8192x16_0_1_2 : S4x1x1.BroadcastsInDim S4x8192x16 (![0, 1, 2] : Fin 3 → Fin S4x8192x16.rank)
  bcast_S4x8192x16_S4x8192x16x1_0_1_2 : S4x8192x16.BroadcastsInDim S4x8192x16x1 (![0, 1, 2] : Fin 3 → Fin S4x8192x16x1.rank)
  concatenates_S4x8192x16x1_S4x8192x16x1_S4x8192x16x2_d3 : Shape.Concatenates [S4x8192x16x1, S4x8192x16x1] S4x8192x16x2 3
  slices_S256x320_S256x128_0_0 : S256x320.Slices ![0, 0] S256x128
  transposes_S256x128_S128x256_1_0 : S256x128.Transposes [1, 0] S128x256
  bitsLt_bf16_f32 : FTy.bits .bf16 < FTy.bits .f32
  slices_S256x320_S256x128_0_128 : S256x320.Slices ![0, 128] S256x128
  slices_S256x320_S256x64_0_256 : S256x320.Slices ![0, 256] S256x64
  transposes_S256x64_S64x256_1_0 : S256x64.Transposes [1, 0] S64x256
  shapeCasts_S256_S1x256 : S256.ShapeCasts S1x256
  shapeCasts_S_S1x1 : S_.ShapeCasts S1x1
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S256 : S1x256.ShapeCasts S256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  inb_S1x256x16x128_S1x256x16x128_0_0_0_0 : ∀ a, (![0, 0, 0, 0] : Fin 4 → Nat) a + S1x256x16x128.size a ≤ S1x256x16x128.size a
  h_S1x256x16x128 : 0 < S1x256x16x128.numel
  shapeCasts_S1x256x16x128_S256x16x128 : S1x256x16x128.ShapeCasts S256x16x128
  inb_S1x256x16x64_S1x256x16x64_0_0_0_0 : ∀ a, (![0, 0, 0, 0] : Fin 4 → Nat) a + S1x256x16x64.size a ≤ S1x256x16x64.size a
  h_S1x256x16x64 : 0 < S1x256x16x64.numel
  shapeCasts_S1x256x16x64_S256x16x64 : S1x256x16x64.ShapeCasts S256x16x64
  slices_S256x16x128_o0_0_0_S256x1x128 : S256x16x128.Slices ![0, 0, 0] S256x1x128
  shapeCasts_S256x1x128_S256x128 : S256x1x128.ShapeCasts S256x128
  slices_S256x16x64_o0_0_0_S256x1x64 : S256x16x64.Slices ![0, 0, 0] S256x1x64
  shapeCasts_S256x1x64_S256x64 : S256x1x64.ShapeCasts S256x64
  broadcasts_S1x256_S256x256 : S1x256.Broadcasts S256x256
  slices_S256x256_o0_0_S256x128 : S256x256.Slices ![0, 0] S256x128
  slices_S256x256_o0_128_S256x128 : S256x256.Slices ![0, 128] S256x128
  slices_S256x16_o0_0_S256x1 : S256x16.Slices ![0, 0] S256x1
  shapeCasts_S256x1_S256 : S256x1.ShapeCasts S256
  natLt_1_32 : 1 < 32
  shapeCasts_S256_S256x1 : S256.ShapeCasts S256x1
  broadcasts_S256x1_S256x128 : S256x1.Broadcasts S256x128
  slices_S256x16x128_o0_1_0_S256x1x128 : S256x16x128.Slices ![0, 1, 0] S256x1x128
  slices_S256x16x64_o0_1_0_S256x1x64 : S256x16x64.Slices ![0, 1, 0] S256x1x64
  slices_S256x16_o0_1_S256x1 : S256x16.Slices ![0, 1] S256x1
  slices_S256x16x128_o0_2_0_S256x1x128 : S256x16x128.Slices ![0, 2, 0] S256x1x128
  slices_S256x16x64_o0_2_0_S256x1x64 : S256x16x64.Slices ![0, 2, 0] S256x1x64
  slices_S256x16_o0_2_S256x1 : S256x16.Slices ![0, 2] S256x1
  slices_S256x16x128_o0_3_0_S256x1x128 : S256x16x128.Slices ![0, 3, 0] S256x1x128
  slices_S256x16x64_o0_3_0_S256x1x64 : S256x16x64.Slices ![0, 3, 0] S256x1x64
  slices_S256x16_o0_3_S256x1 : S256x16.Slices ![0, 3] S256x1
  slices_S256x16x128_o0_4_0_S256x1x128 : S256x16x128.Slices ![0, 4, 0] S256x1x128
  slices_S256x16x64_o0_4_0_S256x1x64 : S256x16x64.Slices ![0, 4, 0] S256x1x64
  slices_S256x16_o0_4_S256x1 : S256x16.Slices ![0, 4] S256x1
  slices_S256x16x128_o0_5_0_S256x1x128 : S256x16x128.Slices ![0, 5, 0] S256x1x128
  slices_S256x16x64_o0_5_0_S256x1x64 : S256x16x64.Slices ![0, 5, 0] S256x1x64
  slices_S256x16_o0_5_S256x1 : S256x16.Slices ![0, 5] S256x1
  slices_S256x16x128_o0_6_0_S256x1x128 : S256x16x128.Slices ![0, 6, 0] S256x1x128
  slices_S256x16x64_o0_6_0_S256x1x64 : S256x16x64.Slices ![0, 6, 0] S256x1x64
  slices_S256x16_o0_6_S256x1 : S256x16.Slices ![0, 6] S256x1
  slices_S256x16x128_o0_7_0_S256x1x128 : S256x16x128.Slices ![0, 7, 0] S256x1x128
  slices_S256x16x64_o0_7_0_S256x1x64 : S256x16x64.Slices ![0, 7, 0] S256x1x64
  slices_S256x16_o0_7_S256x1 : S256x16.Slices ![0, 7] S256x1
  slices_S256x16x128_o0_8_0_S256x1x128 : S256x16x128.Slices ![0, 8, 0] S256x1x128
  slices_S256x16x64_o0_8_0_S256x1x64 : S256x16x64.Slices ![0, 8, 0] S256x1x64
  slices_S256x16_o0_8_S256x1 : S256x16.Slices ![0, 8] S256x1
  slices_S256x16x128_o0_9_0_S256x1x128 : S256x16x128.Slices ![0, 9, 0] S256x1x128
  slices_S256x16x64_o0_9_0_S256x1x64 : S256x16x64.Slices ![0, 9, 0] S256x1x64
  slices_S256x16_o0_9_S256x1 : S256x16.Slices ![0, 9] S256x1
  slices_S256x16x128_o0_10_0_S256x1x128 : S256x16x128.Slices ![0, 10, 0] S256x1x128
  slices_S256x16x64_o0_10_0_S256x1x64 : S256x16x64.Slices ![0, 10, 0] S256x1x64
  slices_S256x16_o0_10_S256x1 : S256x16.Slices ![0, 10] S256x1
  slices_S256x16x128_o0_11_0_S256x1x128 : S256x16x128.Slices ![0, 11, 0] S256x1x128
  slices_S256x16x64_o0_11_0_S256x1x64 : S256x16x64.Slices ![0, 11, 0] S256x1x64
  slices_S256x16_o0_11_S256x1 : S256x16.Slices ![0, 11] S256x1
  slices_S256x16x128_o0_12_0_S256x1x128 : S256x16x128.Slices ![0, 12, 0] S256x1x128
  slices_S256x16x64_o0_12_0_S256x1x64 : S256x16x64.Slices ![0, 12, 0] S256x1x64
  slices_S256x16_o0_12_S256x1 : S256x16.Slices ![0, 12] S256x1
  slices_S256x16x128_o0_13_0_S256x1x128 : S256x16x128.Slices ![0, 13, 0] S256x1x128
  slices_S256x16x64_o0_13_0_S256x1x64 : S256x16x64.Slices ![0, 13, 0] S256x1x64
  slices_S256x16_o0_13_S256x1 : S256x16.Slices ![0, 13] S256x1
  slices_S256x16x128_o0_14_0_S256x1x128 : S256x16x128.Slices ![0, 14, 0] S256x1x128
  slices_S256x16x64_o0_14_0_S256x1x64 : S256x16x64.Slices ![0, 14, 0] S256x1x64
  slices_S256x16_o0_14_S256x1 : S256x16.Slices ![0, 14] S256x1
  slices_S256x16x128_o0_15_0_S256x1x128 : S256x16x128.Slices ![0, 15, 0] S256x1x128
  slices_S256x16x64_o0_15_0_S256x1x64 : S256x16x64.Slices ![0, 15, 0] S256x1x64
  slices_S256x16_o0_15_S256x1 : S256x16.Slices ![0, 15] S256x1
  shapeCasts_S256x128_S1x256x128 : S256x128.ShapeCasts S1x256x128
  gather_S4x8192x128_S4x8192x16x2_S4x8192x16x128_3_01_n_n_01_3_11128_wf : GatherDims.WF S4x8192x128 S4x8192x16x2 S4x8192x16x128 [3] [0, 1] [] [0, 1] [] 3 ![1, 1, 128]
  dot_S256x128_S128x256_S256x256_1_0_0_1_n_n_wf : DotDims.WF S256x128 S128x256 S256x256 [1] [0] [0] [1] [] []
  dot_S256x64_S64x256_S256x256_1_0_0_1_n_n_wf : DotDims.WF S256x64 S64x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S4x8192x128.size a
  hwx0_0 : ∀ i : grid0.Coords, EltTy.bits .f32 = 32 ∨ (Rect.block (s := S4x8192x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x16x128.size a ≤ S4x8192x16x128.size a
  hwx0_1 : ∀ i : grid0.Coords, EltTy.bits .f32 = 32 ∨ (Rect.block (s := S4x8192x16x128) S1x256x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x16x64.size a ≤ S4x8192x16x64.size a
  hwx0_2 : ∀ i : grid0.Coords, EltTy.bits .f32 = 32 ∨ (Rect.block (s := S4x8192x16x64) S1x256x16x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x16.size a ≤ S4x8192x16.size a
  hwx0_3 : ∀ i : grid0.Coords, EltTy.bits .i32 = 32 ∨ (Rect.block (s := S4x8192x16) S1x256x16.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .bf16 = 32 ∨ (Rect.block (s := S64x256) S64x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x128.size a ≤ S4x8192x128.size a
  hwx0_9 : ∀ i : grid0.Coords, EltTy.bits .f32 = 32 ∨ (Rect.block (s := S4x8192x128) S1x256x128.size (cc0_transform_9 i) (hinb0_9 i)).WholeWords (EltTy.packing .f32)

variable [Facts₀]

def gather_S4x8192x128_S4x8192x16x2_S4x8192x16x128_3_01_n_n_01_3_11128 : GatherDims S4x8192x128 S4x8192x16x2 S4x8192x16x128 where
  offsetDims := [3]
  collapsedSliceDims := [0, 1]
  operandBatchingDims := []
  startIndicesBatchingDims := []
  startIndexMap := [0, 1]
  indexVectorDim := 3
  sliceSizes := ![1, 1, 128]
  wf := gather_S4x8192x128_S4x8192x16x2_S4x8192x16x128_3_01_n_n_01_3_11128_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x256x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x8192x128 : Shape := ⟨3, ![4, 8192, 128]⟩
abbrev S4x8192x16x64 : Shape := ⟨4, ![4, 8192, 16, 64]⟩
abbrev S4x8192x16 : Shape := ⟨3, ![4, 8192, 16]⟩
abbrev S256x320 : Shape := ⟨2, ![256, 320]⟩
abbrev S256 : Shape := ⟨1, ![256]⟩
abbrev S_ : Shape := ⟨0, ![]⟩
abbrev S4 : Shape := ⟨1, ![4]⟩
abbrev S4x1x1 : Shape := ⟨3, ![4, 1, 1]⟩
abbrev S4x8192x16x1 : Shape := ⟨4, ![4, 8192, 16, 1]⟩
abbrev S4x8192x16x2 : Shape := ⟨4, ![4, 8192, 16, 2]⟩
abbrev S4x8192x16x128 : Shape := ⟨4, ![4, 8192, 16, 128]⟩
abbrev S4x8192x1x128 : Shape := ⟨4, ![4, 8192, 1, 128]⟩
abbrev S4x8192x16x320 : Shape := ⟨4, ![4, 8192, 16, 320]⟩
abbrev S4x8192x16x256 : Shape := ⟨4, ![4, 8192, 16, 256]⟩
abbrev S1x1x1x256 : Shape := ⟨4, ![1, 1, 1, 256]⟩

abbrev nBuf : Space → Nat
  | .hbm => 85
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S4x8192x16x64, .f32⟩
  | .hbm, ⟨2, _⟩ => ⟨S4x8192x16, .i32⟩
  | .hbm, ⟨3, _⟩ => ⟨S256x320, .f32⟩
  | .hbm, ⟨4, _⟩ => ⟨S256, .f32⟩
  | .hbm, ⟨5, _⟩ => ⟨S_, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S_, .i32⟩
  | .hbm, ⟨12, _⟩ => ⟨S4x1x1, .i32⟩
  | .hbm, ⟨13, _⟩ => ⟨S4x1x1, .i32⟩
  | .hbm, ⟨14, _⟩ => ⟨S4x1x1, .i32⟩
  | .hbm, ⟨15, _⟩ => ⟨S_, .i32⟩
  | .hbm, ⟨16, _⟩ => ⟨S4x8192x16, .i32⟩
  | .hbm, ⟨17, _⟩ => ⟨S4x8192x16, .i1⟩
  | .hbm, ⟨18, _⟩ => ⟨S_, .i32⟩
  | .hbm, ⟨19, _⟩ => ⟨S4x8192x16, .i32⟩
  | .hbm, ⟨20, _⟩ => ⟨S4x8192x16, .i32⟩
  | .hbm, ⟨21, _⟩ => ⟨S4x8192x16, .i32⟩
  | .hbm, ⟨22, _⟩ => ⟨S4x8192x16, .i32⟩
  | .hbm, ⟨23, _⟩ => ⟨S4x8192x16x1, .i32⟩
  | .hbm, ⟨24, _⟩ => ⟨S4x8192x16x1, .i32⟩
  | .hbm, ⟨25, _⟩ => ⟨S4x8192x16x2, .i32⟩
  | .hbm, ⟨26, _⟩ => ⟨S4x8192x16x128, .f32⟩
  | .hbm, ⟨27, _⟩ => ⟨S4x8192x1x128, .f32⟩
  | .hbm, ⟨28, _⟩ => ⟨S4x8192x16x128, .f32⟩
  | .hbm, ⟨29, _⟩ => ⟨S4x8192x16x320, .f32⟩
  | .hbm, ⟨30, _⟩ => ⟨S4x8192x16x256, .f32⟩
  | .hbm, ⟨31, _⟩ => ⟨S1x1x1x256, .f32⟩
  | .hbm, ⟨32, _⟩ => ⟨S4x8192x16x256, .f32⟩
  | .hbm, ⟨33, _⟩ => ⟨S4x8192x16x256, .f32⟩
  | .hbm, ⟨34, _⟩ => ⟨S4x8192x16x128, .f32⟩
  | .hbm, ⟨35, _⟩ => ⟨S4x8192x16x128, .f32⟩
  | .hbm, ⟨36, _⟩ => ⟨S4x8192x16x128, .f32⟩
  | .hbm, ⟨37, _⟩ => ⟨S4x8192x16x128, .f32⟩
  | .hbm, ⟨38, _⟩ => ⟨S_, .f32⟩
  | .hbm, ⟨39, _⟩ => ⟨S4x8192x16x128, .f32⟩
  | .hbm, ⟨40, _⟩ => ⟨S4x8192x16x128, .f32⟩
  | .hbm, ⟨41, _⟩ => ⟨S_, .f32⟩
  | .hbm, ⟨42, _⟩ => ⟨S4x8192x16x128, .f32⟩
  | .hbm, ⟨43, _⟩ => ⟨S4x8192x16x128, .f32⟩
  | .hbm, ⟨44, _⟩ => ⟨S_, .f32⟩
  | .hbm, ⟨45, _⟩ => ⟨S4x8192x16x128, .f32⟩
  | .hbm, ⟨46, _⟩ => ⟨S4x8192x16x128, .f32⟩
  | .hbm, ⟨47, _⟩ => ⟨S4x8192x16x128, .f32⟩
  | .hbm, ⟨48, _⟩ => ⟨S4x8192x16x128, .f32⟩
  | .hbm, ⟨49, _⟩ => ⟨S4x8192x16x128, .i1⟩
  | .hbm, ⟨50, _⟩ => ⟨S4x8192x16x128, .f32⟩
  | .hbm, ⟨51, _⟩ => ⟨S4x8192x16x128, .f32⟩
  | .hbm, ⟨52, _⟩ => ⟨S4x8192x16x128, .f32⟩
  | .hbm, ⟨53, _⟩ => ⟨S4x8192x16x128, .f32⟩
  | .hbm, ⟨54, _⟩ => ⟨S4x8192x16x128, .f32⟩
  | .hbm, ⟨55, _⟩ => ⟨S4x8192x16x128, .f32⟩
  | .hbm, ⟨56, _⟩ => ⟨S4x8192x16x128, .f32⟩
  | .hbm, ⟨57, _⟩ => ⟨S4x8192x16x128, .f32⟩
  | .hbm, ⟨58, _⟩ => ⟨S_, .i32⟩
  | .hbm, ⟨59, _⟩ => ⟨S4x8192x16, .i32⟩
  | .hbm, ⟨60, _⟩ => ⟨S4x8192x16, .i1⟩
  | .hbm, ⟨61, _⟩ => ⟨S4x8192x16, .f32⟩
  | .hbm, ⟨62, _⟩ => ⟨S4x8192x16x1, .f32⟩
  | .hbm, ⟨63, _⟩ => ⟨S4x8192x16x128, .f32⟩
  | .hbm, ⟨64, _⟩ => ⟨S4x8192x16x128, .f32⟩
  | .hbm, ⟨65, _⟩ => ⟨S4x8192x16x128, .f32⟩
  | .hbm, ⟨66, _⟩ => ⟨S_, .f32⟩
  | .hbm, ⟨67, _⟩ => ⟨S4x8192x128, .f32⟩
  | .hbm, ⟨68, _⟩ => ⟨S4x8192x128, .f32⟩
  | .hbm, ⟨69, _⟩ => ⟨S4x8192x128, .f32⟩
  | .hbm, ⟨70, _⟩ => ⟨S4x8192x128, .f32⟩
  | .hbm, ⟨71, _⟩ => ⟨S_, .f32⟩
  | .hbm, ⟨72, _⟩ => ⟨S4x8192x128, .f32⟩
  | .hbm, ⟨73, _⟩ => ⟨S4x8192x128, .f32⟩
  | .hbm, ⟨74, _⟩ => ⟨S4x8192x128, .f32⟩
  | .hbm, ⟨75, _⟩ => ⟨S4x8192x128, .f32⟩
  | .hbm, ⟨76, _⟩ => ⟨S4x8192x128, .i1⟩
  | .hbm, ⟨77, _⟩ => ⟨S4x8192x128, .f32⟩
  | .hbm, ⟨78, _⟩ => ⟨S4x8192x128, .f32⟩
  | .hbm, ⟨79, _⟩ => ⟨S4x8192x128, .f32⟩
  | .hbm, ⟨80, _⟩ => ⟨S4x8192x128, .f32⟩
  | .hbm, ⟨81, _⟩ => ⟨S4x8192x128, .f32⟩
  | .hbm, ⟨82, _⟩ => ⟨S4x8192x128, .f32⟩
  | .hbm, ⟨83, _⟩ => ⟨S4x8192x128, .f32⟩
  | .hbm, ⟨84, _⟩ => ⟨S4x8192x128, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_v32 : Ref sig .tc := ⟨.hbm, 57, rfl⟩
abbrev main_c_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_v44 : Ref sig .tc := ⟨.hbm, 84, rfl⟩

abbrev nD : Nat := 1
abbrev τ : Topo := Topo.v7x

variable {F : FTy → Type} [FloatOps F]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x8192x16 : S_.BroadcastsInDim S4x8192x16 (![] : Fin 0 → Fin S4x8192x16.rank)
  bcast_S4x1x1_S4x8192x16_0_1_2 : S4x1x1.BroadcastsInDim S4x8192x16 (![0, 1, 2] : Fin 3 → Fin S4x8192x16.rank)
  bcast_S4x8192x16_S4x8192x16x1_0_1_2 : S4x8192x16.BroadcastsInDim S4x8192x16x1 (![0, 1, 2] : Fin 3 → Fin S4x8192x16x1.rank)
  concatenates_S4x8192x16x1_S4x8192x16x1_S4x8192x16x2_d3 : Shape.Concatenates [S4x8192x16x1, S4x8192x16x1] S4x8192x16x2 3
  bcast_S4x8192x128_S4x8192x1x128_0_1_3 : S4x8192x128.BroadcastsInDim S4x8192x1x128 (![0, 1, 3] : Fin 3 → Fin S4x8192x1x128.rank)
  bcast_S4x8192x1x128_S4x8192x16x128_0_1_2_3 : S4x8192x1x128.BroadcastsInDim S4x8192x16x128 (![0, 1, 2, 3] : Fin 4 → Fin S4x8192x16x128.rank)
  concatenates_S4x8192x16x128_S4x8192x16x128_S4x8192x16x64_S4x8192x16x320_d3 : Shape.Concatenates [S4x8192x16x128, S4x8192x16x128, S4x8192x16x64] S4x8192x16x320 3
  bcast_S256_S1x1x1x256_3 : S256.BroadcastsInDim S1x1x1x256 (![3] : Fin 1 → Fin S1x1x1x256.rank)
  bcast_S1x1x1x256_S4x8192x16x256_0_1_2_3 : S1x1x1x256.BroadcastsInDim S4x8192x16x256 (![0, 1, 2, 3] : Fin 4 → Fin S4x8192x16x256.rank)
  slices_S4x8192x16x256_S4x8192x16x128_0_0_0_0 : S4x8192x16x256.Slices ![0, 0, 0, 0] S4x8192x16x128
  slices_S4x8192x16x256_S4x8192x16x128_0_0_0_128 : S4x8192x16x256.Slices ![0, 0, 0, 128] S4x8192x16x128
  bcast_S_S4x8192x16x128 : S_.BroadcastsInDim S4x8192x16x128 (![] : Fin 0 → Fin S4x8192x16x128.rank)
  bcast_S4x8192x16x1_S4x8192x16x128_0_1_2_3 : S4x8192x16x1.BroadcastsInDim S4x8192x16x128 (![0, 1, 2, 3] : Fin 4 → Fin S4x8192x16x128.rank)
  reducesTo_S4x8192x16x128_S4x8192x128_d2 : S4x8192x16x128.ReducesTo [2] S4x8192x128
  h_S_ : 0 < S_.numel
  bcast_S_S4x8192x128 : S_.BroadcastsInDim S4x8192x128 (![] : Fin 0 → Fin S4x8192x128.rank)
  gather_S4x8192x128_S4x8192x16x2_S4x8192x16x128_3_01_n_n_01_3_11128_wf : GatherDims.WF S4x8192x128 S4x8192x16x2 S4x8192x16x128 [3] [0, 1] [] [0, 1] [] 3 ![1, 1, 128]
  dot_S4x8192x16x320_S256x320_S4x8192x16x256_3_1_012_0_n_n_wf : DotDims.WF S4x8192x16x320 S256x320 S4x8192x16x256 [3] [1] [0, 1, 2] [0] [] []

variable [Facts₀]

def gather_S4x8192x128_S4x8192x16x2_S4x8192x16x128_3_01_n_n_01_3_11128 : GatherDims S4x8192x128 S4x8192x16x2 S4x8192x16x128 where
  offsetDims := [3]
  collapsedSliceDims := [0, 1]
  operandBatchingDims := []
  startIndicesBatchingDims := []
  startIndexMap := [0, 1]
  indexVectorDim := 3
  sliceSizes := ![1, 1, 128]
  wf := gather_S4x8192x128_S4x8192x16x2_S4x8192x16x128_3_01_n_n_01_3_11128_wf
def dot_S4x8192x16x320_S256x320_S4x8192x16x256_3_1_012_0_n_n : DotDims S4x8192x16x320 S256x320 S4x8192x16x256 where
  lhsContracting := [3]
  rhsContracting := [1]
  lhsNonContracting := [0, 1, 2]
  rhsNonContracting := [0]
  lhsBatch := []
  rhsBatch := []
  wf := dot_S4x8192x16x320_S256x320_S4x8192x16x256_3_1_012_0_n_n_wf

class Facts : Prop extends Facts₀ where

variable [Facts]
-- ==== Proof.KernelTerms.lean ====
/-
  The body of the message-passing layer, regrouped. One grid point handles 256 destination rows; for each of the
  16 neighbour slots m it forms the pre-activation
      T_m = ((x·Wself + g_m·Wnbr) + e_m·Wedge) + bias            (a 256 × 256 matrix),
  gates it,  sigmoid(T_m[:, :128]) · [idx_m ≥ 0] · softplus(T_m[:, 128:]),  and adds the gated term to a running
  sum that starts at zero; the block written back is softplus(alpha · x + sum). The printed body spells the 16
  slots out one after the other. Here the same operations are grouped as ONE step used 16 times, so that what
  is read at an index later is read once, for a general slot.
-/
import proofs.«124449_j27573690040695_2_alg».proof.Proof.Gen.KernelIdeal.Frame

noncomputable section

namespace Cert.KernelIdeal.Layer

open Cert.KernelIdeal Cert.KernelIdeal.Gen Idealize.ShloMosaic Idealize.ShloMosaic.TcCoe Idealize.SL.Sem

variable {F : FTy → Type} [FloatOps F]

/-- softplus as the body spells it: max(u, 0) + log1p(exp(0 − |u − 0|)), behind a guard that compares u − 0 with itself. -/
def softplusV (u : FVec F S256x128 .f32) : FVec F S256x128 .f32 :=
  select (cmpf .one (subf u (broadcast S256x128 (Scalar.ofBits .f32 0x00000000#32))) (subf u (broadcast S256x128 (Scalar.ofBits .f32 0x00000000#32))))
    (addf u (broadcast S256x128 (Scalar.ofBits .f32 0x00000000#32)))
    (addf (maximumf u (broadcast S256x128 (Scalar.ofBits .f32 0x00000000#32)))
      (log1p (exp (subf (broadcast S256x128 (Scalar.ofBits .f32 0x00000000#32)) (absf (subf u (broadcast S256x128 (Scalar.ofBits .f32 0x00000000#32))))))))

/-- The product of the 256 rows with the self weights, shared by all slots. -/
def selfProduct (v1 : FVec F S256x128 .f32) (v3 : FVec F S128x256 .bf16) : FVec F S256x256 .f32 :=
  matmul dot_S256x128_S128x256_S256x256_1_0_0_1_n_n none (truncf .bf16 v1 bitsLt_bf16_f32) v3 (constant S256x256 .f32 0x00000000#32)

/-- The pre-activation of one neighbour slot: ((self + neighbour rows · Wnbr) + edge rows · Wedge) + bias. -/
def preAct (v5 : FVec F S128x256 .bf16) (v7 : FVec F S64x256 .bf16) (v9 : FVec F S256 .f32) (v13 : FVec F S256x256 .f32)
    (v17 : FVec F S256x16x128 .f32) (v19 : FVec F S256x16x64 .f32) (off : Fin 3 → Nat)
    (h1 : S256x16x128.Slices off S256x1x128) (h2 : S256x16x64.Slices off S256x1x64) : FVec F S256x256 .f32 :=
  addf (addf (addf v13
      (matmul dot_S256x128_S128x256_S256x256_1_0_0_1_n_n none
        (truncf .bf16 (shapeCast S256x128 (extractStridedSlice S256x1x128 off v17 h1) shapeCasts_S256x1x128_S256x128) bitsLt_bf16_f32) v5
        (constant S256x256 .f32 0x00000000#32)))
      (matmul dot_S256x64_S64x256_S256x256_1_0_0_1_n_n none
        (truncf .bf16 (shapeCast S256x64 (extractStridedSlice S256x1x64 off v19 h2) shapeCasts_S256x1x64_S256x64) bitsLt_bf16_f32) v7
        (constant S256x256 .f32 0x00000000#32)))
    (broadcastTo S256x256 (shapeCast S1x256 v9 shapeCasts_S256_S1x256) broadcasts_S1x256_S256x256)

/-- The 0/1 mask of one slot, one value per row, spread over the 128 features. -/
def slotMask (v15 : IVec S256x16 32) (off2 : Fin 2 → Nat) (h3 : S256x16.Slices off2 S256x1) : FVec F S256x128 .f32 :=
  broadcastTo S256x128
    (shapeCast S256x1
      (sitofp .f32 (extui 32 (cmpi .sge (shapeCast S256 (extractStridedSlice S256x1 off2 v15 h3) shapeCasts_S256x1_S256) (broadcast S256 (0#32 : BitVec 32))) natLt_1_32))
      shapeCasts_S256_S256x1)
    broadcasts_S256x1_S256x128

/-- One slot added to the running sum: acc + (sigmoid(T[:, :128]) · mask) · softplus(T[:, 128:]). -/
def gatedStep (v5 : FVec F S128x256 .bf16) (v7 : FVec F S64x256 .bf16) (v9 : FVec F S256 .f32) (v13 : FVec F S256x256 .f32)
    (v15 : IVec S256x16 32) (v17 : FVec F S256x16x128 .f32) (v19 : FVec F S256x16x64 .f32) (acc : FVec F S256x128 .f32)
    (off : Fin 3 → Nat) (off2 : Fin 2 → Nat)
    (h1 : S256x16x128.Slices off S256x1x128) (h2 : S256x16x64.Slices off S256x1x64) (h3 : S256x16.Slices off2 S256x1) : FVec F S256x128 .f32 :=
  addf acc
    (mulf (mulf (logistic (extractStridedSlice S256x128 ![0, 0] (preAct v5 v7 v9 v13 v17 v19 off h1 h2) slices_S256x256_o0_0_S256x128))
                (slotMask v15 off2 h3))
          (softplusV (extractStridedSlice S256x128 ![0, 128] (preAct v5 v7 v9 v13 v17 v19 off h1 h2) slices_S256x256_o0_128_S256x128)))

/-- The block the body stores, from the values it loads. -/
def storedBlock (x0 : Vec F S1x256x128 .f32) (x1 : Vec F S1x256x16x128 .f32) (x2 : Vec F S1x256x16x64 .f32) (x3 : Vec F S1x256x16 .i32)
    (x4 : Vec F S128x256 .bf16) (x5 : Vec F S128x256 .bf16) (x6 : Vec F S64x256 .bf16) (x7 : Vec F S1x256 .f32) (x8 : Vec F S1x1 .f32) :
    FVec F S1x256x128 .f32 :=
  have v1 : FVec F S256x128 .f32 := shapeCast S256x128 x0 shapeCasts_S1x256x128_S256x128
  have v5 : FVec F S128x256 .bf16 := shapeCast S128x256 x5 shapeCasts_S128x256_S128x256
  have v7 : FVec F S64x256 .bf16 := shapeCast S64x256 x6 shapeCasts_S64x256_S64x256
  have v9 : FVec F S256 .f32 := shapeCast S256 x7 shapeCasts_S1x256_S256
  have v11 : F .f32 := extractAt ![0, 0] x8 inpos_S1x1_p0_0
  have v13 : FVec F S256x256 .f32 := selfProduct v1 (shapeCast S128x256 x4 shapeCasts_S128x256_S128x256)
  have v15 : IVec S256x16 32 := shapeCast S256x16 x3 shapeCasts_S1x256x16_S256x16
  have v17 : FVec F S256x16x128 .f32 := shapeCast S256x16x128 x1 shapeCasts_S1x256x16x128_S256x16x128
  have v19 : FVec F S256x16x64 .f32 := shapeCast S256x16x64 x2 shapeCasts_S1x256x16x64_S256x16x64
  have a0 : FVec F S256x128 .f32 := broadcast S256x128 (Scalar.ofBits .f32 0x00000000#32)
  have a1 : FVec F S256x128 .f32 := gatedStep v5 v7 v9 v13 v15 v17 v19 a0 ![0, 0, 0] ![0, 0] slices_S256x16x128_o0_0_0_S256x1x128 slices_S256x16x64_o0_0_0_S256x1x64 slices_S256x16_o0_0_S256x1
  have a2 : FVec F S256x128 .f32 := gatedStep v5 v7 v9 v13 v15 v17 v19 a1 ![0, 1, 0] ![0, 1] slices_S256x16x128_o0_1_0_S256x1x128 slices_S256x16x64_o0_1_0_S256x1x64 slices_S256x16_o0_1_S256x1
  have a3 : FVec F S256x128 .f32 := gatedStep v5 v7 v9 v13 v15 v17 v19 a2 ![0, 2, 0] ![0, 2] slices_S256x16x128_o0_2_0_S256x1x128 slices_S256x16x64_o0_2_0_S256x1x64 slices_S256x16_o0_2_S256x1
  have a4 : FVec F S256x128 .f32 := gatedStep v5 v7 v9 v13 v15 v17 v19 a3 ![0, 3, 0] ![0, 3] slices_S256x16x128_o0_3_0_S256x1x128 slices_S256x16x64_o0_3_0_S256x1x64 slices_S256x16_o0_3_S256x1
  have a5 : FVec F S256x128 .f32 := gatedStep v5 v7 v9 v13 v15 v17 v19 a4 ![0, 4, 0] ![0, 4] slices_S256x16x128_o0_4_0_S256x1x128 slices_S256x16x64_o0_4_0_S256x1x64 slices_S256x16_o0_4_S256x1
  have a6 : FVec F S256x128 .f32 := gatedStep v5 v7 v9 v13 v15 v17 v19 a5 ![0, 5, 0] ![0, 5] slices_S256x16x128_o0_5_0_S256x1x128 slices_S256x16x64_o0_5_0_S256x1x64 slices_S256x16_o0_5_S256x1
  have a7 : FVec F S256x128 .f32 := gatedStep v5 v7 v9 v13 v15 v17 v19 a6 ![0, 6, 0] ![0, 6] slices_S256x16x128_o0_6_0_S256x1x128 slices_S256x16x64_o0_6_0_S256x1x64 slices_S256x16_o0_6_S256x1
  have a8 : FVec F S256x128 .f32 := gatedStep v5 v7 v9 v13 v15 v17 v19 a7 ![0, 7, 0] ![0, 7] slices_S256x16x128_o0_7_0_S256x1x128 slices_S256x16x64_o0_7_0_S256x1x64 slices_S256x16_o0_7_S256x1
  have a9 : FVec F S256x128 .f32 := gatedStep v5 v7 v9 v13 v15 v17 v19 a8 ![0, 8, 0] ![0, 8] slices_S256x16x128_o0_8_0_S256x1x128 slices_S256x16x64_o0_8_0_S256x1x64 slices_S256x16_o0_8_S256x1
  have a10 : FVec F S256x128 .f32 := gatedStep v5 v7 v9 v13 v15 v17 v19 a9 ![0, 9, 0] ![0, 9] slices_S256x16x128_o0_9_0_S256x1x128 slices_S256x16x64_o0_9_0_S256x1x64 slices_S256x16_o0_9_S256x1
  have a11 : FVec F S256x128 .f32 := gatedStep v5 v7 v9 v13 v15 v17 v19 a10 ![0, 10, 0] ![0, 10] slices_S256x16x128_o0_10_0_S256x1x128 slices_S256x16x64_o0_10_0_S256x1x64 slices_S256x16_o0_10_S256x1
  have a12 : FVec F S256x128 .f32 := gatedStep v5 v7 v9 v13 v15 v17 v19 a11 ![0, 11, 0] ![0, 11] slices_S256x16x128_o0_11_0_S256x1x128 slices_S256x16x64_o0_11_0_S256x1x64 slices_S256x16_o0_11_S256x1
  have a13 : FVec F S256x128 .f32 := gatedStep v5 v7 v9 v13 v15 v17 v19 a12 ![0, 12, 0] ![0, 12] slices_S256x16x128_o0_12_0_S256x1x128 slices_S256x16x64_o0_12_0_S256x1x64 slices_S256x16_o0_12_S256x1
  have a14 : FVec F S256x128 .f32 := gatedStep v5 v7 v9 v13 v15 v17 v19 a13 ![0, 13, 0] ![0, 13] slices_S256x16x128_o0_13_0_S256x1x128 slices_S256x16x64_o0_13_0_S256x1x64 slices_S256x16_o0_13_S256x1
  have a15 : FVec F S256x128 .f32 := gatedStep v5 v7 v9 v13 v15 v17 v19 a14 ![0, 14, 0] ![0, 14] slices_S256x16x128_o0_14_0_S256x1x128 slices_S256x16x64_o0_14_0_S256x1x64 slices_S256x16_o0_14_S256x1
  have a16 : FVec F S256x128 .f32 := gatedStep v5 v7 v9 v13 v15 v17 v19 a15 ![0, 15, 0] ![0, 15] slices_S256x16x128_o0_15_0_S256x1x128 slices_S256x16x64_o0_15_0_S256x1x64 slices_S256x16_o0_15_S256x1
  shapeCast S1x256x128 (softplusV (addf (mulf (broadcast S256x128 v11) v1) a16)) shapeCasts_S256x128_S1x256x128

/-- The printed body's one store is that block. -/
theorem out_eq (x0 : Vec F S1x256x128 .f32) (x1 : Vec F S1x256x16x128 .f32) (x2 : Vec F S1x256x16x64 .f32) (x3 : Vec F S1x256x16 .i32)
    (x4 : Vec F S128x256 .bf16) (x5 : Vec F S128x256 .bf16) (x6 : Vec F S64x256 .bf16) (x7 : Vec F S1x256 .f32) (x8 : Vec F S1x1 .f32) :
    out0_9 x0 x1 x2 x3 x4 x5 x6 x7 x8
      = View.canon [⟨r0_0, storedBlock (View.ld x0 r0_0) (View.ld x1 r0_6) (View.ld x2 r0_7) (View.ld x3 r0_5) (View.ld x4 r0_1)
          (View.ld x5 r0_1) (View.ld x6 r0_2) (View.ld x7 r0_3) (View.ld x8 r0_4)⟩] := rfl

end Cert.KernelIdeal.Layer

end
-- ==== Proof.RowMath.lean ====
/-
  The mathematics of one destination row of the message-passing layer, on the extended reals.

  A row has its own 128 features x, and for each of its 16 neighbour slots m the neighbour's 128 features g_m,
  the edge's 64 features e_m and a 0/1 mask. With the weight matrix cut by columns into a self, a neighbour and
  an edge part, the pre-activation of slot m at output column o is
      T_m(o) = ((Σ_k x_k · Ws(k,o) + Σ_k g_m,k · Wn(k,o)) + Σ_k e_m,k · We(k,o)) + bias(o),
  the slot's gated term at feature f is  sigmoid(T_m(f)) · mask_m · softplus(T_m(128 + f)),  and the row's output
  is  softplus(alpha · x_f + Σ_m gated_m(f)).
  Two facts join the two programs: a sum over the 320 concatenated input columns is the sum of its three column
  ranges, and a sum built up slot by slot from zero is the sum over the 16 slots. Both hold in any commutative
  additive monoid, so no finiteness of the entries is used.
-/
import Idealize.ShloMosaic.PureOps.Ideal
import Idealize.ShloMosaic.PureOps.Ideal.Laws
import Idealize.ShloMosaic.Lib.IdealHost
import Mathlib.Algebra.BigOperators.Fin

noncomputable section

namespace Cert.RowMath

open Idealize.ShloMosaic

/-- softplus, max(u, 0) + log(1 + exp(−|u|)), written with the zero the programs subtract and add. -/
def softplus (u : EReal) : EReal :=
  max u 0 + Ideal.log1p (Ideal.exp (0 - max (u - 0) (-(u - 0))))

/-- A one-bit comparison result as the number 0 or 1. -/
def bitValue (b : BitVec 1) : EReal := ((b.toNat : ℝ) : EReal)

/-- The pre-activation of one slot at output column o. -/
def preAct (xr gr : Fin 128 → EReal) (er : Fin 64 → EReal) (ws wn : Fin 128 → Fin 256 → EReal) (we : Fin 64 → Fin 256 → EReal)
    (bias : Fin 256 → EReal) (o : Fin 256) : EReal :=
  ((∑ k, xr k * ws k o + ∑ k, gr k * wn k o) + ∑ k, er k * we k o) + bias o

/-- The gated term of one slot at feature f: sigmoid of the first half, the mask, softplus of the second half. -/
def gated (T : Fin 256 → EReal) (mk : EReal) (f : Fin 128) : EReal :=
  (Ideal.logistic (T ⟨f.val, by have := f.isLt; omega⟩) * mk) * softplus (T ⟨128 + f.val, by have := f.isLt; omega⟩)

/-- The row's output at feature f. -/
def rowOut (xr : Fin 128 → EReal) (gr : Fin 16 → Fin 128 → EReal) (er : Fin 16 → Fin 64 → EReal) (mk : Fin 16 → EReal)
    (ws wn : Fin 128 → Fin 256 → EReal) (we : Fin 64 → Fin 256 → EReal) (bias : Fin 256 → EReal) (alpha : EReal) (f : Fin 128) : EReal :=
  softplus (alpha * xr f + ∑ m : Fin 16, gated (preAct xr (gr m) (er m) ws wn we bias) (mk m) f)

/-- A sum over 320 columns is the sum over columns 0–127, 128–255 and 256–319. -/
theorem sum_three_ranges {M : Type*} [AddCommMonoid M] (h : Fin 320 → M) :
    ∑ k, h k = (∑ k : Fin 128, h ⟨k.val, by have := k.isLt; omega⟩ + ∑ k : Fin 128, h ⟨128 + k.val, by have := k.isLt; omega⟩)
      + ∑ k : Fin 64, h ⟨256 + k.val, by have := k.isLt; omega⟩ := by
  have e1 : ∑ k : Fin (256 + 64), h k = ∑ k : Fin 256, h (Fin.castAdd 64 k) + ∑ k : Fin 64, h (Fin.natAdd 256 k) :=
    @Fin.sum_univ_add M _ 256 64 h
  have e2 : ∑ k : Fin (128 + 128), h (Fin.castAdd 64 k)
      = ∑ k : Fin 128, h (Fin.castAdd 64 (Fin.castAdd 128 k)) + ∑ k : Fin 128, h (Fin.castAdd 64 (Fin.natAdd 128 k)) :=
    @Fin.sum_univ_add M _ 128 128 fun k => h (Fin.castAdd 64 k)
  exact e1.trans (congrArg (· + _) e2)

/-- Sixteen terms added one after the other to zero are their sum. -/
theorem sum_sixteen {M : Type*} [AddCommMonoid M] (t : Fin 16 → M) :
    ((((((((((((((((0 + t ⟨0, by decide⟩) + t ⟨1, by decide⟩) + t ⟨2, by decide⟩) + t ⟨3, by decide⟩) + t ⟨4, by decide⟩) + t ⟨5, by decide⟩) + t ⟨6, by decide⟩) + t ⟨7, by decide⟩) + t ⟨8, by decide⟩) + t ⟨9, by decide⟩) + t ⟨10, by decide⟩) + t ⟨11, by decide⟩) + t ⟨12, by decide⟩) + t ⟨13, by decide⟩) + t ⟨14, by decide⟩) + t ⟨15, by decide⟩)
      = ∑ m, t m := by
  simp only [Fin.sum_univ_castSucc, Fin.sum_univ_zero]
  rfl

/-- A one-bit value widened to 32 bits and read as a signed integer is the bit itself. -/
theorem widened_bit (b : BitVec 1) : ((((b.setWidth 32).toInt : ℤ) : ℝ) : EReal) = bitValue b := by
  by_cases h : b = 1#1
  · subst h; simp [bitValue]
  · have h0 : b = 0#1 := by
      have := b.isLt
      apply BitVec.eq_of_toNat_eq
      have h1 : b.toNat ≠ 1 := fun e => h (BitVec.eq_of_toNat_eq (by simpa using e))
      simp; omega
    subst h0; simp [bitValue]

end Cert.RowMath

end
-- ==== Proof.KernelAtIndex.lean ====
/-
  The stored block read at one entry. Entry (r, f) of the block depends on row r only: on the row's own
  features, on its 16 neighbour and edge feature vectors, on its 16 index entries, and on the weights. Reading
  each re-laid piece at an index (a slot's slice of the neighbour tensor is that slot's rows; a product with a
  weight matrix into a zero accumulator is the plain sum over the contracted axis; the bias row and the mask
  column are spread along the other axis) turns the block into the row formula of RowMath, one row at a time.
-/
import proofs.«124449_j27573690040695_2_alg».proof.Proof.KernelTerms
import proofs.«124449_j27573690040695_2_alg».proof.Proof.RowMath
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer

open Cert.KernelIdeal Cert.KernelIdeal.Gen Idealize.ShloMosaic Idealize.ShloMosaic.TcCoe Idealize.SL.Sem
open Idealize.ShloMosaic.ValueIdx Cert.RowMath

/-! ## Re-laid pieces with a unit axis in the middle or at the end -/

section Relay
variable {α : Type}

/-- An [a, 1, b] array cast to [a, b] reads, at (i, j), the operand at (i, 0, j). -/
theorem cast_a1b_ab {a b : ℕ} (x : (⟨3, ![a, 1, b]⟩ : Shape).Idx → α) (h : (⟨3, ![a, 1, b]⟩ : Shape).ShapeCasts ⟨2, ![a, b]⟩)
    (i : Fin a) (j : Fin b) : shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An [a] array cast to [a, 1] reads, at (i, u), the operand at i. -/
theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array cast to [a] reads, at i, the operand at (i, 0). -/
theorem cast_a1_a {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An [a, 1] column spread to [a, b] reads, at (p, c), the column at p. -/
theorem spread_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Relay

/-! ## The two matrix products as sums -/

theorem lhs128_0 (i : S256x256.Idx) (q : dot_S256x128_S128x256_S256x256_1_0_0_1_n_n.contr.Idx) :
    (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide),
    dif_pos (show (0 : Fin S256x128.rank) ∈ dot_S256x128_S128x256_S256x256_1_0_0_1_n_n.lhsNonContracting by decide)]
  rfl

theorem rhs128_1 (i : S256x256.Idx) (q : dot_S256x128_S128x256_S256x256_1_0_0_1_n_n.contr.Idx) :
    (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide),
    dif_pos (show (1 : Fin S128x256.rank) ∈ dot_S256x128_S128x256_S256x256_1_0_0_1_n_n.rhsNonContracting by decide)]
  rfl

/-- 256 rows of 128 features times a 128 × 256 weight matrix, into zero: entry (r, o) is Σ_k A(r,k) · B(k,o). -/
theorem product128_apply {φ₁ φ₂ : FTy} (A : FVec Ideal S256x128 φ₁) (B : FVec Ideal S128x256 φ₂) (r o : Fin 256) :
    FloatOps.matmul dot_S256x128_S128x256_S256x256_1_0_0_1_n_n none A B (constant S256x256 .f32 0x00000000#32) (ix2 r o)
      = ∑ k : Fin 128, A (ix2 r k) * B (ix2 k o) := by
  rw [Ideal.matmul_constant_zero_apply,
    ← Equiv.sum_comp (ValueIdx.contrEquiv1 dot_S256x128_S128x256_S256x256_1_0_0_1_n_n 128 rfl rfl).symm]
  refine Finset.sum_congr rfl fun k _ => ?_
  have hk := ValueIdx.contrEquiv1_symm_val dot_S256x128_S128x256_S256x256_1_0_0_1_n_n 128 rfl rfl k
  have el : dot_S256x128_S128x256_S256x256_1_0_0_1_n_n.lhsIdx (ix2 r o)
      ((ValueIdx.contrEquiv1 dot_S256x128_S128x256_S256x256_1_0_0_1_n_n 128 rfl rfl).symm k) = ix2 r k :=
    funext fun a => Fin.ext (by
      match a with
      | ⟨0, _⟩ => exact lhs128_0 _ _
      | ⟨1, _⟩ => exact (dot_S256x128_S128x256_S256x256_1_0_0_1_n_n.lhsIdx_val_of_single rfl _ _).trans hk)
  have er : dot_S256x128_S128x256_S256x256_1_0_0_1_n_n.rhsIdx (ix2 r o)
      ((ValueIdx.contrEquiv1 dot_S256x128_S128x256_S256x256_1_0_0_1_n_n 128 rfl rfl).symm k) = ix2 k o :=
    funext fun a => Fin.ext (by
      match a with
      | ⟨0, _⟩ => exact (dot_S256x128_S128x256_S256x256_1_0_0_1_n_n.rhsIdx_val_of_single rfl _ _).trans hk
      | ⟨1, _⟩ => exact rhs128_1 _ _)
  rw [el, er]

theorem lhs64_0 (i : S256x256.Idx) (q : dot_S256x64_S64x256_S256x256_1_0_0_1_n_n.contr.Idx) :
    (dot_S256x64_S64x256_S256x256_1_0_0_1_n_n.lhsIdx i q 0).val = (i 0).val := by
  unfold DotDims.lhsIdx
  rw [dif_neg (show ¬(0 : Fin S256x64.rank) ∈ dot_S256x64_S64x256_S256x256_1_0_0_1_n_n.lhsBatch by decide),
    dif_pos (show (0 : Fin S256x64.rank) ∈ dot_S256x64_S64x256_S256x256_1_0_0_1_n_n.lhsNonContracting by decide)]
  rfl

theorem rhs64_1 (i : S256x256.Idx) (q : dot_S256x64_S64x256_S256x256_1_0_0_1_n_n.contr.Idx) :
    (dot_S256x64_S64x256_S256x256_1_0_0_1_n_n.rhsIdx i q 1).val = (i 1).val := by
  unfold DotDims.rhsIdx
  rw [dif_neg (show ¬(1 : Fin S64x256.rank) ∈ dot_S256x64_S64x256_S256x256_1_0_0_1_n_n.rhsBatch by decide),
    dif_pos (show (1 : Fin S64x256.rank) ∈ dot_S256x64_S64x256_S256x256_1_0_0_1_n_n.rhsNonContracting by decide)]
  rfl

/-- 256 rows of 64 features times a 64 × 256 weight matrix, into zero: entry (r, o) is Σ_k A(r,k) · B(k,o). -/
theorem product64_apply {φ₁ φ₂ : FTy} (A : FVec Ideal S256x64 φ₁) (B : FVec Ideal S64x256 φ₂) (r o : Fin 256) :
    FloatOps.matmul dot_S256x64_S64x256_S256x256_1_0_0_1_n_n none A B (constant S256x256 .f32 0x00000000#32) (ix2 r o)
      = ∑ k : Fin 64, A (ix2 r k) * B (ix2 k o) := by
  rw [Ideal.matmul_constant_zero_apply,
    ← Equiv.sum_comp (ValueIdx.contrEquiv1 dot_S256x64_S64x256_S256x256_1_0_0_1_n_n 64 rfl rfl).symm]
  refine Finset.sum_congr rfl fun k _ => ?_
  have hk := ValueIdx.contrEquiv1_symm_val dot_S256x64_S64x256_S256x256_1_0_0_1_n_n 64 rfl rfl k
  have el : dot_S256x64_S64x256_S256x256_1_0_0_1_n_n.lhsIdx (ix2 r o)
      ((ValueIdx.contrEquiv1 dot_S256x64_S64x256_S256x256_1_0_0_1_n_n 64 rfl rfl).symm k) = ix2 r k :=
    funext fun a => Fin.ext (by
      match a with
      | ⟨0, _⟩ => exact lhs64_0 _ _
      | ⟨1, _⟩ => exact (dot_S256x64_S64x256_S256x256_1_0_0_1_n_n.lhsIdx_val_of_single rfl _ _).trans hk)
  have er : dot_S256x64_S64x256_S256x256_1_0_0_1_n_n.rhsIdx (ix2 r o)
      ((ValueIdx.contrEquiv1 dot_S256x64_S64x256_S256x256_1_0_0_1_n_n 64 rfl rfl).symm k) = ix2 k o :=
    funext fun a => Fin.ext (by
      match a with
      | ⟨0, _⟩ => exact (dot_S256x64_S64x256_S256x256_1_0_0_1_n_n.rhsIdx_val_of_single rfl _ _).trans hk
      | ⟨1, _⟩ => exact rhs64_1 _ _)
  rw [el, er]

/-! ## The pieces of one slot at an index -/

/-- softplus of a block, entry by entry. -/
theorem softplusV_apply (u : FVec Ideal S256x128 .f32) (i : S256x128.Idx) : softplusV u i = softplus (u i) := by
  show Scalar.select (Ideal.cmp .one (u i - Ideal.ofBits .f32 0x00000000#32) (u i - Ideal.ofBits .f32 0x00000000#32))
      (u i + Ideal.ofBits .f32 0x00000000#32)
      (max (u i) (Ideal.ofBits .f32 0x00000000#32)
        + Ideal.log1p (Ideal.exp (Ideal.ofBits .f32 0x00000000#32
            - max (u i - Ideal.ofBits .f32 0x00000000#32) (-(u i - Ideal.ofBits .f32 0x00000000#32))))) = _
  rw [Ideal.ofBits_zero_f32]
  have hc : Ideal.cmp .one (u i - 0) (u i - 0) = 0#1 := by simp [Ideal.cmp]
  rw [hc, select_zero]
  rfl

/-- The pre-activation of slot m at (r, o): the self product plus the slot's neighbour and edge products plus the bias. -/
theorem preAct_apply (v5 : FVec Ideal S128x256 .bf16) (v7 : FVec Ideal S64x256 .bf16) (v9 : FVec Ideal S256 .f32)
    (v13 : FVec Ideal S256x256 .f32) (v17 : FVec Ideal S256x16x128 .f32) (v19 : FVec Ideal S256x16x64 .f32)
    (m : ℕ) (hm : m < 16) (h1 : S256x16x128.Slices ![0, m, 0] S256x1x128) (h2 : S256x16x64.Slices ![0, m, 0] S256x1x64)
    (r o : Fin 256) :
    preAct v5 v7 v9 v13 v17 v19 ![0, m, 0] h1 h2 (ix2 r o)
      = ((v13 (ix2 r o) + ∑ k : Fin 128, v17 (ix3 r ⟨m, hm⟩ k) * v5 (ix2 k o))
          + ∑ k : Fin 64, v19 (ix3 r ⟨m, hm⟩ k) * v7 (ix2 k o)) + v9 (ix1 o) := by
  show ((v13 (ix2 r o) + FloatOps.matmul dot_S256x128_S128x256_S256x256_1_0_0_1_n_n none _ v5 (constant S256x256 .f32 0x00000000#32) (ix2 r o))
      + FloatOps.matmul dot_S256x64_S64x256_S256x256_1_0_0_1_n_n none _ v7 (constant S256x256 .f32 0x00000000#32) (ix2 r o))
      + broadcastTo S256x256 (shapeCast S1x256 v9 shapeCasts_S256_S1x256) broadcasts_S1x256_S256x256 (ix2 r o) = _
  rw [product128_apply, product64_apply, broadcastTo_1b_ab_apply, shapeCast_a_1a_apply]
  have e1 : ∀ k : Fin 128, (truncf .bf16 (shapeCast S256x128 (extractStridedSlice S256x1x128 ![0, m, 0] v17 h1) shapeCasts_S256x1x128_S256x128) bitsLt_bf16_f32 : FVec Ideal S256x128 .bf16) (ix2 r k)
      = v17 (ix3 r ⟨m, hm⟩ k) := fun k => by
    show shapeCast S256x128 (extractStridedSlice S256x1x128 ![0, m, 0] v17 h1) shapeCasts_S256x1x128_S256x128 (ix2 r k) = _
    rw [cast_a1b_ab]
    exact slice3_axis1_apply m v17 h1 r 0 k ⟨m, hm⟩ rfl
  have e2 : ∀ k : Fin 64, (truncf .bf16 (shapeCast S256x64 (extractStridedSlice S256x1x64 ![0, m, 0] v19 h2) shapeCasts_S256x1x64_S256x64) bitsLt_bf16_f32 : FVec Ideal S256x64 .bf16) (ix2 r k)
      = v19 (ix3 r ⟨m, hm⟩ k) := fun k => by
    show shapeCast S256x64 (extractStridedSlice S256x1x64 ![0, m, 0] v19 h2) shapeCasts_S256x1x64_S256x64 (ix2 r k) = _
    rw [cast_a1b_ab]
    exact slice3_axis1_apply m v19 h2 r 0 k ⟨m, hm⟩ rfl
  simp only [e1, e2]

/-- The mask of slot m at (r, f): 1 if the row's index entry of that slot is non-negative, else 0. -/
theorem slotMask_apply (v15 : IVec S256x16 32) (m : ℕ) (hm : m < 16) (h3 : S256x16.Slices ![0, m] S256x1) (r : Fin 256) (f : Fin 128) :
    slotMask (F := Ideal) v15 ![0, m] h3 (ix2 r f) = bitValue (IntOp.cmpi .sge (v15 (ix2 r ⟨m, hm⟩)) 0#32) := by
  unfold slotMask
  rw [spread_a1_ab, cast_a_a1]
  show (((((IntOp.cmpi .sge (shapeCast S256 (extractStridedSlice S256x1 ![0, m] v15 h3) shapeCasts_S256x1_S256 (ix1 r)) 0#32).setWidth 32).toInt : ℤ) : ℝ) : EReal) = _
  rw [widened_bit, cast_a1_a, slice2_axis1_apply m v15 h3 r 0 ⟨m, hm⟩ rfl]

/-- One slot's step at (r, f): the running sum plus the slot's gated term of row r. -/
theorem gatedStep_apply (v5 : FVec Ideal S128x256 .bf16) (v7 : FVec Ideal S64x256 .bf16) (v9 : FVec Ideal S256 .f32)
    (v13 : FVec Ideal S256x256 .f32) (v15 : IVec S256x16 32) (v17 : FVec Ideal S256x16x128 .f32) (v19 : FVec Ideal S256x16x64 .f32)
    (acc : FVec Ideal S256x128 .f32) (m : ℕ) (hm : m < 16)
    (h1 : S256x16x128.Slices ![0, m, 0] S256x1x128) (h2 : S256x16x64.Slices ![0, m, 0] S256x1x64) (h3 : S256x16.Slices ![0, m] S256x1)
    (r : Fin 256) (f : Fin 128) :
    gatedStep v5 v7 v9 v13 v15 v17 v19 acc ![0, m, 0] ![0, m] h1 h2 h3 (ix2 r f)
      = acc (ix2 r f) + gated (fun o => ((v13 (ix2 r o) + ∑ k : Fin 128, v17 (ix3 r ⟨m, hm⟩ k) * v5 (ix2 k o))
              + ∑ k : Fin 64, v19 (ix3 r ⟨m, hm⟩ k) * v7 (ix2 k o)) + v9 (ix1 o))
          (bitValue (IntOp.cmpi .sge (v15 (ix2 r ⟨m, hm⟩)) 0#32)) f := by
  show acc (ix2 r f) + (Ideal.logistic (extractStridedSlice S256x128 ![0, 0] (preAct v5 v7 v9 v13 v17 v19 ![0, m, 0] h1 h2) slices_S256x256_o0_0_S256x128 (ix2 r f))
        * slotMask (F := Ideal) v15 ![0, m] h3 (ix2 r f))
      * softplusV (extractStridedSlice S256x128 ![0, 128] (preAct v5 v7 v9 v13 v17 v19 ![0, m, 0] h1 h2) slices_S256x256_o0_128_S256x128) (ix2 r f) = _
  rw [softplusV_apply, slotMask_apply v15 m hm h3 r f,
    slice2_axis1_apply 0 _ slices_S256x256_o0_0_S256x128 r f ⟨f.val, by have := f.isLt; omega⟩ (Nat.zero_add _).symm,
    slice2_axis1_apply 128 _ slices_S256x256_o0_128_S256x128 r f ⟨128 + f.val, by have := f.isLt; omega⟩ rfl,
    preAct_apply v5 v7 v9 v13 v17 v19 m hm h1 h2, preAct_apply v5 v7 v9 v13 v17 v19 m hm h1 h2]
  rfl

/-! ## The stored block at an index -/

/-- Entry (0, r, f) of the stored block is the row formula of row r at feature f. -/
theorem storedBlock_apply (x0 : Vec Ideal S1x256x128 .f32) (x1 : Vec Ideal S1x256x16x128 .f32) (x2 : Vec Ideal S1x256x16x64 .f32)
    (x3 : Vec Ideal S1x256x16 .i32) (x4 : Vec Ideal S128x256 .bf16) (x5 : Vec Ideal S128x256 .bf16) (x6 : Vec Ideal S64x256 .bf16)
    (x7 : Vec Ideal S1x256 .f32) (x8 : Vec Ideal S1x1 .f32) (u : Fin 1) (r : Fin 256) (f : Fin 128) :
    storedBlock x0 x1 x2 x3 x4 x5 x6 x7 x8 (ix3 u r f)
      = rowOut (fun k => x0 (ix3 (0 : Fin 1) r k)) (fun m k => x1 (ix4 (0 : Fin 1) r m k)) (fun m k => x2 (ix4 (0 : Fin 1) r m k))
          (fun m => bitValue (IntOp.cmpi .sge (x3 (ix3 (0 : Fin 1) r m)) 0#32))
          (fun k o => x4 (ix2 k o)) (fun k o => x5 (ix2 k o)) (fun k o => x6 (ix2 k o))
          (fun o => x7 (ix2 (0 : Fin 1) o)) (x8 (ix2 (0 : Fin 1) (0 : Fin 1))) f := by
  unfold storedBlock
  rw [shapeCast_ab_1ab_apply, softplusV_apply]
  show softplus (extractAt ![0, 0] x8 inpos_S1x1_p0_0 * shapeCast S256x128 x0 shapeCasts_S1x256x128_S256x128 (ix2 r f) + _) = _
  rw [gatedStep_apply (m := 15) (hm := by decide)]
  rw [gatedStep_apply (m := 14) (hm := by decide)]
  rw [gatedStep_apply (m := 13) (hm := by decide)]
  rw [gatedStep_apply (m := 12) (hm := by decide)]
  rw [gatedStep_apply (m := 11) (hm := by decide)]
  rw [gatedStep_apply (m := 10) (hm := by decide)]
  rw [gatedStep_apply (m := 9) (hm := by decide)]
  rw [gatedStep_apply (m := 8) (hm := by decide)]
  rw [gatedStep_apply (m := 7) (hm := by decide)]
  rw [gatedStep_apply (m := 6) (hm := by decide)]
  rw [gatedStep_apply (m := 5) (hm := by decide)]
  rw [gatedStep_apply (m := 4) (hm := by decide)]
  rw [gatedStep_apply (m := 3) (hm := by decide)]
  rw [gatedStep_apply (m := 2) (hm := by decide)]
  rw [gatedStep_apply (m := 1) (hm := by decide)]
  rw [gatedStep_apply (m := 0) (hm := by decide)]
  have hself : ∀ o : Fin 256, selfProduct (F := Ideal) (shapeCast S256x128 x0 shapeCasts_S1x256x128_S256x128) x4 (ix2 r o)
      = ∑ k : Fin 128, x0 (ix3 (0 : Fin 1) r k) * x4 (ix2 k o) := fun o => by
    show FloatOps.matmul (F := Ideal) dot_S256x128_S128x256_S256x256_1_0_0_1_n_n none
      (truncf .bf16 (shapeCast S256x128 x0 shapeCasts_S1x256x128_S256x128) bitsLt_bf16_f32 : FVec Ideal S256x128 .bf16)
      (x4 : FVec Ideal S128x256 .bf16) (constant S256x256 .f32 0x00000000#32) (ix2 r o) = _
    rw [product128_apply]
    refine Finset.sum_congr rfl fun k _ => ?_
    show shapeCast S256x128 x0 shapeCasts_S1x256x128_S256x128 (ix2 r k) * x4 (ix2 k o) = _
    rw [shapeCast_1ab_ab_apply]
  have halpha : extractAt ![0, 0] x8 inpos_S1x1_p0_0 = x8 (ix2 (0 : Fin 1) (0 : Fin 1)) :=
    congrArg x8 (funext fun a => Fin.ext (by match a with | ⟨0, _⟩ => rfl | ⟨1, _⟩ => rfl))
  have hzero : (Scalar.ofBits .f32 0x00000000#32 : Ideal .f32) = 0 := Ideal.ofBits_zero_f32
  simp only [hself, halpha, hzero, broadcast_apply, shapeCast_1ab_ab_apply, shapeCast_1abc_abc_apply, shapeCast_self, shapeCast_1a_a_apply]
  unfold rowOut
  refine congrArg softplus (congrArg (fun z => x8 (ix2 (0 : Fin 1) (0 : Fin 1)) * x0 (ix3 (0 : Fin 1) r f) + z) ?_)
  exact sum_sixteen (fun s => gated (Cert.RowMath.preAct (fun k => x0 (ix3 (0 : Fin 1) r k)) (fun k => x1 (ix4 (0 : Fin 1) r s k)) (fun k => x2 (ix4 (0 : Fin 1) r s k))
    (fun k o => x4 (ix2 k o)) (fun k o => x5 (ix2 k o)) (fun k o => x6 (ix2 k o)) (fun o => x7 (ix2 (0 : Fin 1) o)))
    (bitValue (IntOp.cmpi .sge (x3 (ix3 (0 : Fin 1) r s)) 0#32)) f)

end Cert.KernelIdeal.Layer

end
-- ==== Proof.KernelArray.lean ====
/-
  From blocks to the whole array. The grid has one point per batch b and per group of 256 destination rows; the
  point's blocks of the row features, of the gathered neighbour features, of the edge features and of the
  indices are the same 256 rows of batch b, the weights, bias and alpha are whole, and the point writes back
  rows 256·q … 256·q + 255 of batch b. Since entry (r, f) of the stored block is the row formula of row r, what a
  point writes is its block of ONE whole-array function, the row formula at every (b, n, f); the 4 × 32 blocks
  tile the array, so after the run the output array is that function.
-/
import proofs.«124449_j27573690040695_2_alg».proof.Proof.KernelAtIndex
import proofs.«124449_j27573690040695_2_alg».proof.Proof.Gen.KernelIdeal.Value

noncomputable section

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx Cert.RowMath

/-- The layer's output as one function of the whole arrays: at (b, n, f) the row formula of row (b, n). -/
def layerOut (X : S4x8192x128.Idx → EReal) (Nb : S4x8192x16x128.Idx → EReal) (E : S4x8192x16x64.Idx → EReal)
    (I : S4x8192x16.Idx → BitVec 32) (Ws Wn : S128x256.Idx → EReal) (We : S64x256.Idx → EReal)
    (B2 : S1x256.Idx → EReal) (A2 : S1x1.Idx → EReal) : S4x8192x128.Idx → EReal := fun i =>
  rowOut (fun k => X (ix3 (i 0) (i 1) k)) (fun s k => Nb (ix4 (i 0) (i 1) s k)) (fun s k => E (ix4 (i 0) (i 1) s k))
    (fun s => bitValue (IntOp.cmpi .sge (I (ix3 (i 0) (i 1) s)) 0#32))
    (fun k o => Ws (ix2 k o)) (fun k o => Wn (ix2 k o)) (fun k o => We (ix2 k o))
    (fun o => B2 (ix2 (0 : Fin 1) o)) (A2 (ix2 (0 : Fin 1) (0 : Fin 1))) (i 2)

variable (m : (ℓ : Loc nD τ sig) → Buf (Elt Ideal) ℓ) (ρ : Dev nD → PrngReg)

theorem zero3 : (![0, 0, 0] : Fin 3 → Nat) = fun _ => 0 := funext fun a => by fin_cases a <;> rfl
theorem zero4 : (![0, 0, 0, 0] : Fin 4 → Nat) = fun _ => 0 := funext fun a => by fin_cases a <;> rfl
theorem zero2 : (![0, 0] : Fin 2 → Nat) = fun _ => 0 := funext fun a => by fin_cases a <;> rfl

/-- The index maps over the grid: the four row-blocked inputs move with the output along batch and row group and
    stand still on their other axes; the weights, bias and alpha never move. -/
theorem index_facts : ∀ t : Fin cfg0.N,
    win0_0.index t (0 : Fin 3) = win0_9.index t (0 : Fin 3) ∧ win0_0.index t (1 : Fin 3) = win0_9.index t (1 : Fin 3) ∧ win0_0.index t (2 : Fin 3) = 0
    ∧ win0_1.index t (0 : Fin 4) = win0_9.index t (0 : Fin 3) ∧ win0_1.index t (1 : Fin 4) = win0_9.index t (1 : Fin 3) ∧ win0_1.index t (2 : Fin 4) = 0 ∧ win0_1.index t (3 : Fin 4) = 0
    ∧ win0_2.index t (0 : Fin 4) = win0_9.index t (0 : Fin 3) ∧ win0_2.index t (1 : Fin 4) = win0_9.index t (1 : Fin 3) ∧ win0_2.index t (2 : Fin 4) = 0 ∧ win0_2.index t (3 : Fin 4) = 0
    ∧ win0_3.index t (0 : Fin 3) = win0_9.index t (0 : Fin 3) ∧ win0_3.index t (1 : Fin 3) = win0_9.index t (1 : Fin 3) ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) ≤ 3 ∧ win0_9.index t (1 : Fin 3) ≤ 31 ∧ win0_9.index t (2 : Fin 3) = 0 :=
  (by decide +kernel : ∀ t : Fin grid0.N, _)

/-- Every (batch, row group) is some point's. -/
theorem index_onto : ∀ (q0 : Fin 4) (q1 : Fin 32), ∃ t : Fin cfg0.N, win0_9.index t = ![q0.val, q1.val, 0] :=
  (by decide +kernel : ∀ (q0 : Fin 4) (q1 : Fin 32), ∃ t : Fin grid0.N, win0_9.index t = ![q0.val, q1.val, 0])

set_option maxHeartbeats 4000000 in
/-- What point t writes back is its block of the whole-array function, of the arrays as the region finds them. -/
theorem flushed_eq (c : Dev nD) (t : Fin cfg0.N) :
    (dats m 0 c).flushed 9 t = ((cfg0.win 9).blk t).view.read (Elt Ideal)
      (layerOut (V m c main_arg0) (V m c main_v16) (V m c main_arg1) (V m c main_arg2) (V m c main_v19) (V m c main_v22)
        (V m c main_v25) (V m c main_v26) (V m c main_v27)) := by
  show (cfg0.win 9).cut (grid0.coords t) ((dats m 0 c).after 9 t) = _
  rw [after0_9, out_eq, View.canon_unit_zero zero3]
  simp only [View.ld_unit_zero (S := S1x256x128) zero3, View.ld_unit_zero (S := S1x256x16x128) zero4,
    View.ld_unit_zero (S := S1x256x16x64) zero4, View.ld_unit_zero (S := S1x256x16) zero3,
    View.ld_unit_zero (S := S128x256) zero2, View.ld_unit_zero (S := S64x256) zero2,
    View.ld_unit_zero (S := S1x256) zero2, View.ld_unit_zero (S := S1x1) zero2]
  obtain ⟨a00, a01, a02, a10, a11, a12, a13, a20, a21, a22, a23, a30, a31, a32, a40, a41, a50, a51, a60, a61, a70, a71, a80, a81, b0, b1, b2⟩ :=
    index_facts t
  have key : ∀ j : S1x256x128.Idx,
      storedBlock (iblk m c 0 t) (iblk m c 1 t) (iblk m c 2 t) (iblk m c 3 t) (iblk m c 4 t) (iblk m c 5 t) (iblk m c 6 t)
          (iblk m c 7 t) (iblk m c 8 t) j
        = layerOut (V m c main_arg0) (V m c main_v16) (V m c main_arg1) (V m c main_arg2) (V m c main_v19) (V m c main_v22)
            (V m c main_v25) (V m c main_v26) (V m c main_v27) (((cfg0.win 9).blk t).view.emb j) := fun j => by
    obtain ⟨u, r, f, rfl⟩ : ∃ (u : Fin 1) (r : Fin 256) (f : Fin 128), j = ix3 u r f := ⟨j 0, j 1, j 2, eq_ix3 j⟩
    refine (storedBlock_apply (iblk m c 0 t) (iblk m c 1 t) (iblk m c 2 t) (iblk m c 3 t) (iblk m c 4 t) (iblk m c 5 t)
      (iblk m c 6 t) (iblk m c 7 t) (iblk m c 8 t) u r f).trans ?_
    have hu : u.val = 0 := by omega
    unfold layerOut
    have e0 : (fun k : Fin 128 => iblk m c 0 t (ix3 (0 : Fin 1) r k))
        = fun k => V m c main_arg0 (ix3 ((((cfg0.win 9).blk t).view.emb (ix3 u r f)) 0) ((((cfg0.win 9).blk t).view.emb (ix3 u r f)) 1) k) :=
      funext fun k => by
        show V m c main_arg0 (((cfg0.win 0).blk t).view.emb (ix3 (0 : Fin 1) r k)) = _
        refine congrArg (V m c main_arg0) (funext fun a => Fin.ext ?_)
        match a with
        | ⟨0, _⟩ => show win0_0.index t (0 : Fin 3) * 1 + 1 * 0 = win0_9.index t (0 : Fin 3) * 1 + 1 * u.val; omega
        | ⟨1, _⟩ => show win0_0.index t (1 : Fin 3) * 256 + 1 * r.val = win0_9.index t (1 : Fin 3) * 256 + 1 * r.val; omega
        | ⟨2, _⟩ => show win0_0.index t (2 : Fin 3) * 128 + 1 * k.val = k.val; omega
    have e1 : (fun (s : Fin 16) (k : Fin 128) => iblk m c 1 t (ix4 (0 : Fin 1) r s k))
        = fun s k => V m c main_v16 (ix4 ((((cfg0.win 9).blk t).view.emb (ix3 u r f)) 0) ((((cfg0.win 9).blk t).view.emb (ix3 u r f)) 1) s k) :=
      funext fun s => funext fun k => by
        show V m c main_v16 (((cfg0.win 1).blk t).view.emb (ix4 (0 : Fin 1) r s k)) = _
        refine congrArg (V m c main_v16) (funext fun a => Fin.ext ?_)
        match a with
        | ⟨0, _⟩ => show win0_1.index t (0 : Fin 4) * 1 + 1 * 0 = win0_9.index t (0 : Fin 3) * 1 + 1 * u.val; omega
        | ⟨1, _⟩ => show win0_1.index t (1 : Fin 4) * 256 + 1 * r.val = win0_9.index t (1 : Fin 3) * 256 + 1 * r.val; omega
        | ⟨2, _⟩ => show win0_1.index t (2 : Fin 4) * 16 + 1 * s.val = s.val; omega
        | ⟨3, _⟩ => show win0_1.index t (3 : Fin 4) * 128 + 1 * k.val = k.val; omega
    have e2 : (fun (s : Fin 16) (k : Fin 64) => iblk m c 2 t (ix4 (0 : Fin 1) r s k))
        = fun s k => V m c main_arg1 (ix4 ((((cfg0.win 9).blk t).view.emb (ix3 u r f)) 0) ((((cfg0.win 9).blk t).view.emb (ix3 u r f)) 1) s k) :=
      funext fun s => funext fun k => by
        show V m c main_arg1 (((cfg0.win 2).blk t).view.emb (ix4 (0 : Fin 1) r s k)) = _
        refine congrArg (V m c main_arg1) (funext fun a => Fin.ext ?_)
        match a with
        | ⟨0, _⟩ => show win0_2.index t (0 : Fin 4) * 1 + 1 * 0 = win0_9.index t (0 : Fin 3) * 1 + 1 * u.val; omega
        | ⟨1, _⟩ => show win0_2.index t (1 : Fin 4) * 256 + 1 * r.val = win0_9.index t (1 : Fin 3) * 256 + 1 * r.val; omega
        | ⟨2, _⟩ => show win0_2.index t (2 : Fin 4) * 16 + 1 * s.val = s.val; omega
        | ⟨3, _⟩ => show win0_2.index t (3 : Fin 4) * 64 + 1 * k.val = k.val; omega
    have e3 : (fun s : Fin 16 => bitValue (IntOp.cmpi .sge (iblk m c 3 t (ix3 (0 : Fin 1) r s)) 0#32))
        = fun s => bitValue (IntOp.cmpi .sge (V m c main_arg2 (ix3 ((((cfg0.win 9).blk t).view.emb (ix3 u r f)) 0) ((((cfg0.win 9).blk t).view.emb (ix3 u r f)) 1) s)) 0#32) :=
      funext fun s => by
        show bitValue (IntOp.cmpi .sge (V m c main_arg2 (((cfg0.win 3).blk t).view.emb (ix3 (0 : Fin 1) r s))) 0#32) = _
        refine congrArg (fun z => bitValue (IntOp.cmpi .sge (V m c main_arg2 z) 0#32)) (funext fun a => Fin.ext ?_)
        match a with
        | ⟨0, _⟩ => show win0_3.index t (0 : Fin 3) * 1 + 1 * 0 = win0_9.index t (0 : Fin 3) * 1 + 1 * u.val; omega
        | ⟨1, _⟩ => show win0_3.index t (1 : Fin 3) * 256 + 1 * r.val = win0_9.index t (1 : Fin 3) * 256 + 1 * r.val; omega
        | ⟨2, _⟩ => show win0_3.index t (2 : Fin 3) * 16 + 1 * s.val = s.val; omega
    have e4 : (fun (k : Fin 128) (o : Fin 256) => iblk m c 4 t (ix2 k o)) = fun k o => V m c main_v19 (ix2 k o) :=
      funext fun k => funext fun o => by
        show V m c main_v19 (((cfg0.win 4).blk t).view.emb (ix2 k o)) = _
        refine congrArg (V m c main_v19) (funext fun a => Fin.ext ?_)
        match a with
        | ⟨0, _⟩ => show win0_4.index t (0 : Fin 2) * 128 + 1 * k.val = k.val; omega
        | ⟨1, _⟩ => show win0_4.index t (1 : Fin 2) * 256 + 1 * o.val = o.val; omega
    have e5 : (fun (k : Fin 128) (o : Fin 256) => iblk m c 5 t (ix2 k o)) = fun k o => V m c main_v22 (ix2 k o) :=
      funext fun k => funext fun o => by
        show V m c main_v22 (((cfg0.win 5).blk t).view.emb (ix2 k o)) = _
        refine congrArg (V m c main_v22) (funext fun a => Fin.ext ?_)
        match a with
        | ⟨0, _⟩ => show win0_5.index t (0 : Fin 2) * 128 + 1 * k.val = k.val; omega
        | ⟨1, _⟩ => show win0_5.index t (1 : Fin 2) * 256 + 1 * o.val = o.val; omega
    have e6 : (fun (k : Fin 64) (o : Fin 256) => iblk m c 6 t (ix2 k o)) = fun k o => V m c main_v25 (ix2 k o) :=
      funext fun k => funext fun o => by
        show V m c main_v25 (((cfg0.win 6).blk t).view.emb (ix2 k o)) = _
        refine congrArg (V m c main_v25) (funext fun a => Fin.ext ?_)
        match a with
        | ⟨0, _⟩ => show win0_6.index t (0 : Fin 2) * 64 + 1 * k.val = k.val; omega
        | ⟨1, _⟩ => show win0_6.index t (1 : Fin 2) * 256 + 1 * o.val = o.val; omega
    have e7 : (fun o : Fin 256 => iblk m c 7 t (ix2 (0 : Fin 1) o)) = fun o => V m c main_v26 (ix2 (0 : Fin 1) o) :=
      funext fun o => by
        show V m c main_v26 (((cfg0.win 7).blk t).view.emb (ix2 (0 : Fin 1) o)) = _
        refine congrArg (V m c main_v26) (funext fun a => Fin.ext ?_)
        match a with
        | ⟨0, _⟩ => show win0_7.index t (0 : Fin 2) * 1 + 1 * 0 = 0; omega
        | ⟨1, _⟩ => show win0_7.index t (1 : Fin 2) * 256 + 1 * o.val = o.val; omega
    have e8 : iblk m c 8 t (ix2 (0 : Fin 1) (0 : Fin 1)) = V m c main_v27 (ix2 (0 : Fin 1) (0 : Fin 1)) := by
      show V m c main_v27 (((cfg0.win 8).blk t).view.emb (ix2 (0 : Fin 1) (0 : Fin 1))) = _
      refine congrArg (V m c main_v27) (funext fun a => Fin.ext ?_)
      match a with
      | ⟨0, _⟩ => show win0_8.index t (0 : Fin 2) * 1 + 1 * 0 = 0; omega
      | ⟨1, _⟩ => show win0_8.index t (1 : Fin 2) * 1 + 1 * 0 = 0; omega
    have ef : f = (((cfg0.win 9).blk t).view.emb (ix3 u r f)) 2 := Fin.ext (by show f.val = win0_9.index t (2 : Fin 3) * 128 + 1 * f.val; omega)
    rw [e0, e1, e2, e3, e4, e5, e6, e7, e8]
    exact congrArg _ ef
  exact funext key

end Cert.KernelIdeal.Layer

end
-- ==== Proof.ReferenceLine.lean ====
/-
  The reference as a straight line of array operations, run. Every operation writes one buffer of its own from
  buffers written earlier, so after the line each buffer holds its operation applied to what its operands held.
  Followed one operation at a time, carrying only the buffers still to be read, the result buffer ends at the
  composition named here in stages: the gathered neighbour features; the pre-activations (the concatenated
  features times the weights plus the bias); their sigmoid and softplus halves; the masks; the gated terms;
  alpha times the features plus the sum over the slots; and softplus of that. The arguments are never written.
-/
import proofs.«124449_j27573690040695_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The operations, in program order -/

abbrev o_0 : HloOp τ sig (Elt F) :=
  StableHlo.nullary main_v0 (iotaInDim S4 32 0)
abbrev o_1 : HloOp τ sig (Elt F) :=
  StableHlo.unary main_v0 main_v1 (broadcastInDim S4x1x1 ![0] bcast_S4_S4x1x1_0 : (⟨S4, .i32⟩ : BufTy).Contents (Elt F) → (⟨S4x1x1, .i32⟩ : BufTy).Contents (Elt F))
abbrev o_2 : HloOp τ sig (Elt F) :=
  StableHlo.nullary main_c (constantI S_ 32 0#32)
abbrev o_3 : HloOp τ sig (Elt F) :=
  StableHlo.unary main_c main_v2 (broadcastInDim S4x1x1 ![] bcast_S_S4x1x1 : (⟨S_, .i32⟩ : BufTy).Contents (Elt F) → (⟨S4x1x1, .i32⟩ : BufTy).Contents (Elt F))
abbrev o_4 : HloOp τ sig (Elt F) :=
  StableHlo.binary main_v1 main_v2 main_v3 (cmpi .slt : (⟨S4x1x1, .i32⟩ : BufTy).Contents (Elt F) → (⟨S4x1x1, .i32⟩ : BufTy).Contents (Elt F) → (⟨S4x1x1, .i1⟩ : BufTy).Contents (Elt F))
abbrev o_5 : HloOp τ sig (Elt F) :=
  StableHlo.nullary main_c_0 (constantI S_ 32 4#32)
abbrev o_6 : HloOp τ sig (Elt F) :=
  StableHlo.unary main_c_0 main_v4 (broadcastInDim S4x1x1 ![] bcast_S_S4x1x1 : (⟨S_, .i32⟩ : BufTy).Contents (Elt F) → (⟨S4x1x1, .i32⟩ : BufTy).Contents (Elt F))
abbrev o_7 : HloOp τ sig (Elt F) :=
  StableHlo.binary main_v1 main_v4 main_v5 (addi : (⟨S4x1x1, .i32⟩ : BufTy).Contents (Elt F) → (⟨S4x1x1, .i32⟩ : BufTy).Contents (Elt F) → (⟨S4x1x1, .i32⟩ : BufTy).Contents (Elt F))
abbrev o_8 : HloOp τ sig (Elt F) :=
  StableHlo.ternary main_v3 main_v5 main_v1 main_v6 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F))
abbrev o_9 : HloOp τ sig (Elt F) :=
  StableHlo.nullary main_c_1 (constantI S_ 32 0#32)
abbrev o_10 : HloOp τ sig (Elt F) :=
  StableHlo.unary main_c_1 main_v7 (broadcastInDim S4x8192x16 ![] bcast_S_S4x8192x16 : (⟨S_, .i32⟩ : BufTy).Contents (Elt F) → (⟨S4x8192x16, .i32⟩ : BufTy).Contents (Elt F))
abbrev o_11 : HloOp τ sig (Elt F) :=
  StableHlo.binary main_arg2 main_v7 main_v8 (cmpi .slt : (⟨S4x8192x16, .i32⟩ : BufTy).Contents (Elt F) → (⟨S4x8192x16, .i32⟩ : BufTy).Contents (Elt F) → (⟨S4x8192x16, .i1⟩ : BufTy).Contents (Elt F))
abbrev o_12 : HloOp τ sig (Elt F) :=
  StableHlo.nullary main_c_2 (constantI S_ 32 8192#32)
abbrev o_13 : HloOp τ sig (Elt F) :=
  StableHlo.unary main_c_2 main_v9 (broadcastInDim S4x8192x16 ![] bcast_S_S4x8192x16 : (⟨S_, .i32⟩ : BufTy).Contents (Elt F) → (⟨S4x8192x16, .i32⟩ : BufTy).Contents (Elt F))
abbrev o_14 : HloOp τ sig (Elt F) :=
  StableHlo.binary main_arg2 main_v9 main_v10 (addi : (⟨S4x8192x16, .i32⟩ : BufTy).Contents (Elt F) → (⟨S4x8192x16, .i32⟩ : BufTy).Contents (Elt F) → (⟨S4x8192x16, .i32⟩ : BufTy).Contents (Elt F))
abbrev o_15 : HloOp τ sig (Elt F) :=
  StableHlo.ternary main_v8 main_v10 main_arg2 main_v11 (select : (⟨S4x8192x16, .i1⟩ : BufTy).Contents (Elt F) → (⟨S4x8192x16, .i32⟩ : BufTy).Contents (Elt F) → (⟨S4x8192x16, .i32⟩ : BufTy).Contents (Elt F) → (⟨S4x8192x16, .i32⟩ : BufTy).Contents (Elt F))
abbrev o_16 : HloOp τ sig (Elt F) :=
  StableHlo.unary main_v6 main_v12 (broadcastInDim S4x8192x16 ![0, 1, 2] bcast_S4x1x1_S4x8192x16_0_1_2 : (⟨S4x1x1, .i32⟩ : BufTy).Contents (Elt F) → (⟨S4x8192x16, .i32⟩ : BufTy).Contents (Elt F))
abbrev o_17 : HloOp τ sig (Elt F) :=
  StableHlo.unary main_v12 main_v13 (broadcastInDim S4x8192x16x1 ![0, 1, 2] bcast_S4x8192x16_S4x8192x16x1_0_1_2 : (⟨S4x8192x16, .i32⟩ : BufTy).Contents (Elt F) → (⟨S4x8192x16x1, .i32⟩ : BufTy).Contents (Elt F))
abbrev o_18 : HloOp τ sig (Elt F) :=
  StableHlo.unary main_v11 main_v14 (broadcastInDim S4x8192x16x1 ![0, 1, 2] bcast_S4x8192x16_S4x8192x16x1_0_1_2 : (⟨S4x8192x16, .i32⟩ : BufTy).Contents (Elt F) → (⟨S4x8192x16x1, .i32⟩ : BufTy).Contents (Elt F))
abbrev o_19 : HloOp τ sig (Elt F) :=
  StableHlo.binary main_v13 main_v14 main_v15 ((fun a b => concatenate S4x8192x16x2 3 [⟨S4x8192x16x1, a⟩, ⟨S4x8192x16x1, b⟩] concatenates_S4x8192x16x1_S4x8192x16x1_S4x8192x16x2_d3) : (⟨S4x8192x16x1, .i32⟩ : BufTy).Contents (Elt F) → (⟨S4x8192x16x1, .i32⟩ : BufTy).Contents (Elt F) → (⟨S4x8192x16x2, .i32⟩ : BufTy).Contents (Elt F))
abbrev o_20 : HloOp τ sig (Elt F) :=
  StableHlo.binary main_arg0 main_v15 main_v16 ((fun x i => Host.gather gather_S4x8192x128_S4x8192x16x2_S4x8192x16x128_3_01_n_n_01_3_11128 x i) : (⟨S4x8192x128, .f32⟩ : BufTy).Contents (Elt F) → (⟨S4x8192x16x2, .i32⟩ : BufTy).Contents (Elt F) → (⟨S4x8192x16x128, .f32⟩ : BufTy).Contents (Elt F))
abbrev o_21 : HloOp τ sig (Elt F) :=
  StableHlo.unary main_arg0 main_v17 (broadcastInDim S4x8192x1x128 ![0, 1, 3] bcast_S4x8192x128_S4x8192x1x128_0_1_3 : (⟨S4x8192x128, .f32⟩ : BufTy).Contents (Elt F) → (⟨S4x8192x1x128, .f32⟩ : BufTy).Contents (Elt F))
abbrev o_22 : HloOp τ sig (Elt F) :=
  StableHlo.unary main_v17 main_v18 (broadcastInDim S4x8192x16x128 ![0, 1, 2, 3] bcast_S4x8192x1x128_S4x8192x16x128_0_1_2_3 : (⟨S4x8192x1x128, .f32⟩ : BufTy).Contents (Elt F) → (⟨S4x8192x16x128, .f32⟩ : BufTy).Contents (Elt F))
abbrev o_23 : HloOp τ sig (Elt F) :=
  StableHlo.nary ![main_v18, main_v16, main_arg1] main_v19 (fun u => concatenate S4x8192x16x320 3 [⟨S4x8192x16x128, u 0⟩, ⟨S4x8192x16x128, u 1⟩, ⟨S4x8192x16x64, u 2⟩] concatenates_S4x8192x16x128_S4x8192x16x128_S4x8192x16x64_S4x8192x16x320_d3)
abbrev o_24 : HloOp τ sig (Elt F) :=
  StableHlo.binary main_v19 main_arg3 main_v20 ((fun l r => Host.dotGeneral dot_S4x8192x16x320_S256x320_S4x8192x16x256_3_1_012_0_n_n none l r) : (⟨S4x8192x16x320, .f32⟩ : BufTy).Contents (Elt F) → (⟨S256x320, .f32⟩ : BufTy).Contents (Elt F) → (⟨S4x8192x16x256, .f32⟩ : BufTy).Contents (Elt F))
abbrev o_25 : HloOp τ sig (Elt F) :=
  StableHlo.unary main_arg4 main_v21 (broadcastInDim S1x1x1x256 ![3] bcast_S256_S1x1x1x256_3 : (⟨S256, .f32⟩ : BufTy).Contents (Elt F) → (⟨S1x1x1x256, .f32⟩ : BufTy).Contents (Elt F))
abbrev o_26 : HloOp τ sig (Elt F) :=
  StableHlo.unary main_v21 main_v22 (broadcastInDim S4x8192x16x256 ![0, 1, 2, 3] bcast_S1x1x1x256_S4x8192x16x256_0_1_2_3 : (⟨S1x1x1x256, .f32⟩ : BufTy).Contents (Elt F) → (⟨S4x8192x16x256, .f32⟩ : BufTy).Contents (Elt F))
abbrev o_27 : HloOp τ sig (Elt F) :=
  StableHlo.binary main_v20 main_v22 main_v23 (addf : (⟨S4x8192x16x256, .f32⟩ : BufTy).Contents (Elt F) → (⟨S4x8192x16x256, .f32⟩ : BufTy).Contents (Elt F) → (⟨S4x8192x16x256, .f32⟩ : BufTy).Contents (Elt F))
abbrev o_28 : HloOp τ sig (Elt F) :=
  StableHlo.unary main_v23 main_v24 ((extractStridedSlice S4x8192x16x128 ![0, 0, 0, 0] · slices_S4x8192x16x256_S4x8192x16x128_0_0_0_0) : (⟨S4x8192x16x256, .f32⟩ : BufTy).Contents (Elt F) → (⟨S4x8192x16x128, .f32⟩ : BufTy).Contents (Elt F))
abbrev o_29 : HloOp τ sig (Elt F) :=
  StableHlo.unary main_v23 main_v25 ((extractStridedSlice S4x8192x16x128 ![0, 0, 0, 128] · slices_S4x8192x16x256_S4x8192x16x128_0_0_0_128) : (⟨S4x8192x16x256, .f32⟩ : BufTy).Contents (Elt F) → (⟨S4x8192x16x128, .f32⟩ : BufTy).Contents (Elt F))
abbrev o_30 : HloOp τ sig (Elt F) :=
  StableHlo.unary main_v24 main_v26 (Host.negf : (⟨S4x8192x16x128, .f32⟩ : BufTy).Contents (Elt F) → (⟨S4x8192x16x128, .f32⟩ : BufTy).Contents (Elt F))
abbrev o_31 : HloOp τ sig (Elt F) :=
  StableHlo.unary main_v26 main_v27 (Host.exp : (⟨S4x8192x16x128, .f32⟩ : BufTy).Contents (Elt F) → (⟨S4x8192x16x128, .f32⟩ : BufTy).Contents (Elt F))
abbrev o_32 : HloOp τ sig (Elt F) :=
  StableHlo.nullary main_cst (constant S_ .f32 0x3F800000#32)
abbrev o_33 : HloOp τ sig (Elt F) :=
  StableHlo.unary main_cst main_v28 (broadcastInDim S4x8192x16x128 ![] bcast_S_S4x8192x16x128 : (⟨S_, .f32⟩ : BufTy).Contents (Elt F) → (⟨S4x8192x16x128, .f32⟩ : BufTy).Contents (Elt F))
abbrev o_34 : HloOp τ sig (Elt F) :=
  StableHlo.binary main_v28 main_v27 main_v29 (addf : (⟨S4x8192x16x128, .f32⟩ : BufTy).Contents (Elt F) → (⟨S4x8192x16x128, .f32⟩ : BufTy).Contents (Elt F) → (⟨S4x8192x16x128, .f32⟩ : BufTy).Contents (Elt F))
abbrev o_35 : HloOp τ sig (Elt F) :=
  StableHlo.nullary main_cst_3 (constant S_ .f32 0x3F800000#32)
abbrev o_36 : HloOp τ sig (Elt F) :=
  StableHlo.unary main_cst_3 main_v30 (broadcastInDim S4x8192x16x128 ![] bcast_S_S4x8192x16x128 : (⟨S_, .f32⟩ : BufTy).Contents (Elt F) → (⟨S4x8192x16x128, .f32⟩ : BufTy).Contents (Elt F))
abbrev o_37 : HloOp τ sig (Elt F) :=
  StableHlo.binary main_v30 main_v29 main_v31 (Host.divf : (⟨S4x8192x16x128, .f32⟩ : BufTy).Contents (Elt F) → (⟨S4x8192x16x128, .f32⟩ : BufTy).Contents (Elt F) → (⟨S4x8192x16x128, .f32⟩ : BufTy).Contents (Elt F))
abbrev o_38 : HloOp τ sig (Elt F) :=
  StableHlo.TRef.nullary main_call0.cst (constant S_ .f32 0x00000000#32)
abbrev o_39 : HloOp τ sig (Elt F) :=
  StableHlo.TRef.unary main_call0.cst main_call0.v0 (broadcastInDim S4x8192x16x128 ![] bcast_S_S4x8192x16x128)
abbrev o_40 : HloOp τ sig (Elt F) :=
  StableHlo.TRef.binary (StableHlo.TRef.of main_v25) main_call0.v0 main_call0.v1 maximumf
abbrev o_41 : HloOp τ sig (Elt F) :=
  StableHlo.TRef.unary main_call0.cst main_call0.v2 (broadcastInDim S4x8192x16x128 ![] bcast_S_S4x8192x16x128)
abbrev o_42 : HloOp τ sig (Elt F) :=
  StableHlo.TRef.binary (StableHlo.TRef.of main_v25) main_call0.v2 main_call0.v3 subf
abbrev o_43 : HloOp τ sig (Elt F) :=
  StableHlo.TRef.binary main_call0.v3 main_call0.v3 main_call0.v4 (cmpf .une)
abbrev o_44 : HloOp τ sig (Elt F) :=
  StableHlo.TRef.unary main_call0.cst main_call0.v5 (broadcastInDim S4x8192x16x128 ![] bcast_S_S4x8192x16x128)
abbrev o_45 : HloOp τ sig (Elt F) :=
  StableHlo.TRef.binary (StableHlo.TRef.of main_v25) main_call0.v5 main_call0.v6 addf
abbrev o_46 : HloOp τ sig (Elt F) :=
  StableHlo.TRef.unary main_call0.v3 main_call0.v7 Host.absf
abbrev o_47 : HloOp τ sig (Elt F) :=
  StableHlo.TRef.unary main_call0.v7 main_call0.v8 Host.negf
abbrev o_48 : HloOp τ sig (Elt F) :=
  StableHlo.TRef.unary main_call0.v8 main_call0.v9 Host.exp
abbrev o_49 : HloOp τ sig (Elt F) :=
  StableHlo.TRef.unary main_call0.v9 main_call0.v10 Host.log1p
abbrev o_50 : HloOp τ sig (Elt F) :=
  StableHlo.TRef.binary main_call0.v1 main_call0.v10 main_call0.v11 addf
abbrev o_51 : HloOp τ sig (Elt F) :=
  StableHlo.TRef.ternary main_call0.v4 main_call0.v6 main_call0.v11 main_call0.v12 select
abbrev o_52 : HloOp τ sig (Elt F) :=
  StableHlo.nullary main_c_4 (constantI S_ 32 0#32)
abbrev o_53 : HloOp τ sig (Elt F) :=
  StableHlo.unary main_c_4 main_v33 (broadcastInDim S4x8192x16 ![] bcast_S_S4x8192x16 : (⟨S_, .i32⟩ : BufTy).Contents (Elt F) → (⟨S4x8192x16, .i32⟩ : BufTy).Contents (Elt F))
abbrev o_54 : HloOp τ sig (Elt F) :=
  StableHlo.binary main_arg2 main_v33 main_v34 (cmpi .sge : (⟨S4x8192x16, .i32⟩ : BufTy).Contents (Elt F) → (⟨S4x8192x16, .i32⟩ : BufTy).Contents (Elt F) → (⟨S4x8192x16, .i1⟩ : BufTy).Contents (Elt F))
abbrev o_55 : HloOp τ sig (Elt F) :=
  StableHlo.unary main_v34 main_v35 (uitofp .f32 : (⟨S4x8192x16, .i1⟩ : BufTy).Contents (Elt F) → (⟨S4x8192x16, .f32⟩ : BufTy).Contents (Elt F))
abbrev o_56 : HloOp τ sig (Elt F) :=
  StableHlo.unary main_v35 main_v36 (broadcastInDim S4x8192x16x1 ![0, 1, 2] bcast_S4x8192x16_S4x8192x16x1_0_1_2 : (⟨S4x8192x16, .f32⟩ : BufTy).Contents (Elt F) → (⟨S4x8192x16x1, .f32⟩ : BufTy).Contents (Elt F))
abbrev o_57 : HloOp τ sig (Elt F) :=
  StableHlo.unary main_v36 main_v37 (broadcastInDim S4x8192x16x128 ![0, 1, 2, 3] bcast_S4x8192x16x1_S4x8192x16x128_0_1_2_3 : (⟨S4x8192x16x1, .f32⟩ : BufTy).Contents (Elt F) → (⟨S4x8192x16x128, .f32⟩ : BufTy).Contents (Elt F))
abbrev o_58 : HloOp τ sig (Elt F) :=
  StableHlo.binary main_v31 main_v37 main_v38 (mulf : (⟨S4x8192x16x128, .f32⟩ : BufTy).Contents (Elt F) → (⟨S4x8192x16x128, .f32⟩ : BufTy).Contents (Elt F) → (⟨S4x8192x16x128, .f32⟩ : BufTy).Contents (Elt F))
abbrev o_59 : HloOp τ sig (Elt F) :=
  StableHlo.binary main_v38 main_v32 main_v39 (mulf : (⟨S4x8192x16x128, .f32⟩ : BufTy).Contents (Elt F) → (⟨S4x8192x16x128, .f32⟩ : BufTy).Contents (Elt F) → (⟨S4x8192x16x128, .f32⟩ : BufTy).Contents (Elt F))
abbrev o_60 : HloOp τ sig (Elt F) :=
  StableHlo.nullary main_cst_5 (constant S_ .f32 0x00000000#32)
abbrev o_61 : HloOp τ sig (Elt F) :=
  StableHlo.binary main_v39 main_cst_5 main_v40 ((fun x v => Host.reduceAdd x v reducesTo_S4x8192x16x128_S4x8192x128_d2 h_S_) : (⟨S4x8192x16x128, .f32⟩ : BufTy).Contents (Elt F) → (⟨S_, .f32⟩ : BufTy).Contents (Elt F) → (⟨S4x8192x128, .f32⟩ : BufTy).Contents (Elt F))
abbrev o_62 : HloOp τ sig (Elt F) :=
  StableHlo.unary main_arg5 main_v41 (broadcastInDim S4x8192x128 ![] bcast_S_S4x8192x128 : (⟨S_, .f32⟩ : BufTy).Contents (Elt F) → (⟨S4x8192x128, .f32⟩ : BufTy).Contents (Elt F))
abbrev o_63 : HloOp τ sig (Elt F) :=
  StableHlo.binary main_v41 main_arg0 main_v42 (mulf : (⟨S4x8192x128, .f32⟩ : BufTy).Contents (Elt F) → (⟨S4x8192x128, .f32⟩ : BufTy).Contents (Elt F) → (⟨S4x8192x128, .f32⟩ : BufTy).Contents (Elt F))
abbrev o_64 : HloOp τ sig (Elt F) :=
  StableHlo.binary main_v42 main_v40 main_v43 (addf : (⟨S4x8192x128, .f32⟩ : BufTy).Contents (Elt F) → (⟨S4x8192x128, .f32⟩ : BufTy).Contents (Elt F) → (⟨S4x8192x128, .f32⟩ : BufTy).Contents (Elt F))
abbrev o_65 : HloOp τ sig (Elt F) :=
  StableHlo.TRef.nullary main_call1.cst (constant S_ .f32 0x00000000#32)
abbrev o_66 : HloOp τ sig (Elt F) :=
  StableHlo.TRef.unary main_call1.cst main_call1.v0 (broadcastInDim S4x8192x128 ![] bcast_S_S4x8192x128)
abbrev o_67 : HloOp τ sig (Elt F) :=
  StableHlo.TRef.binary (StableHlo.TRef.of main_v43) main_call1.v0 main_call1.v1 maximumf
abbrev o_68 : HloOp τ sig (Elt F) :=
  StableHlo.TRef.unary main_call1.cst main_call1.v2 (broadcastInDim S4x8192x128 ![] bcast_S_S4x8192x128)
abbrev o_69 : HloOp τ sig (Elt F) :=
  StableHlo.TRef.binary (StableHlo.TRef.of main_v43) main_call1.v2 main_call1.v3 subf
abbrev o_70 : HloOp τ sig (Elt F) :=
  StableHlo.TRef.binary main_call1.v3 main_call1.v3 main_call1.v4 (cmpf .une)
abbrev o_71 : HloOp τ sig (Elt F) :=
  StableHlo.TRef.unary main_call1.cst main_call1.v5 (broadcastInDim S4x8192x128 ![] bcast_S_S4x8192x128)
abbrev o_72 : HloOp τ sig (Elt F) :=
  StableHlo.TRef.binary (StableHlo.TRef.of main_v43) main_call1.v5 main_call1.v6 addf
abbrev o_73 : HloOp τ sig (Elt F) :=
  StableHlo.TRef.unary main_call1.v3 main_call1.v7 Host.absf
abbrev o_74 : HloOp τ sig (Elt F) :=
  StableHlo.TRef.unary main_call1.v7 main_call1.v8 Host.negf
abbrev o_75 : HloOp τ sig (Elt F) :=
  StableHlo.TRef.unary main_call1.v8 main_call1.v9 Host.exp
abbrev o_76 : HloOp τ sig (Elt F) :=
  StableHlo.TRef.unary main_call1.v9 main_call1.v10 Host.log1p
abbrev o_77 : HloOp τ sig (Elt F) :=
  StableHlo.TRef.binary main_call1.v1 main_call1.v10 main_call1.v11 addf
abbrev o_78 : HloOp τ sig (Elt F) :=
  StableHlo.TRef.ternary main_call1.v4 main_call1.v6 main_call1.v11 main_call1.v12 select

/-- The whole line. -/
abbrev ops : List (HloOp τ sig (Elt F)) :=
  [o_0, o_1, o_2, o_3, o_4, o_5, o_6, o_7, o_8, o_9, o_10, o_11, o_12, o_13, o_14, o_15, o_16, o_17, o_18, o_19, o_20, o_21, o_22, o_23, o_24, o_25, o_26, o_27, o_28, o_29, o_30, o_31, o_32, o_33, o_34, o_35, o_36, o_37, o_38, o_39, o_40, o_41, o_42, o_43, o_44, o_45, o_46, o_47, o_48, o_49, o_50, o_51, o_52, o_53, o_54, o_55, o_56, o_57, o_58, o_59, o_60, o_61, o_62, o_63, o_64, o_65, o_66, o_67, o_68, o_69, o_70, o_71, o_72, o_73, o_74, o_75, o_76, o_77, o_78]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., unary_bufs_sub .., unary_bufs_sub .., nary_bufs_sub .., binary_bufs_sub .., unary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., unary_bufs_sub .., unary_bufs_sub .., unary_bufs_sub .., binary_bufs_sub .., binary_bufs_sub .., nullary_bufs_sub .., binary_bufs_sub .., unary_bufs_sub .., binary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩

set_option maxRecDepth 8192 in
set_option maxHeartbeats 4000000 in
/-- Every weakly fair execution of the line ends, each buffer at its contents after the operations. -/
theorem line_runs (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops (F := F)) main_eq (fun _ => ops_sub) m ρ

/-! ## The stages -/

def gathered (x0 : (⟨S4x8192x128, .f32⟩ : BufTy).Contents (Elt F)) (x2 : (⟨S4x8192x16, .i32⟩ : BufTy).Contents (Elt F)) : (⟨S4x8192x16x128, .f32⟩ : BufTy).Contents (Elt F) :=
  (((fun x i => Host.gather gather_S4x8192x128_S4x8192x16x2_S4x8192x16x128_3_01_n_n_01_3_11128 x i) : (⟨S4x8192x128, .f32⟩ : BufTy).Contents (Elt F) → (⟨S4x8192x16x2, .i32⟩ : BufTy).Contents (Elt F) → (⟨S4x8192x16x128, .f32⟩ : BufTy).Contents (Elt F)) x0 (((fun a b => concatenate S4x8192x16x2 3 [⟨S4x8192x16x1, a⟩, ⟨S4x8192x16x1, b⟩] concatenates_S4x8192x16x1_S4x8192x16x1_S4x8192x16x2_d3) : (⟨S4x8192x16x1, .i32⟩ : BufTy).Contents (Elt F) → (⟨S4x8192x16x1, .i32⟩ : BufTy).Contents (Elt F) → (⟨S4x8192x16x2, .i32⟩ : BufTy).Contents (Elt F)) ((broadcastInDim S4x8192x16x1 ![0, 1, 2] bcast_S4x8192x16_S4x8192x16x1_0_1_2 : (⟨S4x8192x16, .i32⟩ : BufTy).Contents (Elt F) → (⟨S4x8192x16x1, .i32⟩ : BufTy).Contents (Elt F)) ((broadcastInDim S4x8192x16 ![0, 1, 2] bcast_S4x1x1_S4x8192x16_0_1_2 : (⟨S4x1x1, .i32⟩ : BufTy).Contents (Elt F) → (⟨S4x8192x16, .i32⟩ : BufTy).Contents (Elt F)) ((select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)) ((cmpi .slt : (⟨S4x1x1, .i32⟩ : BufTy).Contents (Elt F) → (⟨S4x1x1, .i32⟩ : BufTy).Contents (Elt F) → (⟨S4x1x1, .i1⟩ : BufTy).Contents (Elt F)) ((broadcastInDim S4x1x1 ![0] bcast_S4_S4x1x1_0 : (⟨S4, .i32⟩ : BufTy).Contents (Elt F) → (⟨S4x1x1, .i32⟩ : BufTy).Contents (Elt F)) ((iotaInDim S4 32 0) : (⟨S4, .i32⟩ : BufTy).Contents (Elt F))) ((broadcastInDim S4x1x1 ![] bcast_S_S4x1x1 : (⟨S_, .i32⟩ : BufTy).Contents (Elt F) → (⟨S4x1x1, .i32⟩ : BufTy).Contents (Elt F)) ((constantI S_ 32 0#32) : (⟨S_, .i32⟩ : BufTy).Contents (Elt F)))) ((addi : (⟨S4x1x1, .i32⟩ : BufTy).Contents (Elt F) → (⟨S4x1x1, .i32⟩ : BufTy).Contents (Elt F) → (⟨S4x1x1, .i32⟩ : BufTy).Contents (Elt F)) ((broadcastInDim S4x1x1 ![0] bcast_S4_S4x1x1_0 : (⟨S4, .i32⟩ : BufTy).Contents (Elt F) → (⟨S4x1x1, .i32⟩ : BufTy).Contents (Elt F)) ((iotaInDim S4 32 0) : (⟨S4, .i32⟩ : BufTy).Contents (Elt F))) ((broadcastInDim S4x1x1 ![] bcast_S_S4x1x1 : (⟨S_, .i32⟩ : BufTy).Contents (Elt F) → (⟨S4x1x1, .i32⟩ : BufTy).Contents (Elt F)) ((constantI S_ 32 4#32) : (⟨S_, .i32⟩ : BufTy).Contents (Elt F)))) ((broadcastInDim S4x1x1 ![0] bcast_S4_S4x1x1_0 : (⟨S4, .i32⟩ : BufTy).Contents (Elt F) → (⟨S4x1x1, .i32⟩ : BufTy).Contents (Elt F)) ((iotaInDim S4 32 0) : (⟨S4, .i32⟩ : BufTy).Contents (Elt F)))))) ((broadcastInDim S4x8192x16x1 ![0, 1, 2] bcast_S4x8192x16_S4x8192x16x1_0_1_2 : (⟨S4x8192x16, .i32⟩ : BufTy).Contents (Elt F) → (⟨S4x8192x16x1, .i32⟩ : BufTy).Contents (Elt F)) ((select : (⟨S4x8192x16, .i1⟩ : BufTy).Contents (Elt F) → (⟨S4x8192x16, .i32⟩ : BufTy).Contents (Elt F) → (⟨S4x8192x16, .i32⟩ : BufTy).Contents (Elt F) → (⟨S4x8192x16, .i32⟩ : BufTy).Contents (Elt F)) ((cmpi .slt : (⟨S4x8192x16, .i32⟩ : BufTy).Contents (Elt F) → (⟨S4x8192x16, .i32⟩ : BufTy).Contents (Elt F) → (⟨S4x8192x16, .i1⟩ : BufTy).Contents (Elt F)) x2 ((broadcastInDim S4x8192x16 ![] bcast_S_S4x8192x16 : (⟨S_, .i32⟩ : BufTy).Contents (Elt F) → (⟨S4x8192x16, .i32⟩ : BufTy).Contents (Elt F)) ((constantI S_ 32 0#32) : (⟨S_, .i32⟩ : BufTy).Contents (Elt F)))) ((addi : (⟨S4x8192x16, .i32⟩ : BufTy).Contents (Elt F) → (⟨S4x8192x16, .i32⟩ : BufTy).Contents (Elt F) → (⟨S4x8192x16, .i32⟩ : BufTy).Contents (Elt F)) x2 ((broadcastInDim S4x8192x16 ![] bcast_S_S4x8192x16 : (⟨S_, .i32⟩ : BufTy).Contents (Elt F) → (⟨S4x8192x16, .i32⟩ : BufTy).Contents (Elt F)) ((constantI S_ 32 8192#32) : (⟨S_, .i32⟩ : BufTy).Contents (Elt F)))) x2))))

def preActs (x0 : (⟨S4x8192x128, .f32⟩ : BufTy).Contents (Elt F)) (x1 : (⟨S4x8192x16x64, .f32⟩ : BufTy).Contents (Elt F)) (x2 : (⟨S4x8192x16, .i32⟩ : BufTy).Contents (Elt F)) (x3 : (⟨S256x320, .f32⟩ : BufTy).Contents (Elt F)) (x4 : (⟨S256, .f32⟩ : BufTy).Contents (Elt F)) : (⟨S4x8192x16x256, .f32⟩ : BufTy).Contents (Elt F) :=
  ((addf : (⟨S4x8192x16x256, .f32⟩ : BufTy).Contents (Elt F) → (⟨S4x8192x16x256, .f32⟩ : BufTy).Contents (Elt F) → (⟨S4x8192x16x256, .f32⟩ : BufTy).Contents (Elt F)) (((fun l r => Host.dotGeneral dot_S4x8192x16x320_S256x320_S4x8192x16x256_3_1_012_0_n_n none l r) : (⟨S4x8192x16x320, .f32⟩ : BufTy).Contents (Elt F) → (⟨S256x320, .f32⟩ : BufTy).Contents (Elt F) → (⟨S4x8192x16x256, .f32⟩ : BufTy).Contents (Elt F)) (concatenate S4x8192x16x320 3 [⟨S4x8192x16x128, ((broadcastInDim S4x8192x16x128 ![0, 1, 2, 3] bcast_S4x8192x1x128_S4x8192x16x128_0_1_2_3 : (⟨S4x8192x1x128, .f32⟩ : BufTy).Contents (Elt F) → (⟨S4x8192x16x128, .f32⟩ : BufTy).Contents (Elt F)) ((broadcastInDim S4x8192x1x128 ![0, 1, 3] bcast_S4x8192x128_S4x8192x1x128_0_1_3 : (⟨S4x8192x128, .f32⟩ : BufTy).Contents (Elt F) → (⟨S4x8192x1x128, .f32⟩ : BufTy).Contents (Elt F)) x0))⟩, ⟨S4x8192x16x128, (gathered x0 x2)⟩, ⟨S4x8192x16x64, x1⟩] concatenates_S4x8192x16x128_S4x8192x16x128_S4x8192x16x64_S4x8192x16x320_d3) x3) ((broadcastInDim S4x8192x16x256 ![0, 1, 2, 3] bcast_S1x1x1x256_S4x8192x16x256_0_1_2_3 : (⟨S1x1x1x256, .f32⟩ : BufTy).Contents (Elt F) → (⟨S4x8192x16x256, .f32⟩ : BufTy).Contents (Elt F)) ((broadcastInDim S1x1x1x256 ![3] bcast_S256_S1x1x1x256_3 : (⟨S256, .f32⟩ : BufTy).Contents (Elt F) → (⟨S1x1x1x256, .f32⟩ : BufTy).Contents (Elt F)) x4)))

def sigmoids (x0 : (⟨S4x8192x128, .f32⟩ : BufTy).Contents (Elt F)) (x1 : (⟨S4x8192x16x64, .f32⟩ : BufTy).Contents (Elt F)) (x2 : (⟨S4x8192x16, .i32⟩ : BufTy).Contents (Elt F)) (x3 : (⟨S256x320, .f32⟩ : BufTy).Contents (Elt F)) (x4 : (⟨S256, .f32⟩ : BufTy).Contents (Elt F)) : (⟨S4x8192x16x128, .f32⟩ : BufTy).Contents (Elt F) :=
  ((Host.divf : (⟨S4x8192x16x128, .f32⟩ : BufTy).Contents (Elt F) → (⟨S4x8192x16x128, .f32⟩ : BufTy).Contents (Elt F) → (⟨S4x8192x16x128, .f32⟩ : BufTy).Contents (Elt F)) ((broadcastInDim S4x8192x16x128 ![] bcast_S_S4x8192x16x128 : (⟨S_, .f32⟩ : BufTy).Contents (Elt F) → (⟨S4x8192x16x128, .f32⟩ : BufTy).Contents (Elt F)) ((constant S_ .f32 0x3F800000#32) : (⟨S_, .f32⟩ : BufTy).Contents (Elt F))) ((addf : (⟨S4x8192x16x128, .f32⟩ : BufTy).Contents (Elt F) → (⟨S4x8192x16x128, .f32⟩ : BufTy).Contents (Elt F) → (⟨S4x8192x16x128, .f32⟩ : BufTy).Contents (Elt F)) ((broadcastInDim S4x8192x16x128 ![] bcast_S_S4x8192x16x128 : (⟨S_, .f32⟩ : BufTy).Contents (Elt F) → (⟨S4x8192x16x128, .f32⟩ : BufTy).Contents (Elt F)) ((constant S_ .f32 0x3F800000#32) : (⟨S_, .f32⟩ : BufTy).Contents (Elt F))) ((Host.exp : (⟨S4x8192x16x128, .f32⟩ : BufTy).Contents (Elt F) → (⟨S4x8192x16x128, .f32⟩ : BufTy).Contents (Elt F)) ((Host.negf : (⟨S4x8192x16x128, .f32⟩ : BufTy).Contents (Elt F) → (⟨S4x8192x16x128, .f32⟩ : BufTy).Contents (Elt F)) (((extractStridedSlice S4x8192x16x128 ![0, 0, 0, 0] · slices_S4x8192x16x256_S4x8192x16x128_0_0_0_0) : (⟨S4x8192x16x256, .f32⟩ : BufTy).Contents (Elt F) → (⟨S4x8192x16x128, .f32⟩ : BufTy).Contents (Elt F)) (preActs x0 x1 x2 x3 x4))))))

def softGates (x0 : (⟨S4x8192x128, .f32⟩ : BufTy).Contents (Elt F)) (x1 : (⟨S4x8192x16x64, .f32⟩ : BufTy).Contents (Elt F)) (x2 : (⟨S4x8192x16, .i32⟩ : BufTy).Contents (Elt F)) (x3 : (⟨S256x320, .f32⟩ : BufTy).Contents (Elt F)) (x4 : (⟨S256, .f32⟩ : BufTy).Contents (Elt F)) : (⟨S4x8192x16x128, .f32⟩ : BufTy).Contents (Elt F) :=
  (select ((cmpf .une) (subf (((extractStridedSlice S4x8192x16x128 ![0, 0, 0, 128] · slices_S4x8192x16x256_S4x8192x16x128_0_0_0_128) : (⟨S4x8192x16x256, .f32⟩ : BufTy).Contents (Elt F) → (⟨S4x8192x16x128, .f32⟩ : BufTy).Contents (Elt F)) (preActs x0 x1 x2 x3 x4)) ((broadcastInDim S4x8192x16x128 ![] bcast_S_S4x8192x16x128) ((constant S_ .f32 0x00000000#32) : (⟨S_, .f32⟩ : BufTy).Contents (Elt F)) : (⟨S4x8192x16x128, .f32⟩ : BufTy).Contents (Elt F)) : (⟨S4x8192x16x128, .f32⟩ : BufTy).Contents (Elt F)) (subf (((extractStridedSlice S4x8192x16x128 ![0, 0, 0, 128] · slices_S4x8192x16x256_S4x8192x16x128_0_0_0_128) : (⟨S4x8192x16x256, .f32⟩ : BufTy).Contents (Elt F) → (⟨S4x8192x16x128, .f32⟩ : BufTy).Contents (Elt F)) (preActs x0 x1 x2 x3 x4)) ((broadcastInDim S4x8192x16x128 ![] bcast_S_S4x8192x16x128) ((constant S_ .f32 0x00000000#32) : (⟨S_, .f32⟩ : BufTy).Contents (Elt F)) : (⟨S4x8192x16x128, .f32⟩ : BufTy).Contents (Elt F)) : (⟨S4x8192x16x128, .f32⟩ : BufTy).Contents (Elt F)) : (⟨S4x8192x16x128, .i1⟩ : BufTy).Contents (Elt F)) (addf (((extractStridedSlice S4x8192x16x128 ![0, 0, 0, 128] · slices_S4x8192x16x256_S4x8192x16x128_0_0_0_128) : (⟨S4x8192x16x256, .f32⟩ : BufTy).Contents (Elt F) → (⟨S4x8192x16x128, .f32⟩ : BufTy).Contents (Elt F)) (preActs x0 x1 x2 x3 x4)) ((broadcastInDim S4x8192x16x128 ![] bcast_S_S4x8192x16x128) ((constant S_ .f32 0x00000000#32) : (⟨S_, .f32⟩ : BufTy).Contents (Elt F)) : (⟨S4x8192x16x128, .f32⟩ : BufTy).Contents (Elt F)) : (⟨S4x8192x16x128, .f32⟩ : BufTy).Contents (Elt F)) (addf (maximumf (((extractStridedSlice S4x8192x16x128 ![0, 0, 0, 128] · slices_S4x8192x16x256_S4x8192x16x128_0_0_0_128) : (⟨S4x8192x16x256, .f32⟩ : BufTy).Contents (Elt F) → (⟨S4x8192x16x128, .f32⟩ : BufTy).Contents (Elt F)) (preActs x0 x1 x2 x3 x4)) ((broadcastInDim S4x8192x16x128 ![] bcast_S_S4x8192x16x128) ((constant S_ .f32 0x00000000#32) : (⟨S_, .f32⟩ : BufTy).Contents (Elt F)) : (⟨S4x8192x16x128, .f32⟩ : BufTy).Contents (Elt F)) : (⟨S4x8192x16x128, .f32⟩ : BufTy).Contents (Elt F)) (Host.log1p (Host.exp (Host.negf (Host.absf (subf (((extractStridedSlice S4x8192x16x128 ![0, 0, 0, 128] · slices_S4x8192x16x256_S4x8192x16x128_0_0_0_128) : (⟨S4x8192x16x256, .f32⟩ : BufTy).Contents (Elt F) → (⟨S4x8192x16x128, .f32⟩ : BufTy).Contents (Elt F)) (preActs x0 x1 x2 x3 x4)) ((broadcastInDim S4x8192x16x128 ![] bcast_S_S4x8192x16x128) ((constant S_ .f32 0x00000000#32) : (⟨S_, .f32⟩ : BufTy).Contents (Elt F)) : (⟨S4x8192x16x128, .f32⟩ : BufTy).Contents (Elt F)) : (⟨S4x8192x16x128, .f32⟩ : BufTy).Contents (Elt F)) : (⟨S4x8192x16x128, .f32⟩ : BufTy).Contents (Elt F)) : (⟨S4x8192x16x128, .f32⟩ : BufTy).Contents (Elt F)) : (⟨S4x8192x16x128, .f32⟩ : BufTy).Contents (Elt F)) : (⟨S4x8192x16x128, .f32⟩ : BufTy).Contents (Elt F)) : (⟨S4x8192x16x128, .f32⟩ : BufTy).Contents (Elt F)) : (⟨S4x8192x16x128, .f32⟩ : BufTy).Contents (Elt F))

def masks (x2 : (⟨S4x8192x16, .i32⟩ : BufTy).Contents (Elt F)) : (⟨S4x8192x16x128, .f32⟩ : BufTy).Contents (Elt F) :=
  ((broadcastInDim S4x8192x16x128 ![0, 1, 2, 3] bcast_S4x8192x16x1_S4x8192x16x128_0_1_2_3 : (⟨S4x8192x16x1, .f32⟩ : BufTy).Contents (Elt F) → (⟨S4x8192x16x128, .f32⟩ : BufTy).Contents (Elt F)) ((broadcastInDim S4x8192x16x1 ![0, 1, 2] bcast_S4x8192x16_S4x8192x16x1_0_1_2 : (⟨S4x8192x16, .f32⟩ : BufTy).Contents (Elt F) → (⟨S4x8192x16x1, .f32⟩ : BufTy).Contents (Elt F)) ((uitofp .f32 : (⟨S4x8192x16, .i1⟩ : BufTy).Contents (Elt F) → (⟨S4x8192x16, .f32⟩ : BufTy).Contents (Elt F)) ((cmpi .sge : (⟨S4x8192x16, .i32⟩ : BufTy).Contents (Elt F) → (⟨S4x8192x16, .i32⟩ : BufTy).Contents (Elt F) → (⟨S4x8192x16, .i1⟩ : BufTy).Contents (Elt F)) x2 ((broadcastInDim S4x8192x16 ![] bcast_S_S4x8192x16 : (⟨S_, .i32⟩ : BufTy).Contents (Elt F) → (⟨S4x8192x16, .i32⟩ : BufTy).Contents (Elt F)) ((constantI S_ 32 0#32) : (⟨S_, .i32⟩ : BufTy).Contents (Elt F)))))))

def gatedAll (x0 : (⟨S4x8192x128, .f32⟩ : BufTy).Contents (Elt F)) (x1 : (⟨S4x8192x16x64, .f32⟩ : BufTy).Contents (Elt F)) (x2 : (⟨S4x8192x16, .i32⟩ : BufTy).Contents (Elt F)) (x3 : (⟨S256x320, .f32⟩ : BufTy).Contents (Elt F)) (x4 : (⟨S256, .f32⟩ : BufTy).Contents (Elt F)) : (⟨S4x8192x16x128, .f32⟩ : BufTy).Contents (Elt F) :=
  ((mulf : (⟨S4x8192x16x128, .f32⟩ : BufTy).Contents (Elt F) → (⟨S4x8192x16x128, .f32⟩ : BufTy).Contents (Elt F) → (⟨S4x8192x16x128, .f32⟩ : BufTy).Contents (Elt F)) ((mulf : (⟨S4x8192x16x128, .f32⟩ : BufTy).Contents (Elt F) → (⟨S4x8192x16x128, .f32⟩ : BufTy).Contents (Elt F) → (⟨S4x8192x16x128, .f32⟩ : BufTy).Contents (Elt F)) (sigmoids x0 x1 x2 x3 x4) (masks x2)) (softGates x0 x1 x2 x3 x4))

def preOut (x0 : (⟨S4x8192x128, .f32⟩ : BufTy).Contents (Elt F)) (x1 : (⟨S4x8192x16x64, .f32⟩ : BufTy).Contents (Elt F)) (x2 : (⟨S4x8192x16, .i32⟩ : BufTy).Contents (Elt F)) (x3 : (⟨S256x320, .f32⟩ : BufTy).Contents (Elt F)) (x4 : (⟨S256, .f32⟩ : BufTy).Contents (Elt F)) (x5 : (⟨S_, .f32⟩ : BufTy).Contents (Elt F)) : (⟨S4x8192x128, .f32⟩ : BufTy).Contents (Elt F) :=
  ((addf : (⟨S4x8192x128, .f32⟩ : BufTy).Contents (Elt F) → (⟨S4x8192x128, .f32⟩ : BufTy).Contents (Elt F) → (⟨S4x8192x128, .f32⟩ : BufTy).Contents (Elt F)) ((mulf : (⟨S4x8192x128, .f32⟩ : BufTy).Contents (Elt F) → (⟨S4x8192x128, .f32⟩ : BufTy).Contents (Elt F) → (⟨S4x8192x128, .f32⟩ : BufTy).Contents (Elt F)) ((broadcastInDim S4x8192x128 ![] bcast_S_S4x8192x128 : (⟨S_, .f32⟩ : BufTy).Contents (Elt F) → (⟨S4x8192x128, .f32⟩ : BufTy).Contents (Elt F)) x5) x0) (((fun x v => Host.reduceAdd x v reducesTo_S4x8192x16x128_S4x8192x128_d2 h_S_) : (⟨S4x8192x16x128, .f32⟩ : BufTy).Contents (Elt F) → (⟨S_, .f32⟩ : BufTy).Contents (Elt F) → (⟨S4x8192x128, .f32⟩ : BufTy).Contents (Elt F)) (gatedAll x0 x1 x2 x3 x4) ((constant S_ .f32 0x00000000#32) : (⟨S_, .f32⟩ : BufTy).Contents (Elt F))))

def result (x0 : (⟨S4x8192x128, .f32⟩ : BufTy).Contents (Elt F)) (x1 : (⟨S4x8192x16x64, .f32⟩ : BufTy).Contents (Elt F)) (x2 : (⟨S4x8192x16, .i32⟩ : BufTy).Contents (Elt F)) (x3 : (⟨S256x320, .f32⟩ : BufTy).Contents (Elt F)) (x4 : (⟨S256, .f32⟩ : BufTy).Contents (Elt F)) (x5 : (⟨S_, .f32⟩ : BufTy).Contents (Elt F)) : (⟨S4x8192x128, .f32⟩ : BufTy).Contents (Elt F) :=
  (select ((cmpf .une) (subf (preOut x0 x1 x2 x3 x4 x5) ((broadcastInDim S4x8192x128 ![] bcast_S_S4x8192x128) ((constant S_ .f32 0x00000000#32) : (⟨S_, .f32⟩ : BufTy).Contents (Elt F)) : (⟨S4x8192x128, .f32⟩ : BufTy).Contents (Elt F)) : (⟨S4x8192x128, .f32⟩ : BufTy).Contents (Elt F)) (subf (preOut x0 x1 x2 x3 x4 x5) ((broadcastInDim S4x8192x128 ![] bcast_S_S4x8192x128) ((constant S_ .f32 0x00000000#32) : (⟨S_, .f32⟩ : BufTy).Contents (Elt F)) : (⟨S4x8192x128, .f32⟩ : BufTy).Contents (Elt F)) : (⟨S4x8192x128, .f32⟩ : BufTy).Contents (Elt F)) : (⟨S4x8192x128, .i1⟩ : BufTy).Contents (Elt F)) (addf (preOut x0 x1 x2 x3 x4 x5) ((broadcastInDim S4x8192x128 ![] bcast_S_S4x8192x128) ((constant S_ .f32 0x00000000#32) : (⟨S_, .f32⟩ : BufTy).Contents (Elt F)) : (⟨S4x8192x128, .f32⟩ : BufTy).Contents (Elt F)) : (⟨S4x8192x128, .f32⟩ : BufTy).Contents (Elt F)) (addf (maximumf (preOut x0 x1 x2 x3 x4 x5) ((broadcastInDim S4x8192x128 ![] bcast_S_S4x8192x128) ((constant S_ .f32 0x00000000#32) : (⟨S_, .f32⟩ : BufTy).Contents (Elt F)) : (⟨S4x8192x128, .f32⟩ : BufTy).Contents (Elt F)) : (⟨S4x8192x128, .f32⟩ : BufTy).Contents (Elt F)) (Host.log1p (Host.exp (Host.negf (Host.absf (subf (preOut x0 x1 x2 x3 x4 x5) ((broadcastInDim S4x8192x128 ![] bcast_S_S4x8192x128) ((constant S_ .f32 0x00000000#32) : (⟨S_, .f32⟩ : BufTy).Contents (Elt F)) : (⟨S4x8192x128, .f32⟩ : BufTy).Contents (Elt F)) : (⟨S4x8192x128, .f32⟩ : BufTy).Contents (Elt F)) : (⟨S4x8192x128, .f32⟩ : BufTy).Contents (Elt F)) : (⟨S4x8192x128, .f32⟩ : BufTy).Contents (Elt F)) : (⟨S4x8192x128, .f32⟩ : BufTy).Contents (Elt F)) : (⟨S4x8192x128, .f32⟩ : BufTy).Contents (Elt F)) : (⟨S4x8192x128, .f32⟩ : BufTy).Contents (Elt F)) : (⟨S4x8192x128, .f32⟩ : BufTy).Contents (Elt F))

/-! ## The line, one operation at a time -/

set_option maxRecDepth 8192 in
set_option maxHeartbeats 40000000 in
/-- After the line the result buffer holds the staged composition of the arguments, and the arguments are as they were. -/
theorem after_line (V : Valuation τ sig (Elt F)) :
    after (ops (F := F)) V (Proc.devRef .tc main_v44) = (result (V (Proc.devRef .tc main_arg0)) (V (Proc.devRef .tc main_arg1)) (V (Proc.devRef .tc main_arg2)) (V (Proc.devRef .tc main_arg3)) (V (Proc.devRef .tc main_arg4)) (V (Proc.devRef .tc main_arg5)))
    ∧ after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5) := by
  let x0 : (⟨S4x8192x128, .f32⟩ : BufTy).Contents (Elt F) := V (Proc.devRef .tc main_arg0)
  let x1 : (⟨S4x8192x16x64, .f32⟩ : BufTy).Contents (Elt F) := V (Proc.devRef .tc main_arg1)
  let x2 : (⟨S4x8192x16, .i32⟩ : BufTy).Contents (Elt F) := V (Proc.devRef .tc main_arg2)
  let x3 : (⟨S256x320, .f32⟩ : BufTy).Contents (Elt F) := V (Proc.devRef .tc main_arg3)
  let x4 : (⟨S256, .f32⟩ : BufTy).Contents (Elt F) := V (Proc.devRef .tc main_arg4)
  let x5 : (⟨S_, .f32⟩ : BufTy).Contents (Elt F) := V (Proc.devRef .tc main_arg5)
  have h0_main_arg0 : V (Proc.devRef .tc main_arg0) = x0 := rfl
  have h0_main_arg1 : V (Proc.devRef .tc main_arg1) = x1 := rfl
  have h0_main_arg2 : V (Proc.devRef .tc main_arg2) = x2 := rfl
  have h0_main_arg3 : V (Proc.devRef .tc main_arg3) = x3 := rfl
  have h0_main_arg4 : V (Proc.devRef .tc main_arg4) = x4 := rfl
  have h0_main_arg5 : V (Proc.devRef .tc main_arg5) = x5 := rfl
  rw [after_cons]
  let t_main_v0 : (⟨S4, .i32⟩ : BufTy).Contents (Elt F) := (iotaInDim S4 32 0)
  have h1_main_v0 : (o_0.result V) (Proc.devRef .tc main_v0) = t_main_v0 := by rw [nullary_result]; try rfl
  have h1_main_arg0 : (o_0.result V) (Proc.devRef .tc main_arg0) = x0 := by rw [nullary_result_ne, h0_main_arg0]; decide
  have h1_main_arg1 : (o_0.result V) (Proc.devRef .tc main_arg1) = x1 := by rw [nullary_result_ne, h0_main_arg1]; decide
  have h1_main_arg2 : (o_0.result V) (Proc.devRef .tc main_arg2) = x2 := by rw [nullary_result_ne, h0_main_arg2]; decide
  have h1_main_arg3 : (o_0.result V) (Proc.devRef .tc main_arg3) = x3 := by rw [nullary_result_ne, h0_main_arg3]; decide
  have h1_main_arg4 : (o_0.result V) (Proc.devRef .tc main_arg4) = x4 := by rw [nullary_result_ne, h0_main_arg4]; decide
  have h1_main_arg5 : (o_0.result V) (Proc.devRef .tc main_arg5) = x5 := by rw [nullary_result_ne, h0_main_arg5]; decide
  generalize o_0.result V = V1 at h1_main_v0 h1_main_arg0 h1_main_arg1 h1_main_arg2 h1_main_arg3 h1_main_arg4 h1_main_arg5 ⊢
  clear h0_main_arg0 h0_main_arg1 h0_main_arg2 h0_main_arg3 h0_main_arg4 h0_main_arg5
  rw [after_cons]
  let t_main_v1 : (⟨S4x1x1, .i32⟩ : BufTy).Contents (Elt F) := (broadcastInDim S4x1x1 ![0] bcast_S4_S4x1x1_0 : (⟨S4, .i32⟩ : BufTy).Contents (Elt F) → (⟨S4x1x1, .i32⟩ : BufTy).Contents (Elt F)) t_main_v0
  have h2_main_v1 : (o_1.result V1) (Proc.devRef .tc main_v1) = t_main_v1 := by rw [unary_result, h1_main_v0]; try rfl
  have h2_main_arg0 : (o_1.result V1) (Proc.devRef .tc main_arg0) = x0 := by rw [unary_result_ne, h1_main_arg0]; decide
  have h2_main_arg1 : (o_1.result V1) (Proc.devRef .tc main_arg1) = x1 := by rw [unary_result_ne, h1_main_arg1]; decide
  have h2_main_arg2 : (o_1.result V1) (Proc.devRef .tc main_arg2) = x2 := by rw [unary_result_ne, h1_main_arg2]; decide
  have h2_main_arg3 : (o_1.result V1) (Proc.devRef .tc main_arg3) = x3 := by rw [unary_result_ne, h1_main_arg3]; decide
  have h2_main_arg4 : (o_1.result V1) (Proc.devRef .tc main_arg4) = x4 := by rw [unary_result_ne, h1_main_arg4]; decide
  have h2_main_arg5 : (o_1.result V1) (Proc.devRef .tc main_arg5) = x5 := by rw [unary_result_ne, h1_main_arg5]; decide
  generalize o_1.result V1 = V2 at h2_main_v1 h2_main_arg0 h2_main_arg1 h2_main_arg2 h2_main_arg3 h2_main_arg4 h2_main_arg5 ⊢
  clear h1_main_arg0 h1_main_arg1 h1_main_arg2 h1_main_arg3 h1_main_arg4 h1_main_arg5 h1_main_v0
  rw [after_cons]
  let t_main_c : (⟨S_, .i32⟩ : BufTy).Contents (Elt F) := (constantI S_ 32 0#32)
  have h3_main_c : (o_2.result V2) (Proc.devRef .tc main_c) = t_main_c := by rw [nullary_result]; try rfl
  have h3_main_arg0 : (o_2.result V2) (Proc.devRef .tc main_arg0) = x0 := by rw [nullary_result_ne, h2_main_arg0]; decide
  have h3_main_arg1 : (o_2.result V2) (Proc.devRef .tc main_arg1) = x1 := by rw [nullary_result_ne, h2_main_arg1]; decide
  have h3_main_arg2 : (o_2.result V2) (Proc.devRef .tc main_arg2) = x2 := by rw [nullary_result_ne, h2_main_arg2]; decide
  have h3_main_arg3 : (o_2.result V2) (Proc.devRef .tc main_arg3) = x3 := by rw [nullary_result_ne, h2_main_arg3]; decide
  have h3_main_arg4 : (o_2.result V2) (Proc.devRef .tc main_arg4) = x4 := by rw [nullary_result_ne, h2_main_arg4]; decide
  have h3_main_arg5 : (o_2.result V2) (Proc.devRef .tc main_arg5) = x5 := by rw [nullary_result_ne, h2_main_arg5]; decide
  have h3_main_v1 : (o_2.result V2) (Proc.devRef .tc main_v1) = t_main_v1 := by rw [nullary_result_ne, h2_main_v1]; decide
  generalize o_2.result V2 = V3 at h3_main_c h3_main_arg0 h3_main_arg1 h3_main_arg2 h3_main_arg3 h3_main_arg4 h3_main_arg5 h3_main_v1 ⊢
  clear h2_main_arg0 h2_main_arg1 h2_main_arg2 h2_main_arg3 h2_main_arg4 h2_main_arg5 h2_main_v1
  rw [after_cons]
  let t_main_v2 : (⟨S4x1x1, .i32⟩ : BufTy).Contents (Elt F) := (broadcastInDim S4x1x1 ![] bcast_S_S4x1x1 : (⟨S_, .i32⟩ : BufTy).Contents (Elt F) → (⟨S4x1x1, .i32⟩ : BufTy).Contents (Elt F)) t_main_c
  have h4_main_v2 : (o_3.result V3) (Proc.devRef .tc main_v2) = t_main_v2 := by rw [unary_result, h3_main_c]; try rfl
  have h4_main_arg0 : (o_3.result V3) (Proc.devRef .tc main_arg0) = x0 := by rw [unary_result_ne, h3_main_arg0]; decide
  have h4_main_arg1 : (o_3.result V3) (Proc.devRef .tc main_arg1) = x1 := by rw [unary_result_ne, h3_main_arg1]; decide
  have h4_main_arg2 : (o_3.result V3) (Proc.devRef .tc main_arg2) = x2 := by rw [unary_result_ne, h3_main_arg2]; decide
  have h4_main_arg3 : (o_3.result V3) (Proc.devRef .tc main_arg3) = x3 := by rw [unary_result_ne, h3_main_arg3]; decide
  have h4_main_arg4 : (o_3.result V3) (Proc.devRef .tc main_arg4) = x4 := by rw [unary_result_ne, h3_main_arg4]; decide
  have h4_main_arg5 : (o_3.result V3) (Proc.devRef .tc main_arg5) = x5 := by rw [unary_result_ne, h3_main_arg5]; decide
  have h4_main_v1 : (o_3.result V3) (Proc.devRef .tc main_v1) = t_main_v1 := by rw [unary_result_ne, h3_main_v1]; decide
  generalize o_3.result V3 = V4 at h4_main_v2 h4_main_arg0 h4_main_arg1 h4_main_arg2 h4_main_arg3 h4_main_arg4 h4_main_arg5 h4_main_v1 ⊢
  clear h3_main_arg0 h3_main_arg1 h3_main_arg2 h3_main_arg3 h3_main_arg4 h3_main_arg5 h3_main_v1 h3_main_c
  rw [after_cons]
  let t_main_v3 : (⟨S4x1x1, .i1⟩ : BufTy).Contents (Elt F) := (cmpi .slt : (⟨S4x1x1, .i32⟩ : BufTy).Contents (Elt F) → (⟨S4x1x1, .i32⟩ : BufTy).Contents (Elt F) → (⟨S4x1x1, .i1⟩ : BufTy).Contents (Elt F)) t_main_v1 t_main_v2
  have h5_main_v3 : (o_4.result V4) (Proc.devRef .tc main_v3) = t_main_v3 := by rw [binary_result, h4_main_v1, h4_main_v2]; try rfl
  have h5_main_arg0 : (o_4.result V4) (Proc.devRef .tc main_arg0) = x0 := by rw [binary_result_ne, h4_main_arg0]; decide
  have h5_main_arg1 : (o_4.result V4) (Proc.devRef .tc main_arg1) = x1 := by rw [binary_result_ne, h4_main_arg1]; decide
  have h5_main_arg2 : (o_4.result V4) (Proc.devRef .tc main_arg2) = x2 := by rw [binary_result_ne, h4_main_arg2]; decide
  have h5_main_arg3 : (o_4.result V4) (Proc.devRef .tc main_arg3) = x3 := by rw [binary_result_ne, h4_main_arg3]; decide
  have h5_main_arg4 : (o_4.result V4) (Proc.devRef .tc main_arg4) = x4 := by rw [binary_result_ne, h4_main_arg4]; decide
  have h5_main_arg5 : (o_4.result V4) (Proc.devRef .tc main_arg5) = x5 := by rw [binary_result_ne, h4_main_arg5]; decide
  have h5_main_v1 : (o_4.result V4) (Proc.devRef .tc main_v1) = t_main_v1 := by rw [binary_result_ne, h4_main_v1]; decide
  generalize o_4.result V4 = V5 at h5_main_v3 h5_main_arg0 h5_main_arg1 h5_main_arg2 h5_main_arg3 h5_main_arg4 h5_main_arg5 h5_main_v1 ⊢
  clear h4_main_arg0 h4_main_arg1 h4_main_arg2 h4_main_arg3 h4_main_arg4 h4_main_arg5 h4_main_v1 h4_main_v2
  rw [after_cons]
  let t_main_c_0 : (⟨S_, .i32⟩ : BufTy).Contents (Elt F) := (constantI S_ 32 4#32)
  have h6_main_c_0 : (o_5.result V5) (Proc.devRef .tc main_c_0) = t_main_c_0 := by rw [nullary_result]; try rfl
  have h6_main_arg0 : (o_5.result V5) (Proc.devRef .tc main_arg0) = x0 := by rw [nullary_result_ne, h5_main_arg0]; decide
  have h6_main_arg1 : (o_5.result V5) (Proc.devRef .tc main_arg1) = x1 := by rw [nullary_result_ne, h5_main_arg1]; decide
  have h6_main_arg2 : (o_5.result V5) (Proc.devRef .tc main_arg2) = x2 := by rw [nullary_result_ne, h5_main_arg2]; decide
  have h6_main_arg3 : (o_5.result V5) (Proc.devRef .tc main_arg3) = x3 := by rw [nullary_result_ne, h5_main_arg3]; decide
  have h6_main_arg4 : (o_5.result V5) (Proc.devRef .tc main_arg4) = x4 := by rw [nullary_result_ne, h5_main_arg4]; decide
  have h6_main_arg5 : (o_5.result V5) (Proc.devRef .tc main_arg5) = x5 := by rw [nullary_result_ne, h5_main_arg5]; decide
  have h6_main_v3 : (o_5.result V5) (Proc.devRef .tc main_v3) = t_main_v3 := by rw [nullary_result_ne, h5_main_v3]; decide
  have h6_main_v1 : (o_5.result V5) (Proc.devRef .tc main_v1) = t_main_v1 := by rw [nullary_result_ne, h5_main_v1]; decide
  generalize o_5.result V5 = V6 at h6_main_c_0 h6_main_arg0 h6_main_arg1 h6_main_arg2 h6_main_arg3 h6_main_arg4 h6_main_arg5 h6_main_v3 h6_main_v1 ⊢
  clear h5_main_arg0 h5_main_arg1 h5_main_arg2 h5_main_arg3 h5_main_arg4 h5_main_arg5 h5_main_v3 h5_main_v1
  rw [after_cons]
  let t_main_v4 : (⟨S4x1x1, .i32⟩ : BufTy).Contents (Elt F) := (broadcastInDim S4x1x1 ![] bcast_S_S4x1x1 : (⟨S_, .i32⟩ : BufTy).Contents (Elt F) → (⟨S4x1x1, .i32⟩ : BufTy).Contents (Elt F)) t_main_c_0
  have h7_main_v4 : (o_6.result V6) (Proc.devRef .tc main_v4) = t_main_v4 := by rw [unary_result, h6_main_c_0]; try rfl
  have h7_main_arg0 : (o_6.result V6) (Proc.devRef .tc main_arg0) = x0 := by rw [unary_result_ne, h6_main_arg0]; decide
  have h7_main_arg1 : (o_6.result V6) (Proc.devRef .tc main_arg1) = x1 := by rw [unary_result_ne, h6_main_arg1]; decide
  have h7_main_arg2 : (o_6.result V6) (Proc.devRef .tc main_arg2) = x2 := by rw [unary_result_ne, h6_main_arg2]; decide
  have h7_main_arg3 : (o_6.result V6) (Proc.devRef .tc main_arg3) = x3 := by rw [unary_result_ne, h6_main_arg3]; decide
  have h7_main_arg4 : (o_6.result V6) (Proc.devRef .tc main_arg4) = x4 := by rw [unary_result_ne, h6_main_arg4]; decide
  have h7_main_arg5 : (o_6.result V6) (Proc.devRef .tc main_arg5) = x5 := by rw [unary_result_ne, h6_main_arg5]; decide
  have h7_main_v3 : (o_6.result V6) (Proc.devRef .tc main_v3) = t_main_v3 := by rw [unary_result_ne, h6_main_v3]; decide
  have h7_main_v1 : (o_6.result V6) (Proc.devRef .tc main_v1) = t_main_v1 := by rw [unary_result_ne, h6_main_v1]; decide
  generalize o_6.result V6 = V7 at h7_main_v4 h7_main_arg0 h7_main_arg1 h7_main_arg2 h7_main_arg3 h7_main_arg4 h7_main_arg5 h7_main_v3 h7_main_v1 ⊢
  clear h6_main_arg0 h6_main_arg1 h6_main_arg2 h6_main_arg3 h6_main_arg4 h6_main_arg5 h6_main_v3 h6_main_v1 h6_main_c_0
  rw [after_cons]
  let t_main_v5 : (⟨S4x1x1, .i32⟩ : BufTy).Contents (Elt F) := (addi : (⟨S4x1x1, .i32⟩ : BufTy).Contents (Elt F) → (⟨S4x1x1, .i32⟩ : BufTy).Contents (Elt F) → (⟨S4x1x1, .i32⟩ : BufTy).Contents (Elt F)) t_main_v1 t_main_v4
  have h8_main_v5 : (o_7.result V7) (Proc.devRef .tc main_v5) = t_main_v5 := by rw [binary_result, h7_main_v1, h7_main_v4]; try rfl
  have h8_main_arg0 : (o_7.result V7) (Proc.devRef .tc main_arg0) = x0 := by rw [binary_result_ne, h7_main_arg0]; decide
  have h8_main_arg1 : (o_7.result V7) (Proc.devRef .tc main_arg1) = x1 := by rw [binary_result_ne, h7_main_arg1]; decide
  have h8_main_arg2 : (o_7.result V7) (Proc.devRef .tc main_arg2) = x2 := by rw [binary_result_ne, h7_main_arg2]; decide
  have h8_main_arg3 : (o_7.result V7) (Proc.devRef .tc main_arg3) = x3 := by rw [binary_result_ne, h7_main_arg3]; decide
  have h8_main_arg4 : (o_7.result V7) (Proc.devRef .tc main_arg4) = x4 := by rw [binary_result_ne, h7_main_arg4]; decide
  have h8_main_arg5 : (o_7.result V7) (Proc.devRef .tc main_arg5) = x5 := by rw [binary_result_ne, h7_main_arg5]; decide
  have h8_main_v3 : (o_7.result V7) (Proc.devRef .tc main_v3) = t_main_v3 := by rw [binary_result_ne, h7_main_v3]; decide
  have h8_main_v1 : (o_7.result V7) (Proc.devRef .tc main_v1) = t_main_v1 := by rw [binary_result_ne, h7_main_v1]; decide
  generalize o_7.result V7 = V8 at h8_main_v5 h8_main_arg0 h8_main_arg1 h8_main_arg2 h8_main_arg3 h8_main_arg4 h8_main_arg5 h8_main_v3 h8_main_v1 ⊢
  clear h7_main_arg0 h7_main_arg1 h7_main_arg2 h7_main_arg3 h7_main_arg4 h7_main_arg5 h7_main_v3 h7_main_v1 h7_main_v4
  rw [after_cons]
  let t_main_v6 : (⟨S4x1x1, .i32⟩ : BufTy).Contents (Elt F) := (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)) t_main_v3 t_main_v5 t_main_v1
  have h9_main_v6 : (o_8.result V8) (Proc.devRef .tc main_v6) = t_main_v6 := by rw [ternary_result, h8_main_v3, h8_main_v5, h8_main_v1]; try rfl
  have h9_main_arg0 : (o_8.result V8) (Proc.devRef .tc main_arg0) = x0 := by rw [ternary_result_ne, h8_main_arg0]; decide
  have h9_main_arg1 : (o_8.result V8) (Proc.devRef .tc main_arg1) = x1 := by rw [ternary_result_ne, h8_main_arg1]; decide
  have h9_main_arg2 : (o_8.result V8) (Proc.devRef .tc main_arg2) = x2 := by rw [ternary_result_ne, h8_main_arg2]; decide
  have h9_main_arg3 : (o_8.result V8) (Proc.devRef .tc main_arg3) = x3 := by rw [ternary_result_ne, h8_main_arg3]; decide
  have h9_main_arg4 : (o_8.result V8) (Proc.devRef .tc main_arg4) = x4 := by rw [ternary_result_ne, h8_main_arg4]; decide
  have h9_main_arg5 : (o_8.result V8) (Proc.devRef .tc main_arg5) = x5 := by rw [ternary_result_ne, h8_main_arg5]; decide
  generalize o_8.result V8 = V9 at h9_main_v6 h9_main_arg0 h9_main_arg1 h9_main_arg2 h9_main_arg3 h9_main_arg4 h9_main_arg5 ⊢
  clear h8_main_arg0 h8_main_arg1 h8_main_arg2 h8_main_arg3 h8_main_arg4 h8_main_arg5 h8_main_v3 h8_main_v5 h8_main_v1
  rw [after_cons]
  let t_main_c_1 : (⟨S_, .i32⟩ : BufTy).Contents (Elt F) := (constantI S_ 32 0#32)
  have h10_main_c_1 : (o_9.result V9) (Proc.devRef .tc main_c_1) = t_main_c_1 := by rw [nullary_result]; try rfl
  have h10_main_arg0 : (o_9.result V9) (Proc.devRef .tc main_arg0) = x0 := by rw [nullary_result_ne, h9_main_arg0]; decide
  have h10_main_arg1 : (o_9.result V9) (Proc.devRef .tc main_arg1) = x1 := by rw [nullary_result_ne, h9_main_arg1]; decide
  have h10_main_arg2 : (o_9.result V9) (Proc.devRef .tc main_arg2) = x2 := by rw [nullary_result_ne, h9_main_arg2]; decide
  have h10_main_arg3 : (o_9.result V9) (Proc.devRef .tc main_arg3) = x3 := by rw [nullary_result_ne, h9_main_arg3]; decide
  have h10_main_arg4 : (o_9.result V9) (Proc.devRef .tc main_arg4) = x4 := by rw [nullary_result_ne, h9_main_arg4]; decide
  have h10_main_arg5 : (o_9.result V9) (Proc.devRef .tc main_arg5) = x5 := by rw [nullary_result_ne, h9_main_arg5]; decide
  have h10_main_v6 : (o_9.result V9) (Proc.devRef .tc main_v6) = t_main_v6 := by rw [nullary_result_ne, h9_main_v6]; decide
  generalize o_9.result V9 = V10 at h10_main_c_1 h10_main_arg0 h10_main_arg1 h10_main_arg2 h10_main_arg3 h10_main_arg4 h10_main_arg5 h10_main_v6 ⊢
  clear h9_main_arg0 h9_main_arg1 h9_main_arg2 h9_main_arg3 h9_main_arg4 h9_main_arg5 h9_main_v6
  rw [after_cons]
  let t_main_v7 : (⟨S4x8192x16, .i32⟩ : BufTy).Contents (Elt F) := (broadcastInDim S4x8192x16 ![] bcast_S_S4x8192x16 : (⟨S_, .i32⟩ : BufTy).Contents (Elt F) → (⟨S4x8192x16, .i32⟩ : BufTy).Contents (Elt F)) t_main_c_1
  have h11_main_v7 : (o_10.result V10) (Proc.devRef .tc main_v7) = t_main_v7 := by rw [unary_result, h10_main_c_1]; try rfl
  have h11_main_arg0 : (o_10.result V10) (Proc.devRef .tc main_arg0) = x0 := by rw [unary_result_ne, h10_main_arg0]; decide
  have h11_main_arg1 : (o_10.result V10) (Proc.devRef .tc main_arg1) = x1 := by rw [unary_result_ne, h10_main_arg1]; decide
  have h11_main_arg2 : (o_10.result V10) (Proc.devRef .tc main_arg2) = x2 := by rw [unary_result_ne, h10_main_arg2]; decide
  have h11_main_arg3 : (o_10.result V10) (Proc.devRef .tc main_arg3) = x3 := by rw [unary_result_ne, h10_main_arg3]; decide
  have h11_main_arg4 : (o_10.result V10) (Proc.devRef .tc main_arg4) = x4 := by rw [unary_result_ne, h10_main_arg4]; decide
  have h11_main_arg5 : (o_10.result V10) (Proc.devRef .tc main_arg5) = x5 := by rw [unary_result_ne, h10_main_arg5]; decide
  have h11_main_v6 : (o_10.result V10) (Proc.devRef .tc main_v6) = t_main_v6 := by rw [unary_result_ne, h10_main_v6]; decide
  generalize o_10.result V10 = V11 at h11_main_v7 h11_main_arg0 h11_main_arg1 h11_main_arg2 h11_main_arg3 h11_main_arg4 h11_main_arg5 h11_main_v6 ⊢
  clear h10_main_arg0 h10_main_arg1 h10_main_arg2 h10_main_arg3 h10_main_arg4 h10_main_arg5 h10_main_v6 h10_main_c_1
  rw [after_cons]
  let t_main_v8 : (⟨S4x8192x16, .i1⟩ : BufTy).Contents (Elt F) := (cmpi .slt : (⟨S4x8192x16, .i32⟩ : BufTy).Contents (Elt F) → (⟨S4x8192x16, .i32⟩ : BufTy).Contents (Elt F) → (⟨S4x8192x16, .i1⟩ : BufTy).Contents (Elt F)) x2 t_main_v7
  have h12_main_v8 : (o_11.result V11) (Proc.devRef .tc main_v8) = t_main_v8 := by rw [binary_result, h11_main_arg2, h11_main_v7]; try rfl
  have h12_main_arg0 : (o_11.result V11) (Proc.devRef .tc main_arg0) = x0 := by rw [binary_result_ne, h11_main_arg0]; decide
  have h12_main_arg1 : (o_11.result V11) (Proc.devRef .tc main_arg1) = x1 := by rw [binary_result_ne, h11_main_arg1]; decide
  have h12_main_arg2 : (o_11.result V11) (Proc.devRef .tc main_arg2) = x2 := by rw [binary_result_ne, h11_main_arg2]; decide
  have h12_main_arg3 : (o_11.result V11) (Proc.devRef .tc main_arg3) = x3 := by rw [binary_result_ne, h11_main_arg3]; decide
  have h12_main_arg4 : (o_11.result V11) (Proc.devRef .tc main_arg4) = x4 := by rw [binary_result_ne, h11_main_arg4]; decide
  have h12_main_arg5 : (o_11.result V11) (Proc.devRef .tc main_arg5) = x5 := by rw [binary_result_ne, h11_main_arg5]; decide
  have h12_main_v6 : (o_11.result V11) (Proc.devRef .tc main_v6) = t_main_v6 := by rw [binary_result_ne, h11_main_v6]; decide
  generalize o_11.result V11 = V12 at h12_main_v8 h12_main_arg0 h12_main_arg1 h12_main_arg2 h12_main_arg3 h12_main_arg4 h12_main_arg5 h12_main_v6 ⊢
  clear h11_main_arg0 h11_main_arg1 h11_main_arg2 h11_main_arg3 h11_main_arg4 h11_main_arg5 h11_main_v6 h11_main_v7
  rw [after_cons]
  let t_main_c_2 : (⟨S_, .i32⟩ : BufTy).Contents (Elt F) := (constantI S_ 32 8192#32)
  have h13_main_c_2 : (o_12.result V12) (Proc.devRef .tc main_c_2) = t_main_c_2 := by rw [nullary_result]; try rfl
  have h13_main_arg0 : (o_12.result V12) (Proc.devRef .tc main_arg0) = x0 := by rw [nullary_result_ne, h12_main_arg0]; decide
  have h13_main_arg1 : (o_12.result V12) (Proc.devRef .tc main_arg1) = x1 := by rw [nullary_result_ne, h12_main_arg1]; decide
  have h13_main_arg2 : (o_12.result V12) (Proc.devRef .tc main_arg2) = x2 := by rw [nullary_result_ne, h12_main_arg2]; decide
  have h13_main_arg3 : (o_12.result V12) (Proc.devRef .tc main_arg3) = x3 := by rw [nullary_result_ne, h12_main_arg3]; decide
  have h13_main_arg4 : (o_12.result V12) (Proc.devRef .tc main_arg4) = x4 := by rw [nullary_result_ne, h12_main_arg4]; decide
  have h13_main_arg5 : (o_12.result V12) (Proc.devRef .tc main_arg5) = x5 := by rw [nullary_result_ne, h12_main_arg5]; decide
  have h13_main_v6 : (o_12.result V12) (Proc.devRef .tc main_v6) = t_main_v6 := by rw [nullary_result_ne, h12_main_v6]; decide
  have h13_main_v8 : (o_12.result V12) (Proc.devRef .tc main_v8) = t_main_v8 := by rw [nullary_result_ne, h12_main_v8]; decide
  generalize o_12.result V12 = V13 at h13_main_c_2 h13_main_arg0 h13_main_arg1 h13_main_arg2 h13_main_arg3 h13_main_arg4 h13_main_arg5 h13_main_v6 h13_main_v8 ⊢
  clear h12_main_arg0 h12_main_arg1 h12_main_arg2 h12_main_arg3 h12_main_arg4 h12_main_arg5 h12_main_v6 h12_main_v8
  rw [after_cons]
  let t_main_v9 : (⟨S4x8192x16, .i32⟩ : BufTy).Contents (Elt F) := (broadcastInDim S4x8192x16 ![] bcast_S_S4x8192x16 : (⟨S_, .i32⟩ : BufTy).Contents (Elt F) → (⟨S4x8192x16, .i32⟩ : BufTy).Contents (Elt F)) t_main_c_2
  have h14_main_v9 : (o_13.result V13) (Proc.devRef .tc main_v9) = t_main_v9 := by rw [unary_result, h13_main_c_2]; try rfl
  have h14_main_arg0 : (o_13.result V13) (Proc.devRef .tc main_arg0) = x0 := by rw [unary_result_ne, h13_main_arg0]; decide
  have h14_main_arg1 : (o_13.result V13) (Proc.devRef .tc main_arg1) = x1 := by rw [unary_result_ne, h13_main_arg1]; decide
  have h14_main_arg2 : (o_13.result V13) (Proc.devRef .tc main_arg2) = x2 := by rw [unary_result_ne, h13_main_arg2]; decide
  have h14_main_arg3 : (o_13.result V13) (Proc.devRef .tc main_arg3) = x3 := by rw [unary_result_ne, h13_main_arg3]; decide
  have h14_main_arg4 : (o_13.result V13) (Proc.devRef .tc main_arg4) = x4 := by rw [unary_result_ne, h13_main_arg4]; decide
  have h14_main_arg5 : (o_13.result V13) (Proc.devRef .tc main_arg5) = x5 := by rw [unary_result_ne, h13_main_arg5]; decide
  have h14_main_v6 : (o_13.result V13) (Proc.devRef .tc main_v6) = t_main_v6 := by rw [unary_result_ne, h13_main_v6]; decide
  have h14_main_v8 : (o_13.result V13) (Proc.devRef .tc main_v8) = t_main_v8 := by rw [unary_result_ne, h13_main_v8]; decide
  generalize o_13.result V13 = V14 at h14_main_v9 h14_main_arg0 h14_main_arg1 h14_main_arg2 h14_main_arg3 h14_main_arg4 h14_main_arg5 h14_main_v6 h14_main_v8 ⊢
  clear h13_main_arg0 h13_main_arg1 h13_main_arg2 h13_main_arg3 h13_main_arg4 h13_main_arg5 h13_main_v6 h13_main_v8 h13_main_c_2
  rw [after_cons]
  let t_main_v10 : (⟨S4x8192x16, .i32⟩ : BufTy).Contents (Elt F) := (addi : (⟨S4x8192x16, .i32⟩ : BufTy).Contents (Elt F) → (⟨S4x8192x16, .i32⟩ : BufTy).Contents (Elt F) → (⟨S4x8192x16, .i32⟩ : BufTy).Contents (Elt F)) x2 t_main_v9
  have h15_main_v10 : (o_14.result V14) (Proc.devRef .tc main_v10) = t_main_v10 := by rw [binary_result, h14_main_arg2, h14_main_v9]; try rfl
  have h15_main_arg0 : (o_14.result V14) (Proc.devRef .tc main_arg0) = x0 := by rw [binary_result_ne, h14_main_arg0]; decide
  have h15_main_arg1 : (o_14.result V14) (Proc.devRef .tc main_arg1) = x1 := by rw [binary_result_ne, h14_main_arg1]; decide
  have h15_main_arg2 : (o_14.result V14) (Proc.devRef .tc main_arg2) = x2 := by rw [binary_result_ne, h14_main_arg2]; decide
  have h15_main_arg3 : (o_14.result V14) (Proc.devRef .tc main_arg3) = x3 := by rw [binary_result_ne, h14_main_arg3]; decide
  have h15_main_arg4 : (o_14.result V14) (Proc.devRef .tc main_arg4) = x4 := by rw [binary_result_ne, h14_main_arg4]; decide
  have h15_main_arg5 : (o_14.result V14) (Proc.devRef .tc main_arg5) = x5 := by rw [binary_result_ne, h14_main_arg5]; decide
  have h15_main_v6 : (o_14.result V14) (Proc.devRef .tc main_v6) = t_main_v6 := by rw [binary_result_ne, h14_main_v6]; decide
  have h15_main_v8 : (o_14.result V14) (Proc.devRef .tc main_v8) = t_main_v8 := by rw [binary_result_ne, h14_main_v8]; decide
  generalize o_14.result V14 = V15 at h15_main_v10 h15_main_arg0 h15_main_arg1 h15_main_arg2 h15_main_arg3 h15_main_arg4 h15_main_arg5 h15_main_v6 h15_main_v8 ⊢
  clear h14_main_arg0 h14_main_arg1 h14_main_arg2 h14_main_arg3 h14_main_arg4 h14_main_arg5 h14_main_v6 h14_main_v8 h14_main_v9
  rw [after_cons]
  let t_main_v11 : (⟨S4x8192x16, .i32⟩ : BufTy).Contents (Elt F) := (select : (⟨S4x8192x16, .i1⟩ : BufTy).Contents (Elt F) → (⟨S4x8192x16, .i32⟩ : BufTy).Contents (Elt F) → (⟨S4x8192x16, .i32⟩ : BufTy).Contents (Elt F) → (⟨S4x8192x16, .i32⟩ : BufTy).Contents (Elt F)) t_main_v8 t_main_v10 x2
  have h16_main_v11 : (o_15.result V15) (Proc.devRef .tc main_v11) = t_main_v11 := by rw [ternary_result, h15_main_v8, h15_main_v10, h15_main_arg2]; try rfl
  have h16_main_arg0 : (o_15.result V15) (Proc.devRef .tc main_arg0) = x0 := by rw [ternary_result_ne, h15_main_arg0]; decide
  have h16_main_arg1 : (o_15.result V15) (Proc.devRef .tc main_arg1) = x1 := by rw [ternary_result_ne, h15_main_arg1]; decide
  have h16_main_arg2 : (o_15.result V15) (Proc.devRef .tc main_arg2) = x2 := by rw [ternary_result_ne, h15_main_arg2]; decide
  have h16_main_arg3 : (o_15.result V15) (Proc.devRef .tc main_arg3) = x3 := by rw [ternary_result_ne, h15_main_arg3]; decide
  have h16_main_arg4 : (o_15.result V15) (Proc.devRef .tc main_arg4) = x4 := by rw [ternary_result_ne, h15_main_arg4]; decide
  have h16_main_arg5 : (o_15.result V15) (Proc.devRef .tc main_arg5) = x5 := by rw [ternary_result_ne, h15_main_arg5]; decide
  have h16_main_v6 : (o_15.result V15) (Proc.devRef .tc main_v6) = t_main_v6 := by rw [ternary_result_ne, h15_main_v6]; decide
  generalize o_15.result V15 = V16 at h16_main_v11 h16_main_arg0 h16_main_arg1 h16_main_arg2 h16_main_arg3 h16_main_arg4 h16_main_arg5 h16_main_v6 ⊢
  clear h15_main_arg0 h15_main_arg1 h15_main_arg2 h15_main_arg3 h15_main_arg4 h15_main_arg5 h15_main_v6 h15_main_v8 h15_main_v10
  rw [after_cons]
  let t_main_v12 : (⟨S4x8192x16, .i32⟩ : BufTy).Contents (Elt F) := (broadcastInDim S4x8192x16 ![0, 1, 2] bcast_S4x1x1_S4x8192x16_0_1_2 : (⟨S4x1x1, .i32⟩ : BufTy).Contents (Elt F) → (⟨S4x8192x16, .i32⟩ : BufTy).Contents (Elt F)) t_main_v6
  have h17_main_v12 : (o_16.result V16) (Proc.devRef .tc main_v12) = t_main_v12 := by rw [unary_result, h16_main_v6]; try rfl
  have h17_main_arg0 : (o_16.result V16) (Proc.devRef .tc main_arg0) = x0 := by rw [unary_result_ne, h16_main_arg0]; decide
  have h17_main_arg1 : (o_16.result V16) (Proc.devRef .tc main_arg1) = x1 := by rw [unary_result_ne, h16_main_arg1]; decide
  have h17_main_arg2 : (o_16.result V16) (Proc.devRef .tc main_arg2) = x2 := by rw [unary_result_ne, h16_main_arg2]; decide
  have h17_main_arg3 : (o_16.result V16) (Proc.devRef .tc main_arg3) = x3 := by rw [unary_result_ne, h16_main_arg3]; decide
  have h17_main_arg4 : (o_16.result V16) (Proc.devRef .tc main_arg4) = x4 := by rw [unary_result_ne, h16_main_arg4]; decide
  have h17_main_arg5 : (o_16.result V16) (Proc.devRef .tc main_arg5) = x5 := by rw [unary_result_ne, h16_main_arg5]; decide
  have h17_main_v11 : (o_16.result V16) (Proc.devRef .tc main_v11) = t_main_v11 := by rw [unary_result_ne, h16_main_v11]; decide
  generalize o_16.result V16 = V17 at h17_main_v12 h17_main_arg0 h17_main_arg1 h17_main_arg2 h17_main_arg3 h17_main_arg4 h17_main_arg5 h17_main_v11 ⊢
  clear h16_main_arg0 h16_main_arg1 h16_main_arg2 h16_main_arg3 h16_main_arg4 h16_main_arg5 h16_main_v11 h16_main_v6
  rw [after_cons]
  let t_main_v13 : (⟨S4x8192x16x1, .i32⟩ : BufTy).Contents (Elt F) := (broadcastInDim S4x8192x16x1 ![0, 1, 2] bcast_S4x8192x16_S4x8192x16x1_0_1_2 : (⟨S4x8192x16, .i32⟩ : BufTy).Contents (Elt F) → (⟨S4x8192x16x1, .i32⟩ : BufTy).Contents (Elt F)) t_main_v12
  have h18_main_v13 : (o_17.result V17) (Proc.devRef .tc main_v13) = t_main_v13 := by rw [unary_result, h17_main_v12]; try rfl
  have h18_main_arg0 : (o_17.result V17) (Proc.devRef .tc main_arg0) = x0 := by rw [unary_result_ne, h17_main_arg0]; decide
  have h18_main_arg1 : (o_17.result V17) (Proc.devRef .tc main_arg1) = x1 := by rw [unary_result_ne, h17_main_arg1]; decide
  have h18_main_arg2 : (o_17.result V17) (Proc.devRef .tc main_arg2) = x2 := by rw [unary_result_ne, h17_main_arg2]; decide
  have h18_main_arg3 : (o_17.result V17) (Proc.devRef .tc main_arg3) = x3 := by rw [unary_result_ne, h17_main_arg3]; decide
  have h18_main_arg4 : (o_17.result V17) (Proc.devRef .tc main_arg4) = x4 := by rw [unary_result_ne, h17_main_arg4]; decide
  have h18_main_arg5 : (o_17.result V17) (Proc.devRef .tc main_arg5) = x5 := by rw [unary_result_ne, h17_main_arg5]; decide
  have h18_main_v11 : (o_17.result V17) (Proc.devRef .tc main_v11) = t_main_v11 := by rw [unary_result_ne, h17_main_v11]; decide
  generalize o_17.result V17 = V18 at h18_main_v13 h18_main_arg0 h18_main_arg1 h18_main_arg2 h18_main_arg3 h18_main_arg4 h18_main_arg5 h18_main_v11 ⊢
  clear h17_main_arg0 h17_main_arg1 h17_main_arg2 h17_main_arg3 h17_main_arg4 h17_main_arg5 h17_main_v11 h17_main_v12
  rw [after_cons]
  let t_main_v14 : (⟨S4x8192x16x1, .i32⟩ : BufTy).Contents (Elt F) := (broadcastInDim S4x8192x16x1 ![0, 1, 2] bcast_S4x8192x16_S4x8192x16x1_0_1_2 : (⟨S4x8192x16, .i32⟩ : BufTy).Contents (Elt F) → (⟨S4x8192x16x1, .i32⟩ : BufTy).Contents (Elt F)) t_main_v11
  have h19_main_v14 : (o_18.result V18) (Proc.devRef .tc main_v14) = t_main_v14 := by rw [unary_result, h18_main_v11]; try rfl
  have h19_main_arg0 : (o_18.result V18) (Proc.devRef .tc main_arg0) = x0 := by rw [unary_result_ne, h18_main_arg0]; decide
  have h19_main_arg1 : (o_18.result V18) (Proc.devRef .tc main_arg1) = x1 := by rw [unary_result_ne, h18_main_arg1]; decide
  have h19_main_arg2 : (o_18.result V18) (Proc.devRef .tc main_arg2) = x2 := by rw [unary_result_ne, h18_main_arg2]; decide
  have h19_main_arg3 : (o_18.result V18) (Proc.devRef .tc main_arg3) = x3 := by rw [unary_result_ne, h18_main_arg3]; decide
  have h19_main_arg4 : (o_18.result V18) (Proc.devRef .tc main_arg4) = x4 := by rw [unary_result_ne, h18_main_arg4]; decide
  have h19_main_arg5 : (o_18.result V18) (Proc.devRef .tc main_arg5) = x5 := by rw [unary_result_ne, h18_main_arg5]; decide
  have h19_main_v13 : (o_18.result V18) (Proc.devRef .tc main_v13) = t_main_v13 := by rw [unary_result_ne, h18_main_v13]; decide
  generalize o_18.result V18 = V19 at h19_main_v14 h19_main_arg0 h19_main_arg1 h19_main_arg2 h19_main_arg3 h19_main_arg4 h19_main_arg5 h19_main_v13 ⊢
  clear h18_main_arg0 h18_main_arg1 h18_main_arg2 h18_main_arg3 h18_main_arg4 h18_main_arg5 h18_main_v13 h18_main_v11
  rw [after_cons]
  let t_main_v15 : (⟨S4x8192x16x2, .i32⟩ : BufTy).Contents (Elt F) := ((fun a b => concatenate S4x8192x16x2 3 [⟨S4x8192x16x1, a⟩, ⟨S4x8192x16x1, b⟩] concatenates_S4x8192x16x1_S4x8192x16x1_S4x8192x16x2_d3) : (⟨S4x8192x16x1, .i32⟩ : BufTy).Contents (Elt F) → (⟨S4x8192x16x1, .i32⟩ : BufTy).Contents (Elt F) → (⟨S4x8192x16x2, .i32⟩ : BufTy).Contents (Elt F)) t_main_v13 t_main_v14
  have h20_main_v15 : (o_19.result V19) (Proc.devRef .tc main_v15) = t_main_v15 := by rw [binary_result, h19_main_v13, h19_main_v14]; try rfl
  have h20_main_arg0 : (o_19.result V19) (Proc.devRef .tc main_arg0) = x0 := by rw [binary_result_ne, h19_main_arg0]; decide
  have h20_main_arg1 : (o_19.result V19) (Proc.devRef .tc main_arg1) = x1 := by rw [binary_result_ne, h19_main_arg1]; decide
  have h20_main_arg2 : (o_19.result V19) (Proc.devRef .tc main_arg2) = x2 := by rw [binary_result_ne, h19_main_arg2]; decide
  have h20_main_arg3 : (o_19.result V19) (Proc.devRef .tc main_arg3) = x3 := by rw [binary_result_ne, h19_main_arg3]; decide
  have h20_main_arg4 : (o_19.result V19) (Proc.devRef .tc main_arg4) = x4 := by rw [binary_result_ne, h19_main_arg4]; decide
  have h20_main_arg5 : (o_19.result V19) (Proc.devRef .tc main_arg5) = x5 := by rw [binary_result_ne, h19_main_arg5]; decide
  generalize o_19.result V19 = V20 at h20_main_v15 h20_main_arg0 h20_main_arg1 h20_main_arg2 h20_main_arg3 h20_main_arg4 h20_main_arg5 ⊢
  clear h19_main_arg0 h19_main_arg1 h19_main_arg2 h19_main_arg3 h19_main_arg4 h19_main_arg5 h19_main_v13 h19_main_v14
  rw [after_cons]
  let t_main_v16 : (⟨S4x8192x16x128, .f32⟩ : BufTy).Contents (Elt F) := ((fun x i => Host.gather gather_S4x8192x128_S4x8192x16x2_S4x8192x16x128_3_01_n_n_01_3_11128 x i) : (⟨S4x8192x128, .f32⟩ : BufTy).Contents (Elt F) → (⟨S4x8192x16x2, .i32⟩ : BufTy).Contents (Elt F) → (⟨S4x8192x16x128, .f32⟩ : BufTy).Contents (Elt F)) x0 t_main_v15
  have h21_main_v16 : (o_20.result V20) (Proc.devRef .tc main_v16) = t_main_v16 := by rw [binary_result, h20_main_arg0, h20_main_v15]; try rfl
  have h21_main_arg0 : (o_20.result V20) (Proc.devRef .tc main_arg0) = x0 := by rw [binary_result_ne, h20_main_arg0]; decide
  have h21_main_arg1 : (o_20.result V20) (Proc.devRef .tc main_arg1) = x1 := by rw [binary_result_ne, h20_main_arg1]; decide
  have h21_main_arg2 : (o_20.result V20) (Proc.devRef .tc main_arg2) = x2 := by rw [binary_result_ne, h20_main_arg2]; decide
  have h21_main_arg3 : (o_20.result V20) (Proc.devRef .tc main_arg3) = x3 := by rw [binary_result_ne, h20_main_arg3]; decide
  have h21_main_arg4 : (o_20.result V20) (Proc.devRef .tc main_arg4) = x4 := by rw [binary_result_ne, h20_main_arg4]; decide
  have h21_main_arg5 : (o_20.result V20) (Proc.devRef .tc main_arg5) = x5 := by rw [binary_result_ne, h20_main_arg5]; decide
  generalize o_20.result V20 = V21 at h21_main_v16 h21_main_arg0 h21_main_arg1 h21_main_arg2 h21_main_arg3 h21_main_arg4 h21_main_arg5 ⊢
  clear h20_main_arg0 h20_main_arg1 h20_main_arg2 h20_main_arg3 h20_main_arg4 h20_main_arg5 h20_main_v15
  rw [after_cons]
  let t_main_v17 : (⟨S4x8192x1x128, .f32⟩ : BufTy).Contents (Elt F) := (broadcastInDim S4x8192x1x128 ![0, 1, 3] bcast_S4x8192x128_S4x8192x1x128_0_1_3 : (⟨S4x8192x128, .f32⟩ : BufTy).Contents (Elt F) → (⟨S4x8192x1x128, .f32⟩ : BufTy).Contents (Elt F)) x0
  have h22_main_v17 : (o_21.result V21) (Proc.devRef .tc main_v17) = t_main_v17 := by rw [unary_result, h21_main_arg0]; try rfl
  have h22_main_arg0 : (o_21.result V21) (Proc.devRef .tc main_arg0) = x0 := by rw [unary_result_ne, h21_main_arg0]; decide
  have h22_main_arg1 : (o_21.result V21) (Proc.devRef .tc main_arg1) = x1 := by rw [unary_result_ne, h21_main_arg1]; decide
  have h22_main_arg2 : (o_21.result V21) (Proc.devRef .tc main_arg2) = x2 := by rw [unary_result_ne, h21_main_arg2]; decide
  have h22_main_arg3 : (o_21.result V21) (Proc.devRef .tc main_arg3) = x3 := by rw [unary_result_ne, h21_main_arg3]; decide
  have h22_main_arg4 : (o_21.result V21) (Proc.devRef .tc main_arg4) = x4 := by rw [unary_result_ne, h21_main_arg4]; decide
  have h22_main_arg5 : (o_21.result V21) (Proc.devRef .tc main_arg5) = x5 := by rw [unary_result_ne, h21_main_arg5]; decide
  have h22_main_v16 : (o_21.result V21) (Proc.devRef .tc main_v16) = t_main_v16 := by rw [unary_result_ne, h21_main_v16]; decide
  generalize o_21.result V21 = V22 at h22_main_v17 h22_main_arg0 h22_main_arg1 h22_main_arg2 h22_main_arg3 h22_main_arg4 h22_main_arg5 h22_main_v16 ⊢
  clear h21_main_arg0 h21_main_arg1 h21_main_arg2 h21_main_arg3 h21_main_arg4 h21_main_arg5 h21_main_v16
  rw [after_cons]
  let t_main_v18 : (⟨S4x8192x16x128, .f32⟩ : BufTy).Contents (Elt F) := (broadcastInDim S4x8192x16x128 ![0, 1, 2, 3] bcast_S4x8192x1x128_S4x8192x16x128_0_1_2_3 : (⟨S4x8192x1x128, .f32⟩ : BufTy).Contents (Elt F) → (⟨S4x8192x16x128, .f32⟩ : BufTy).Contents (Elt F)) t_main_v17
  have h23_main_v18 : (o_22.result V22) (Proc.devRef .tc main_v18) = t_main_v18 := by rw [unary_result, h22_main_v17]; try rfl
  have h23_main_arg0 : (o_22.result V22) (Proc.devRef .tc main_arg0) = x0 := by rw [unary_result_ne, h22_main_arg0]; decide
  have h23_main_arg1 : (o_22.result V22) (Proc.devRef .tc main_arg1) = x1 := by rw [unary_result_ne, h22_main_arg1]; decide
  have h23_main_arg2 : (o_22.result V22) (Proc.devRef .tc main_arg2) = x2 := by rw [unary_result_ne, h22_main_arg2]; decide
  have h23_main_arg3 : (o_22.result V22) (Proc.devRef .tc main_arg3) = x3 := by rw [unary_result_ne, h22_main_arg3]; decide
  have h23_main_arg4 : (o_22.result V22) (Proc.devRef .tc main_arg4) = x4 := by rw [unary_result_ne, h22_main_arg4]; decide
  have h23_main_arg5 : (o_22.result V22) (Proc.devRef .tc main_arg5) = x5 := by rw [unary_result_ne, h22_main_arg5]; decide
  have h23_main_v16 : (o_22.result V22) (Proc.devRef .tc main_v16) = t_main_v16 := by rw [unary_result_ne, h22_main_v16]; decide
  generalize o_22.result V22 = V23 at h23_main_v18 h23_main_arg0 h23_main_arg1 h23_main_arg2 h23_main_arg3 h23_main_arg4 h23_main_arg5 h23_main_v16 ⊢
  clear h22_main_arg0 h22_main_arg1 h22_main_arg2 h22_main_arg3 h22_main_arg4 h22_main_arg5 h22_main_v16 h22_main_v17
  rw [after_cons]
  let t_main_v19 : (⟨S4x8192x16x320, .f32⟩ : BufTy).Contents (Elt F) := concatenate S4x8192x16x320 3 [⟨S4x8192x16x128, t_main_v18⟩, ⟨S4x8192x16x128, t_main_v16⟩, ⟨S4x8192x16x64, x1⟩] concatenates_S4x8192x16x128_S4x8192x16x128_S4x8192x16x64_S4x8192x16x320_d3
  have h24_main_v19 : (o_23.result V23) (Proc.devRef .tc main_v19) = t_main_v19 := by
    rw [nary_result]
    show concatenate _ _ [⟨_, V23 (Proc.devRef .tc main_v18)⟩, ⟨_, V23 (Proc.devRef .tc main_v16)⟩, ⟨_, V23 (Proc.devRef .tc main_arg1)⟩] _ = _
    rw [h23_main_v18, h23_main_v16, h23_main_arg1]
    try rfl
  have h24_main_arg0 : (o_23.result V23) (Proc.devRef .tc main_arg0) = x0 := by rw [nary_result_ne, h23_main_arg0]; decide
  have h24_main_arg1 : (o_23.result V23) (Proc.devRef .tc main_arg1) = x1 := by rw [nary_result_ne, h23_main_arg1]; decide
  have h24_main_arg2 : (o_23.result V23) (Proc.devRef .tc main_arg2) = x2 := by rw [nary_result_ne, h23_main_arg2]; decide
  have h24_main_arg3 : (o_23.result V23) (Proc.devRef .tc main_arg3) = x3 := by rw [nary_result_ne, h23_main_arg3]; decide
  have h24_main_arg4 : (o_23.result V23) (Proc.devRef .tc main_arg4) = x4 := by rw [nary_result_ne, h23_main_arg4]; decide
  have h24_main_arg5 : (o_23.result V23) (Proc.devRef .tc main_arg5) = x5 := by rw [nary_result_ne, h23_main_arg5]; decide
  generalize o_23.result V23 = V24 at h24_main_v19 h24_main_arg0 h24_main_arg1 h24_main_arg2 h24_main_arg3 h24_main_arg4 h24_main_arg5 ⊢
  clear h23_main_arg0 h23_main_arg1 h23_main_arg2 h23_main_arg3 h23_main_arg4 h23_main_arg5 h23_main_v18 h23_main_v16
  rw [after_cons]
  let t_main_v20 : (⟨S4x8192x16x256, .f32⟩ : BufTy).Contents (Elt F) := ((fun l r => Host.dotGeneral dot_S4x8192x16x320_S256x320_S4x8192x16x256_3_1_012_0_n_n none l r) : (⟨S4x8192x16x320, .f32⟩ : BufTy).Contents (Elt F) → (⟨S256x320, .f32⟩ : BufTy).Contents (Elt F) → (⟨S4x8192x16x256, .f32⟩ : BufTy).Contents (Elt F)) t_main_v19 x3
  have h25_main_v20 : (o_24.result V24) (Proc.devRef .tc main_v20) = t_main_v20 := by rw [binary_result, h24_main_v19, h24_main_arg3]; try rfl
  have h25_main_arg0 : (o_24.result V24) (Proc.devRef .tc main_arg0) = x0 := by rw [binary_result_ne, h24_main_arg0]; decide
  have h25_main_arg1 : (o_24.result V24) (Proc.devRef .tc main_arg1) = x1 := by rw [binary_result_ne, h24_main_arg1]; decide
  have h25_main_arg2 : (o_24.result V24) (Proc.devRef .tc main_arg2) = x2 := by rw [binary_result_ne, h24_main_arg2]; decide
  have h25_main_arg3 : (o_24.result V24) (Proc.devRef .tc main_arg3) = x3 := by rw [binary_result_ne, h24_main_arg3]; decide
  have h25_main_arg4 : (o_24.result V24) (Proc.devRef .tc main_arg4) = x4 := by rw [binary_result_ne, h24_main_arg4]; decide
  have h25_main_arg5 : (o_24.result V24) (Proc.devRef .tc main_arg5) = x5 := by rw [binary_result_ne, h24_main_arg5]; decide
  generalize o_24.result V24 = V25 at h25_main_v20 h25_main_arg0 h25_main_arg1 h25_main_arg2 h25_main_arg3 h25_main_arg4 h25_main_arg5 ⊢
  clear h24_main_arg0 h24_main_arg1 h24_main_arg2 h24_main_arg3 h24_main_arg4 h24_main_arg5 h24_main_v19
  rw [after_cons]
  let t_main_v21 : (⟨S1x1x1x256, .f32⟩ : BufTy).Contents (Elt F) := (broadcastInDim S1x1x1x256 ![3] bcast_S256_S1x1x1x256_3 : (⟨S256, .f32⟩ : BufTy).Contents (Elt F) → (⟨S1x1x1x256, .f32⟩ : BufTy).Contents (Elt F)) x4
  have h26_main_v21 : (o_25.result V25) (Proc.devRef .tc main_v21) = t_main_v21 := by rw [unary_result, h25_main_arg4]; try rfl
  have h26_main_arg0 : (o_25.result V25) (Proc.devRef .tc main_arg0) = x0 := by rw [unary_result_ne, h25_main_arg0]; decide
  have h26_main_arg1 : (o_25.result V25) (Proc.devRef .tc main_arg1) = x1 := by rw [unary_result_ne, h25_main_arg1]; decide
  have h26_main_arg2 : (o_25.result V25) (Proc.devRef .tc main_arg2) = x2 := by rw [unary_result_ne, h25_main_arg2]; decide
  have h26_main_arg3 : (o_25.result V25) (Proc.devRef .tc main_arg3) = x3 := by rw [unary_result_ne, h25_main_arg3]; decide
  have h26_main_arg4 : (o_25.result V25) (Proc.devRef .tc main_arg4) = x4 := by rw [unary_result_ne, h25_main_arg4]; decide
  have h26_main_arg5 : (o_25.result V25) (Proc.devRef .tc main_arg5) = x5 := by rw [unary_result_ne, h25_main_arg5]; decide
  have h26_main_v20 : (o_25.result V25) (Proc.devRef .tc main_v20) = t_main_v20 := by rw [unary_result_ne, h25_main_v20]; decide
  generalize o_25.result V25 = V26 at h26_main_v21 h26_main_arg0 h26_main_arg1 h26_main_arg2 h26_main_arg3 h26_main_arg4 h26_main_arg5 h26_main_v20 ⊢
  clear h25_main_arg0 h25_main_arg1 h25_main_arg2 h25_main_arg3 h25_main_arg4 h25_main_arg5 h25_main_v20
  rw [after_cons]
  let t_main_v22 : (⟨S4x8192x16x256, .f32⟩ : BufTy).Contents (Elt F) := (broadcastInDim S4x8192x16x256 ![0, 1, 2, 3] bcast_S1x1x1x256_S4x8192x16x256_0_1_2_3 : (⟨S1x1x1x256, .f32⟩ : BufTy).Contents (Elt F) → (⟨S4x8192x16x256, .f32⟩ : BufTy).Contents (Elt F)) t_main_v21
  have h27_main_v22 : (o_26.result V26) (Proc.devRef .tc main_v22) = t_main_v22 := by rw [unary_result, h26_main_v21]; try rfl
  have h27_main_arg0 : (o_26.result V26) (Proc.devRef .tc main_arg0) = x0 := by rw [unary_result_ne, h26_main_arg0]; decide
  have h27_main_arg1 : (o_26.result V26) (Proc.devRef .tc main_arg1) = x1 := by rw [unary_result_ne, h26_main_arg1]; decide
  have h27_main_arg2 : (o_26.result V26) (Proc.devRef .tc main_arg2) = x2 := by rw [unary_result_ne, h26_main_arg2]; decide
  have h27_main_arg3 : (o_26.result V26) (Proc.devRef .tc main_arg3) = x3 := by rw [unary_result_ne, h26_main_arg3]; decide
  have h27_main_arg4 : (o_26.result V26) (Proc.devRef .tc main_arg4) = x4 := by rw [unary_result_ne, h26_main_arg4]; decide
  have h27_main_arg5 : (o_26.result V26) (Proc.devRef .tc main_arg5) = x5 := by rw [unary_result_ne, h26_main_arg5]; decide
  have h27_main_v20 : (o_26.result V26) (Proc.devRef .tc main_v20) = t_main_v20 := by rw [unary_result_ne, h26_main_v20]; decide
  generalize o_26.result V26 = V27 at h27_main_v22 h27_main_arg0 h27_main_arg1 h27_main_arg2 h27_main_arg3 h27_main_arg4 h27_main_arg5 h27_main_v20 ⊢
  clear h26_main_arg0 h26_main_arg1 h26_main_arg2 h26_main_arg3 h26_main_arg4 h26_main_arg5 h26_main_v20 h26_main_v21
  rw [after_cons]
  let t_main_v23 : (⟨S4x8192x16x256, .f32⟩ : BufTy).Contents (Elt F) := (addf : (⟨S4x8192x16x256, .f32⟩ : BufTy).Contents (Elt F) → (⟨S4x8192x16x256, .f32⟩ : BufTy).Contents (Elt F) → (⟨S4x8192x16x256, .f32⟩ : BufTy).Contents (Elt F)) t_main_v20 t_main_v22
  have h28_main_v23 : (o_27.result V27) (Proc.devRef .tc main_v23) = t_main_v23 := by rw [binary_result, h27_main_v20, h27_main_v22]; try rfl
  have h28_main_arg0 : (o_27.result V27) (Proc.devRef .tc main_arg0) = x0 := by rw [binary_result_ne, h27_main_arg0]; decide
  have h28_main_arg1 : (o_27.result V27) (Proc.devRef .tc main_arg1) = x1 := by rw [binary_result_ne, h27_main_arg1]; decide
  have h28_main_arg2 : (o_27.result V27) (Proc.devRef .tc main_arg2) = x2 := by rw [binary_result_ne, h27_main_arg2]; decide
  have h28_main_arg3 : (o_27.result V27) (Proc.devRef .tc main_arg3) = x3 := by rw [binary_result_ne, h27_main_arg3]; decide
  have h28_main_arg4 : (o_27.result V27) (Proc.devRef .tc main_arg4) = x4 := by rw [binary_result_ne, h27_main_arg4]; decide
  have h28_main_arg5 : (o_27.result V27) (Proc.devRef .tc main_arg5) = x5 := by rw [binary_result_ne, h27_main_arg5]; decide
  generalize o_27.result V27 = V28 at h28_main_v23 h28_main_arg0 h28_main_arg1 h28_main_arg2 h28_main_arg3 h28_main_arg4 h28_main_arg5 ⊢
  clear h27_main_arg0 h27_main_arg1 h27_main_arg2 h27_main_arg3 h27_main_arg4 h27_main_arg5 h27_main_v20 h27_main_v22
  rw [after_cons]
  let t_main_v24 : (⟨S4x8192x16x128, .f32⟩ : BufTy).Contents (Elt F) := ((extractStridedSlice S4x8192x16x128 ![0, 0, 0, 0] · slices_S4x8192x16x256_S4x8192x16x128_0_0_0_0) : (⟨S4x8192x16x256, .f32⟩ : BufTy).Contents (Elt F) → (⟨S4x8192x16x128, .f32⟩ : BufTy).Contents (Elt F)) t_main_v23
  have h29_main_v24 : (o_28.result V28) (Proc.devRef .tc main_v24) = t_main_v24 := by rw [unary_result, h28_main_v23]; try rfl
  have h29_main_arg0 : (o_28.result V28) (Proc.devRef .tc main_arg0) = x0 := by rw [unary_result_ne, h28_main_arg0]; decide
  have h29_main_arg1 : (o_28.result V28) (Proc.devRef .tc main_arg1) = x1 := by rw [unary_result_ne, h28_main_arg1]; decide
  have h29_main_arg2 : (o_28.result V28) (Proc.devRef .tc main_arg2) = x2 := by rw [unary_result_ne, h28_main_arg2]; decide
  have h29_main_arg3 : (o_28.result V28) (Proc.devRef .tc main_arg3) = x3 := by rw [unary_result_ne, h28_main_arg3]; decide
  have h29_main_arg4 : (o_28.result V28) (Proc.devRef .tc main_arg4) = x4 := by rw [unary_result_ne, h28_main_arg4]; decide
  have h29_main_arg5 : (o_28.result V28) (Proc.devRef .tc main_arg5) = x5 := by rw [unary_result_ne, h28_main_arg5]; decide
  have h29_main_v23 : (o_28.result V28) (Proc.devRef .tc main_v23) = t_main_v23 := by rw [unary_result_ne, h28_main_v23]; decide
  generalize o_28.result V28 = V29 at h29_main_v24 h29_main_arg0 h29_main_arg1 h29_main_arg2 h29_main_arg3 h29_main_arg4 h29_main_arg5 h29_main_v23 ⊢
  clear h28_main_arg0 h28_main_arg1 h28_main_arg2 h28_main_arg3 h28_main_arg4 h28_main_arg5 h28_main_v23
  rw [after_cons]
  let t_main_v25 : (⟨S4x8192x16x128, .f32⟩ : BufTy).Contents (Elt F) := ((extractStridedSlice S4x8192x16x128 ![0, 0, 0, 128] · slices_S4x8192x16x256_S4x8192x16x128_0_0_0_128) : (⟨S4x8192x16x256, .f32⟩ : BufTy).Contents (Elt F) → (⟨S4x8192x16x128, .f32⟩ : BufTy).Contents (Elt F)) t_main_v23
  have h30_main_v25 : (o_29.result V29) (Proc.devRef .tc main_v25) = t_main_v25 := by rw [unary_result, h29_main_v23]; try rfl
  have h30_main_arg0 : (o_29.result V29) (Proc.devRef .tc main_arg0) = x0 := by rw [unary_result_ne, h29_main_arg0]; decide
  have h30_main_arg1 : (o_29.result V29) (Proc.devRef .tc main_arg1) = x1 := by rw [unary_result_ne, h29_main_arg1]; decide
  have h30_main_arg2 : (o_29.result V29) (Proc.devRef .tc main_arg2) = x2 := by rw [unary_result_ne, h29_main_arg2]; decide
  have h30_main_arg3 : (o_29.result V29) (Proc.devRef .tc main_arg3) = x3 := by rw [unary_result_ne, h29_main_arg3]; decide
  have h30_main_arg4 : (o_29.result V29) (Proc.devRef .tc main_arg4) = x4 := by rw [unary_result_ne, h29_main_arg4]; decide
  have h30_main_arg5 : (o_29.result V29) (Proc.devRef .tc main_arg5) = x5 := by rw [unary_result_ne, h29_main_arg5]; decide
  have h30_main_v24 : (o_29.result V29) (Proc.devRef .tc main_v24) = t_main_v24 := by rw [unary_result_ne, h29_main_v24]; decide
  generalize o_29.result V29 = V30 at h30_main_v25 h30_main_arg0 h30_main_arg1 h30_main_arg2 h30_main_arg3 h30_main_arg4 h30_main_arg5 h30_main_v24 ⊢
  clear h29_main_arg0 h29_main_arg1 h29_main_arg2 h29_main_arg3 h29_main_arg4 h29_main_arg5 h29_main_v24 h29_main_v23
  rw [after_cons]
  let t_main_v26 : (⟨S4x8192x16x128, .f32⟩ : BufTy).Contents (Elt F) := (Host.negf : (⟨S4x8192x16x128, .f32⟩ : BufTy).Contents (Elt F) → (⟨S4x8192x16x128, .f32⟩ : BufTy).Contents (Elt F)) t_main_v24
  have h31_main_v26 : (o_30.result V30) (Proc.devRef .tc main_v26) = t_main_v26 := by rw [unary_result, h30_main_v24]; try rfl
  have h31_main_arg0 : (o_30.result V30) (Proc.devRef .tc main_arg0) = x0 := by rw [unary_result_ne, h30_main_arg0]; decide
  have h31_main_arg1 : (o_30.result V30) (Proc.devRef .tc main_arg1) = x1 := by rw [unary_result_ne, h30_main_arg1]; decide
  have h31_main_arg2 : (o_30.result V30) (Proc.devRef .tc main_arg2) = x2 := by rw [unary_result_ne, h30_main_arg2]; decide
  have h31_main_arg3 : (o_30.result V30) (Proc.devRef .tc main_arg3) = x3 := by rw [unary_result_ne, h30_main_arg3]; decide
  have h31_main_arg4 : (o_30.result V30) (Proc.devRef .tc main_arg4) = x4 := by rw [unary_result_ne, h30_main_arg4]; decide
  have h31_main_arg5 : (o_30.result V30) (Proc.devRef .tc main_arg5) = x5 := by rw [unary_result_ne, h30_main_arg5]; decide
  have h31_main_v25 : (o_30.result V30) (Proc.devRef .tc main_v25) = t_main_v25 := by rw [unary_result_ne, h30_main_v25]; decide
  generalize o_30.result V30 = V31 at h31_main_v26 h31_main_arg0 h31_main_arg1 h31_main_arg2 h31_main_arg3 h31_main_arg4 h31_main_arg5 h31_main_v25 ⊢
  clear h30_main_arg0 h30_main_arg1 h30_main_arg2 h30_main_arg3 h30_main_arg4 h30_main_arg5 h30_main_v25 h30_main_v24
  rw [after_cons]
  let t_main_v27 : (⟨S4x8192x16x128, .f32⟩ : BufTy).Contents (Elt F) := (Host.exp : (⟨S4x8192x16x128, .f32⟩ : BufTy).Contents (Elt F) → (⟨S4x8192x16x128, .f32⟩ : BufTy).Contents (Elt F)) t_main_v26
  have h32_main_v27 : (o_31.result V31) (Proc.devRef .tc main_v27) = t_main_v27 := by rw [unary_result, h31_main_v26]; try rfl
  have h32_main_arg0 : (o_31.result V31) (Proc.devRef .tc main_arg0) = x0 := by rw [unary_result_ne, h31_main_arg0]; decide
  have h32_main_arg1 : (o_31.result V31) (Proc.devRef .tc main_arg1) = x1 := by rw [unary_result_ne, h31_main_arg1]; decide
  have h32_main_arg2 : (o_31.result V31) (Proc.devRef .tc main_arg2) = x2 := by rw [unary_result_ne, h31_main_arg2]; decide
  have h32_main_arg3 : (o_31.result V31) (Proc.devRef .tc main_arg3) = x3 := by rw [unary_result_ne, h31_main_arg3]; decide
  have h32_main_arg4 : (o_31.result V31) (Proc.devRef .tc main_arg4) = x4 := by rw [unary_result_ne, h31_main_arg4]; decide
  have h32_main_arg5 : (o_31.result V31) (Proc.devRef .tc main_arg5) = x5 := by rw [unary_result_ne, h31_main_arg5]; decide
  have h32_main_v25 : (o_31.result V31) (Proc.devRef .tc main_v25) = t_main_v25 := by rw [unary_result_ne, h31_main_v25]; decide
  generalize o_31.result V31 = V32 at h32_main_v27 h32_main_arg0 h32_main_arg1 h32_main_arg2 h32_main_arg3 h32_main_arg4 h32_main_arg5 h32_main_v25 ⊢
  clear h31_main_arg0 h31_main_arg1 h31_main_arg2 h31_main_arg3 h31_main_arg4 h31_main_arg5 h31_main_v25 h31_main_v26
  rw [after_cons]
  let t_main_cst : (⟨S_, .f32⟩ : BufTy).Contents (Elt F) := (constant S_ .f32 0x3F800000#32)
  have h33_main_cst : (o_32.result V32) (Proc.devRef .tc main_cst) = t_main_cst := by rw [nullary_result]; try rfl
  have h33_main_arg0 : (o_32.result V32) (Proc.devRef .tc main_arg0) = x0 := by rw [nullary_result_ne, h32_main_arg0]; decide
  have h33_main_arg1 : (o_32.result V32) (Proc.devRef .tc main_arg1) = x1 := by rw [nullary_result_ne, h32_main_arg1]; decide
  have h33_main_arg2 : (o_32.result V32) (Proc.devRef .tc main_arg2) = x2 := by rw [nullary_result_ne, h32_main_arg2]; decide
  have h33_main_arg3 : (o_32.result V32) (Proc.devRef .tc main_arg3) = x3 := by rw [nullary_result_ne, h32_main_arg3]; decide
  have h33_main_arg4 : (o_32.result V32) (Proc.devRef .tc main_arg4) = x4 := by rw [nullary_result_ne, h32_main_arg4]; decide
  have h33_main_arg5 : (o_32.result V32) (Proc.devRef .tc main_arg5) = x5 := by rw [nullary_result_ne, h32_main_arg5]; decide
  have h33_main_v25 : (o_32.result V32) (Proc.devRef .tc main_v25) = t_main_v25 := by rw [nullary_result_ne, h32_main_v25]; decide
  have h33_main_v27 : (o_32.result V32) (Proc.devRef .tc main_v27) = t_main_v27 := by rw [nullary_result_ne, h32_main_v27]; decide
  generalize o_32.result V32 = V33 at h33_main_cst h33_main_arg0 h33_main_arg1 h33_main_arg2 h33_main_arg3 h33_main_arg4 h33_main_arg5 h33_main_v25 h33_main_v27 ⊢
  clear h32_main_arg0 h32_main_arg1 h32_main_arg2 h32_main_arg3 h32_main_arg4 h32_main_arg5 h32_main_v25 h32_main_v27
  rw [after_cons]
  let t_main_v28 : (⟨S4x8192x16x128, .f32⟩ : BufTy).Contents (Elt F) := (broadcastInDim S4x8192x16x128 ![] bcast_S_S4x8192x16x128 : (⟨S_, .f32⟩ : BufTy).Contents (Elt F) → (⟨S4x8192x16x128, .f32⟩ : BufTy).Contents (Elt F)) t_main_cst
  have h34_main_v28 : (o_33.result V33) (Proc.devRef .tc main_v28) = t_main_v28 := by rw [unary_result, h33_main_cst]; try rfl
  have h34_main_arg0 : (o_33.result V33) (Proc.devRef .tc main_arg0) = x0 := by rw [unary_result_ne, h33_main_arg0]; decide
  have h34_main_arg1 : (o_33.result V33) (Proc.devRef .tc main_arg1) = x1 := by rw [unary_result_ne, h33_main_arg1]; decide
  have h34_main_arg2 : (o_33.result V33) (Proc.devRef .tc main_arg2) = x2 := by rw [unary_result_ne, h33_main_arg2]; decide
  have h34_main_arg3 : (o_33.result V33) (Proc.devRef .tc main_arg3) = x3 := by rw [unary_result_ne, h33_main_arg3]; decide
  have h34_main_arg4 : (o_33.result V33) (Proc.devRef .tc main_arg4) = x4 := by rw [unary_result_ne, h33_main_arg4]; decide
  have h34_main_arg5 : (o_33.result V33) (Proc.devRef .tc main_arg5) = x5 := by rw [unary_result_ne, h33_main_arg5]; decide
  have h34_main_v25 : (o_33.result V33) (Proc.devRef .tc main_v25) = t_main_v25 := by rw [unary_result_ne, h33_main_v25]; decide
  have h34_main_v27 : (o_33.result V33) (Proc.devRef .tc main_v27) = t_main_v27 := by rw [unary_result_ne, h33_main_v27]; decide
  generalize o_33.result V33 = V34 at h34_main_v28 h34_main_arg0 h34_main_arg1 h34_main_arg2 h34_main_arg3 h34_main_arg4 h34_main_arg5 h34_main_v25 h34_main_v27 ⊢
  clear h33_main_arg0 h33_main_arg1 h33_main_arg2 h33_main_arg3 h33_main_arg4 h33_main_arg5 h33_main_v25 h33_main_v27 h33_main_cst
  rw [after_cons]
  let t_main_v29 : (⟨S4x8192x16x128, .f32⟩ : BufTy).Contents (Elt F) := (addf : (⟨S4x8192x16x128, .f32⟩ : BufTy).Contents (Elt F) → (⟨S4x8192x16x128, .f32⟩ : BufTy).Contents (Elt F) → (⟨S4x8192x16x128, .f32⟩ : BufTy).Contents (Elt F)) t_main_v28 t_main_v27
  have h35_main_v29 : (o_34.result V34) (Proc.devRef .tc main_v29) = t_main_v29 := by rw [binary_result, h34_main_v28, h34_main_v27]; try rfl
  have h35_main_arg0 : (o_34.result V34) (Proc.devRef .tc main_arg0) = x0 := by rw [binary_result_ne, h34_main_arg0]; decide
  have h35_main_arg1 : (o_34.result V34) (Proc.devRef .tc main_arg1) = x1 := by rw [binary_result_ne, h34_main_arg1]; decide
  have h35_main_arg2 : (o_34.result V34) (Proc.devRef .tc main_arg2) = x2 := by rw [binary_result_ne, h34_main_arg2]; decide
  have h35_main_arg3 : (o_34.result V34) (Proc.devRef .tc main_arg3) = x3 := by rw [binary_result_ne, h34_main_arg3]; decide
  have h35_main_arg4 : (o_34.result V34) (Proc.devRef .tc main_arg4) = x4 := by rw [binary_result_ne, h34_main_arg4]; decide
  have h35_main_arg5 : (o_34.result V34) (Proc.devRef .tc main_arg5) = x5 := by rw [binary_result_ne, h34_main_arg5]; decide
  have h35_main_v25 : (o_34.result V34) (Proc.devRef .tc main_v25) = t_main_v25 := by rw [binary_result_ne, h34_main_v25]; decide
  generalize o_34.result V34 = V35 at h35_main_v29 h35_main_arg0 h35_main_arg1 h35_main_arg2 h35_main_arg3 h35_main_arg4 h35_main_arg5 h35_main_v25 ⊢
  clear h34_main_arg0 h34_main_arg1 h34_main_arg2 h34_main_arg3 h34_main_arg4 h34_main_arg5 h34_main_v25 h34_main_v28 h34_main_v27
  rw [after_cons]
  let t_main_cst_3 : (⟨S_, .f32⟩ : BufTy).Contents (Elt F) := (constant S_ .f32 0x3F800000#32)
  have h36_main_cst_3 : (o_35.result V35) (Proc.devRef .tc main_cst_3) = t_main_cst_3 := by rw [nullary_result]; try rfl
  have h36_main_arg0 : (o_35.result V35) (Proc.devRef .tc main_arg0) = x0 := by rw [nullary_result_ne, h35_main_arg0]; decide
  have h36_main_arg1 : (o_35.result V35) (Proc.devRef .tc main_arg1) = x1 := by rw [nullary_result_ne, h35_main_arg1]; decide
  have h36_main_arg2 : (o_35.result V35) (Proc.devRef .tc main_arg2) = x2 := by rw [nullary_result_ne, h35_main_arg2]; decide
  have h36_main_arg3 : (o_35.result V35) (Proc.devRef .tc main_arg3) = x3 := by rw [nullary_result_ne, h35_main_arg3]; decide
  have h36_main_arg4 : (o_35.result V35) (Proc.devRef .tc main_arg4) = x4 := by rw [nullary_result_ne, h35_main_arg4]; decide
  have h36_main_arg5 : (o_35.result V35) (Proc.devRef .tc main_arg5) = x5 := by rw [nullary_result_ne, h35_main_arg5]; decide
  have h36_main_v25 : (o_35.result V35) (Proc.devRef .tc main_v25) = t_main_v25 := by rw [nullary_result_ne, h35_main_v25]; decide
  have h36_main_v29 : (o_35.result V35) (Proc.devRef .tc main_v29) = t_main_v29 := by rw [nullary_result_ne, h35_main_v29]; decide
  generalize o_35.result V35 = V36 at h36_main_cst_3 h36_main_arg0 h36_main_arg1 h36_main_arg2 h36_main_arg3 h36_main_arg4 h36_main_arg5 h36_main_v25 h36_main_v29 ⊢
  clear h35_main_arg0 h35_main_arg1 h35_main_arg2 h35_main_arg3 h35_main_arg4 h35_main_arg5 h35_main_v25 h35_main_v29
  rw [after_cons]
  let t_main_v30 : (⟨S4x8192x16x128, .f32⟩ : BufTy).Contents (Elt F) := (broadcastInDim S4x8192x16x128 ![] bcast_S_S4x8192x16x128 : (⟨S_, .f32⟩ : BufTy).Contents (Elt F) → (⟨S4x8192x16x128, .f32⟩ : BufTy).Contents (Elt F)) t_main_cst_3
  have h37_main_v30 : (o_36.result V36) (Proc.devRef .tc main_v30) = t_main_v30 := by rw [unary_result, h36_main_cst_3]; try rfl
  have h37_main_arg0 : (o_36.result V36) (Proc.devRef .tc main_arg0) = x0 := by rw [unary_result_ne, h36_main_arg0]; decide
  have h37_main_arg1 : (o_36.result V36) (Proc.devRef .tc main_arg1) = x1 := by rw [unary_result_ne, h36_main_arg1]; decide
  have h37_main_arg2 : (o_36.result V36) (Proc.devRef .tc main_arg2) = x2 := by rw [unary_result_ne, h36_main_arg2]; decide
  have h37_main_arg3 : (o_36.result V36) (Proc.devRef .tc main_arg3) = x3 := by rw [unary_result_ne, h36_main_arg3]; decide
  have h37_main_arg4 : (o_36.result V36) (Proc.devRef .tc main_arg4) = x4 := by rw [unary_result_ne, h36_main_arg4]; decide
  have h37_main_arg5 : (o_36.result V36) (Proc.devRef .tc main_arg5) = x5 := by rw [unary_result_ne, h36_main_arg5]; decide
  have h37_main_v25 : (o_36.result V36) (Proc.devRef .tc main_v25) = t_main_v25 := by rw [unary_result_ne, h36_main_v25]; decide
  have h37_main_v29 : (o_36.result V36) (Proc.devRef .tc main_v29) = t_main_v29 := by rw [unary_result_ne, h36_main_v29]; decide
  generalize o_36.result V36 = V37 at h37_main_v30 h37_main_arg0 h37_main_arg1 h37_main_arg2 h37_main_arg3 h37_main_arg4 h37_main_arg5 h37_main_v25 h37_main_v29 ⊢
  clear h36_main_arg0 h36_main_arg1 h36_main_arg2 h36_main_arg3 h36_main_arg4 h36_main_arg5 h36_main_v25 h36_main_v29 h36_main_cst_3
  rw [after_cons]
  let t_main_v31 : (⟨S4x8192x16x128, .f32⟩ : BufTy).Contents (Elt F) := (Host.divf : (⟨S4x8192x16x128, .f32⟩ : BufTy).Contents (Elt F) → (⟨S4x8192x16x128, .f32⟩ : BufTy).Contents (Elt F) → (⟨S4x8192x16x128, .f32⟩ : BufTy).Contents (Elt F)) t_main_v30 t_main_v29
  have h38_main_v31 : (o_37.result V37) (Proc.devRef .tc main_v31) = t_main_v31 := by rw [binary_result, h37_main_v30, h37_main_v29]; try rfl
  have h38_main_arg0 : (o_37.result V37) (Proc.devRef .tc main_arg0) = x0 := by rw [binary_result_ne, h37_main_arg0]; decide
  have h38_main_arg1 : (o_37.result V37) (Proc.devRef .tc main_arg1) = x1 := by rw [binary_result_ne, h37_main_arg1]; decide
  have h38_main_arg2 : (o_37.result V37) (Proc.devRef .tc main_arg2) = x2 := by rw [binary_result_ne, h37_main_arg2]; decide
  have h38_main_arg3 : (o_37.result V37) (Proc.devRef .tc main_arg3) = x3 := by rw [binary_result_ne, h37_main_arg3]; decide
  have h38_main_arg4 : (o_37.result V37) (Proc.devRef .tc main_arg4) = x4 := by rw [binary_result_ne, h37_main_arg4]; decide
  have h38_main_arg5 : (o_37.result V37) (Proc.devRef .tc main_arg5) = x5 := by rw [binary_result_ne, h37_main_arg5]; decide
  have h38_main_v25 : (o_37.result V37) (Proc.devRef .tc main_v25) = t_main_v25 := by rw [binary_result_ne, h37_main_v25]; decide
  generalize o_37.result V37 = V38 at h38_main_v31 h38_main_arg0 h38_main_arg1 h38_main_arg2 h38_main_arg3 h38_main_arg4 h38_main_arg5 h38_main_v25 ⊢
  clear h37_main_arg0 h37_main_arg1 h37_main_arg2 h37_main_arg3 h37_main_arg4 h37_main_arg5 h37_main_v25 h37_main_v30 h37_main_v29
  rw [after_cons]
  let t_main_call0_cst : (⟨S_, .f32⟩ : BufTy).Contents (Elt F) := (constant S_ .f32 0x00000000#32)
  have h39_main_call0_cst : (o_38.result V38) (Proc.devRef .tc main_call0_cst) = t_main_call0_cst := by rw [nullary_result]; try rfl
  have h39_main_arg0 : (o_38.result V38) (Proc.devRef .tc main_arg0) = x0 := by rw [nullary_result_ne, h38_main_arg0]; decide
  have h39_main_arg1 : (o_38.result V38) (Proc.devRef .tc main_arg1) = x1 := by rw [nullary_result_ne, h38_main_arg1]; decide
  have h39_main_arg2 : (o_38.result V38) (Proc.devRef .tc main_arg2) = x2 := by rw [nullary_result_ne, h38_main_arg2]; decide
  have h39_main_arg3 : (o_38.result V38) (Proc.devRef .tc main_arg3) = x3 := by rw [nullary_result_ne, h38_main_arg3]; decide
  have h39_main_arg4 : (o_38.result V38) (Proc.devRef .tc main_arg4) = x4 := by rw [nullary_result_ne, h38_main_arg4]; decide
  have h39_main_arg5 : (o_38.result V38) (Proc.devRef .tc main_arg5) = x5 := by rw [nullary_result_ne, h38_main_arg5]; decide
  have h39_main_v31 : (o_38.result V38) (Proc.devRef .tc main_v31) = t_main_v31 := by rw [nullary_result_ne, h38_main_v31]; decide
  have h39_main_v25 : (o_38.result V38) (Proc.devRef .tc main_v25) = t_main_v25 := by rw [nullary_result_ne, h38_main_v25]; decide
  generalize o_38.result V38 = V39 at h39_main_call0_cst h39_main_arg0 h39_main_arg1 h39_main_arg2 h39_main_arg3 h39_main_arg4 h39_main_arg5 h39_main_v31 h39_main_v25 ⊢
  clear h38_main_arg0 h38_main_arg1 h38_main_arg2 h38_main_arg3 h38_main_arg4 h38_main_arg5 h38_main_v31 h38_main_v25
  rw [after_cons]
  let t_main_call0_v0 : (⟨S4x8192x16x128, .f32⟩ : BufTy).Contents (Elt F) := (broadcastInDim S4x8192x16x128 ![] bcast_S_S4x8192x16x128) t_main_call0_cst
  have h40_main_call0_v0 : (o_39.result V39) (Proc.devRef .tc main_call0_v0) = t_main_call0_v0 := by rw [unary_result, h39_main_call0_cst]; try rfl
  have h40_main_arg0 : (o_39.result V39) (Proc.devRef .tc main_arg0) = x0 := by rw [unary_result_ne, h39_main_arg0]; decide
  have h40_main_arg1 : (o_39.result V39) (Proc.devRef .tc main_arg1) = x1 := by rw [unary_result_ne, h39_main_arg1]; decide
  have h40_main_arg2 : (o_39.result V39) (Proc.devRef .tc main_arg2) = x2 := by rw [unary_result_ne, h39_main_arg2]; decide
  have h40_main_arg3 : (o_39.result V39) (Proc.devRef .tc main_arg3) = x3 := by rw [unary_result_ne, h39_main_arg3]; decide
  have h40_main_arg4 : (o_39.result V39) (Proc.devRef .tc main_arg4) = x4 := by rw [unary_result_ne, h39_main_arg4]; decide
  have h40_main_arg5 : (o_39.result V39) (Proc.devRef .tc main_arg5) = x5 := by rw [unary_result_ne, h39_main_arg5]; decide
  have h40_main_v31 : (o_39.result V39) (Proc.devRef .tc main_v31) = t_main_v31 := by rw [unary_result_ne, h39_main_v31]; decide
  have h40_main_v25 : (o_39.result V39) (Proc.devRef .tc main_v25) = t_main_v25 := by rw [unary_result_ne, h39_main_v25]; decide
  have h40_main_call0_cst : (o_39.result V39) (Proc.devRef .tc main_call0_cst) = t_main_call0_cst := by rw [unary_result_ne, h39_main_call0_cst]; decide
  generalize o_39.result V39 = V40 at h40_main_call0_v0 h40_main_arg0 h40_main_arg1 h40_main_arg2 h40_main_arg3 h40_main_arg4 h40_main_arg5 h40_main_v31 h40_main_v25 h40_main_call0_cst ⊢
  clear h39_main_arg0 h39_main_arg1 h39_main_arg2 h39_main_arg3 h39_main_arg4 h39_main_arg5 h39_main_v31 h39_main_v25 h39_main_call0_cst
  rw [after_cons]
  let t_main_call0_v1 : (⟨S4x8192x16x128, .f32⟩ : BufTy).Contents (Elt F) := maximumf t_main_v25 t_main_call0_v0
  have h41_main_call0_v1 : (o_40.result V40) (Proc.devRef .tc main_call0_v1) = t_main_call0_v1 := by rw [binary_result, h40_main_v25, h40_main_call0_v0]; try rfl
  have h41_main_arg0 : (o_40.result V40) (Proc.devRef .tc main_arg0) = x0 := by rw [binary_result_ne, h40_main_arg0]; decide
  have h41_main_arg1 : (o_40.result V40) (Proc.devRef .tc main_arg1) = x1 := by rw [binary_result_ne, h40_main_arg1]; decide
  have h41_main_arg2 : (o_40.result V40) (Proc.devRef .tc main_arg2) = x2 := by rw [binary_result_ne, h40_main_arg2]; decide
  have h41_main_arg3 : (o_40.result V40) (Proc.devRef .tc main_arg3) = x3 := by rw [binary_result_ne, h40_main_arg3]; decide
  have h41_main_arg4 : (o_40.result V40) (Proc.devRef .tc main_arg4) = x4 := by rw [binary_result_ne, h40_main_arg4]; decide
  have h41_main_arg5 : (o_40.result V40) (Proc.devRef .tc main_arg5) = x5 := by rw [binary_result_ne, h40_main_arg5]; decide
  have h41_main_v31 : (o_40.result V40) (Proc.devRef .tc main_v31) = t_main_v31 := by rw [binary_result_ne, h40_main_v31]; decide
  have h41_main_v25 : (o_40.result V40) (Proc.devRef .tc main_v25) = t_main_v25 := by rw [binary_result_ne, h40_main_v25]; decide
  have h41_main_call0_cst : (o_40.result V40) (Proc.devRef .tc main_call0_cst) = t_main_call0_cst := by rw [binary_result_ne, h40_main_call0_cst]; decide
  generalize o_40.result V40 = V41 at h41_main_call0_v1 h41_main_arg0 h41_main_arg1 h41_main_arg2 h41_main_arg3 h41_main_arg4 h41_main_arg5 h41_main_v31 h41_main_v25 h41_main_call0_cst ⊢
  clear h40_main_arg0 h40_main_arg1 h40_main_arg2 h40_main_arg3 h40_main_arg4 h40_main_arg5 h40_main_v31 h40_main_v25 h40_main_call0_cst h40_main_call0_v0
  rw [after_cons]
  let t_main_call0_v2 : (⟨S4x8192x16x128, .f32⟩ : BufTy).Contents (Elt F) := (broadcastInDim S4x8192x16x128 ![] bcast_S_S4x8192x16x128) t_main_call0_cst
  have h42_main_call0_v2 : (o_41.result V41) (Proc.devRef .tc main_call0_v2) = t_main_call0_v2 := by rw [unary_result, h41_main_call0_cst]; try rfl
  have h42_main_arg0 : (o_41.result V41) (Proc.devRef .tc main_arg0) = x0 := by rw [unary_result_ne, h41_main_arg0]; decide
  have h42_main_arg1 : (o_41.result V41) (Proc.devRef .tc main_arg1) = x1 := by rw [unary_result_ne, h41_main_arg1]; decide
  have h42_main_arg2 : (o_41.result V41) (Proc.devRef .tc main_arg2) = x2 := by rw [unary_result_ne, h41_main_arg2]; decide
  have h42_main_arg3 : (o_41.result V41) (Proc.devRef .tc main_arg3) = x3 := by rw [unary_result_ne, h41_main_arg3]; decide
  have h42_main_arg4 : (o_41.result V41) (Proc.devRef .tc main_arg4) = x4 := by rw [unary_result_ne, h41_main_arg4]; decide
  have h42_main_arg5 : (o_41.result V41) (Proc.devRef .tc main_arg5) = x5 := by rw [unary_result_ne, h41_main_arg5]; decide
  have h42_main_v31 : (o_41.result V41) (Proc.devRef .tc main_v31) = t_main_v31 := by rw [unary_result_ne, h41_main_v31]; decide
  have h42_main_call0_v1 : (o_41.result V41) (Proc.devRef .tc main_call0_v1) = t_main_call0_v1 := by rw [unary_result_ne, h41_main_call0_v1]; decide
  have h42_main_v25 : (o_41.result V41) (Proc.devRef .tc main_v25) = t_main_v25 := by rw [unary_result_ne, h41_main_v25]; decide
  have h42_main_call0_cst : (o_41.result V41) (Proc.devRef .tc main_call0_cst) = t_main_call0_cst := by rw [unary_result_ne, h41_main_call0_cst]; decide
  generalize o_41.result V41 = V42 at h42_main_call0_v2 h42_main_arg0 h42_main_arg1 h42_main_arg2 h42_main_arg3 h42_main_arg4 h42_main_arg5 h42_main_v31 h42_main_call0_v1 h42_main_v25 h42_main_call0_cst ⊢
  clear h41_main_arg0 h41_main_arg1 h41_main_arg2 h41_main_arg3 h41_main_arg4 h41_main_arg5 h41_main_v31 h41_main_call0_v1 h41_main_v25 h41_main_call0_cst
  rw [after_cons]
  let t_main_call0_v3 : (⟨S4x8192x16x128, .f32⟩ : BufTy).Contents (Elt F) := subf t_main_v25 t_main_call0_v2
  have h43_main_call0_v3 : (o_42.result V42) (Proc.devRef .tc main_call0_v3) = t_main_call0_v3 := by rw [binary_result, h42_main_v25, h42_main_call0_v2]; try rfl
  have h43_main_arg0 : (o_42.result V42) (Proc.devRef .tc main_arg0) = x0 := by rw [binary_result_ne, h42_main_arg0]; decide
  have h43_main_arg1 : (o_42.result V42) (Proc.devRef .tc main_arg1) = x1 := by rw [binary_result_ne, h42_main_arg1]; decide
  have h43_main_arg2 : (o_42.result V42) (Proc.devRef .tc main_arg2) = x2 := by rw [binary_result_ne, h42_main_arg2]; decide
  have h43_main_arg3 : (o_42.result V42) (Proc.devRef .tc main_arg3) = x3 := by rw [binary_result_ne, h42_main_arg3]; decide
  have h43_main_arg4 : (o_42.result V42) (Proc.devRef .tc main_arg4) = x4 := by rw [binary_result_ne, h42_main_arg4]; decide
  have h43_main_arg5 : (o_42.result V42) (Proc.devRef .tc main_arg5) = x5 := by rw [binary_result_ne, h42_main_arg5]; decide
  have h43_main_v31 : (o_42.result V42) (Proc.devRef .tc main_v31) = t_main_v31 := by rw [binary_result_ne, h42_main_v31]; decide
  have h43_main_call0_v1 : (o_42.result V42) (Proc.devRef .tc main_call0_v1) = t_main_call0_v1 := by rw [binary_result_ne, h42_main_call0_v1]; decide
  have h43_main_v25 : (o_42.result V42) (Proc.devRef .tc main_v25) = t_main_v25 := by rw [binary_result_ne, h42_main_v25]; decide
  have h43_main_call0_cst : (o_42.result V42) (Proc.devRef .tc main_call0_cst) = t_main_call0_cst := by rw [binary_result_ne, h42_main_call0_cst]; decide
  generalize o_42.result V42 = V43 at h43_main_call0_v3 h43_main_arg0 h43_main_arg1 h43_main_arg2 h43_main_arg3 h43_main_arg4 h43_main_arg5 h43_main_v31 h43_main_call0_v1 h43_main_v25 h43_main_call0_cst ⊢
  clear h42_main_arg0 h42_main_arg1 h42_main_arg2 h42_main_arg3 h42_main_arg4 h42_main_arg5 h42_main_v31 h42_main_call0_v1 h42_main_v25 h42_main_call0_cst h42_main_call0_v2
  rw [after_cons]
  let t_main_call0_v4 : (⟨S4x8192x16x128, .i1⟩ : BufTy).Contents (Elt F) := (cmpf .une) t_main_call0_v3 t_main_call0_v3
  have h44_main_call0_v4 : (o_43.result V43) (Proc.devRef .tc main_call0_v4) = t_main_call0_v4 := by rw [binary_result, h43_main_call0_v3]; try rfl
  have h44_main_arg0 : (o_43.result V43) (Proc.devRef .tc main_arg0) = x0 := by rw [binary_result_ne, h43_main_arg0]; decide
  have h44_main_arg1 : (o_43.result V43) (Proc.devRef .tc main_arg1) = x1 := by rw [binary_result_ne, h43_main_arg1]; decide
  have h44_main_arg2 : (o_43.result V43) (Proc.devRef .tc main_arg2) = x2 := by rw [binary_result_ne, h43_main_arg2]; decide
  have h44_main_arg3 : (o_43.result V43) (Proc.devRef .tc main_arg3) = x3 := by rw [binary_result_ne, h43_main_arg3]; decide
  have h44_main_arg4 : (o_43.result V43) (Proc.devRef .tc main_arg4) = x4 := by rw [binary_result_ne, h43_main_arg4]; decide
  have h44_main_arg5 : (o_43.result V43) (Proc.devRef .tc main_arg5) = x5 := by rw [binary_result_ne, h43_main_arg5]; decide
  have h44_main_v31 : (o_43.result V43) (Proc.devRef .tc main_v31) = t_main_v31 := by rw [binary_result_ne, h43_main_v31]; decide
  have h44_main_call0_v1 : (o_43.result V43) (Proc.devRef .tc main_call0_v1) = t_main_call0_v1 := by rw [binary_result_ne, h43_main_call0_v1]; decide
  have h44_main_call0_v3 : (o_43.result V43) (Proc.devRef .tc main_call0_v3) = t_main_call0_v3 := by rw [binary_result_ne, h43_main_call0_v3]; decide
  have h44_main_v25 : (o_43.result V43) (Proc.devRef .tc main_v25) = t_main_v25 := by rw [binary_result_ne, h43_main_v25]; decide
  have h44_main_call0_cst : (o_43.result V43) (Proc.devRef .tc main_call0_cst) = t_main_call0_cst := by rw [binary_result_ne, h43_main_call0_cst]; decide
  generalize o_43.result V43 = V44 at h44_main_call0_v4 h44_main_arg0 h44_main_arg1 h44_main_arg2 h44_main_arg3 h44_main_arg4 h44_main_arg5 h44_main_v31 h44_main_call0_v1 h44_main_call0_v3 h44_main_v25 h44_main_call0_cst ⊢
  clear h43_main_arg0 h43_main_arg1 h43_main_arg2 h43_main_arg3 h43_main_arg4 h43_main_arg5 h43_main_v31 h43_main_call0_v1 h43_main_call0_v3 h43_main_v25 h43_main_call0_cst
  rw [after_cons]
  let t_main_call0_v5 : (⟨S4x8192x16x128, .f32⟩ : BufTy).Contents (Elt F) := (broadcastInDim S4x8192x16x128 ![] bcast_S_S4x8192x16x128) t_main_call0_cst
  have h45_main_call0_v5 : (o_44.result V44) (Proc.devRef .tc main_call0_v5) = t_main_call0_v5 := by rw [unary_result, h44_main_call0_cst]; try rfl
  have h45_main_arg0 : (o_44.result V44) (Proc.devRef .tc main_arg0) = x0 := by rw [unary_result_ne, h44_main_arg0]; decide
  have h45_main_arg1 : (o_44.result V44) (Proc.devRef .tc main_arg1) = x1 := by rw [unary_result_ne, h44_main_arg1]; decide
  have h45_main_arg2 : (o_44.result V44) (Proc.devRef .tc main_arg2) = x2 := by rw [unary_result_ne, h44_main_arg2]; decide
  have h45_main_arg3 : (o_44.result V44) (Proc.devRef .tc main_arg3) = x3 := by rw [unary_result_ne, h44_main_arg3]; decide
  have h45_main_arg4 : (o_44.result V44) (Proc.devRef .tc main_arg4) = x4 := by rw [unary_result_ne, h44_main_arg4]; decide
  have h45_main_arg5 : (o_44.result V44) (Proc.devRef .tc main_arg5) = x5 := by rw [unary_result_ne, h44_main_arg5]; decide
  have h45_main_v31 : (o_44.result V44) (Proc.devRef .tc main_v31) = t_main_v31 := by rw [unary_result_ne, h44_main_v31]; decide
  have h45_main_call0_v4 : (o_44.result V44) (Proc.devRef .tc main_call0_v4) = t_main_call0_v4 := by rw [unary_result_ne, h44_main_call0_v4]; decide
  have h45_main_call0_v1 : (o_44.result V44) (Proc.devRef .tc main_call0_v1) = t_main_call0_v1 := by rw [unary_result_ne, h44_main_call0_v1]; decide
  have h45_main_call0_v3 : (o_44.result V44) (Proc.devRef .tc main_call0_v3) = t_main_call0_v3 := by rw [unary_result_ne, h44_main_call0_v3]; decide
  have h45_main_v25 : (o_44.result V44) (Proc.devRef .tc main_v25) = t_main_v25 := by rw [unary_result_ne, h44_main_v25]; decide
  generalize o_44.result V44 = V45 at h45_main_call0_v5 h45_main_arg0 h45_main_arg1 h45_main_arg2 h45_main_arg3 h45_main_arg4 h45_main_arg5 h45_main_v31 h45_main_call0_v4 h45_main_call0_v1 h45_main_call0_v3 h45_main_v25 ⊢
  clear h44_main_arg0 h44_main_arg1 h44_main_arg2 h44_main_arg3 h44_main_arg4 h44_main_arg5 h44_main_v31 h44_main_call0_v4 h44_main_call0_v1 h44_main_call0_v3 h44_main_v25 h44_main_call0_cst
  rw [after_cons]
  let t_main_call0_v6 : (⟨S4x8192x16x128, .f32⟩ : BufTy).Contents (Elt F) := addf t_main_v25 t_main_call0_v5
  have h46_main_call0_v6 : (o_45.result V45) (Proc.devRef .tc main_call0_v6) = t_main_call0_v6 := by rw [binary_result, h45_main_v25, h45_main_call0_v5]; try rfl
  have h46_main_arg0 : (o_45.result V45) (Proc.devRef .tc main_arg0) = x0 := by rw [binary_result_ne, h45_main_arg0]; decide
  have h46_main_arg1 : (o_45.result V45) (Proc.devRef .tc main_arg1) = x1 := by rw [binary_result_ne, h45_main_arg1]; decide
  have h46_main_arg2 : (o_45.result V45) (Proc.devRef .tc main_arg2) = x2 := by rw [binary_result_ne, h45_main_arg2]; decide
  have h46_main_arg3 : (o_45.result V45) (Proc.devRef .tc main_arg3) = x3 := by rw [binary_result_ne, h45_main_arg3]; decide
  have h46_main_arg4 : (o_45.result V45) (Proc.devRef .tc main_arg4) = x4 := by rw [binary_result_ne, h45_main_arg4]; decide
  have h46_main_arg5 : (o_45.result V45) (Proc.devRef .tc main_arg5) = x5 := by rw [binary_result_ne, h45_main_arg5]; decide
  have h46_main_v31 : (o_45.result V45) (Proc.devRef .tc main_v31) = t_main_v31 := by rw [binary_result_ne, h45_main_v31]; decide
  have h46_main_call0_v4 : (o_45.result V45) (Proc.devRef .tc main_call0_v4) = t_main_call0_v4 := by rw [binary_result_ne, h45_main_call0_v4]; decide
  have h46_main_call0_v1 : (o_45.result V45) (Proc.devRef .tc main_call0_v1) = t_main_call0_v1 := by rw [binary_result_ne, h45_main_call0_v1]; decide
  have h46_main_call0_v3 : (o_45.result V45) (Proc.devRef .tc main_call0_v3) = t_main_call0_v3 := by rw [binary_result_ne, h45_main_call0_v3]; decide
  generalize o_45.result V45 = V46 at h46_main_call0_v6 h46_main_arg0 h46_main_arg1 h46_main_arg2 h46_main_arg3 h46_main_arg4 h46_main_arg5 h46_main_v31 h46_main_call0_v4 h46_main_call0_v1 h46_main_call0_v3 ⊢
  clear h45_main_arg0 h45_main_arg1 h45_main_arg2 h45_main_arg3 h45_main_arg4 h45_main_arg5 h45_main_v31 h45_main_call0_v4 h45_main_call0_v1 h45_main_call0_v3 h45_main_v25 h45_main_call0_v5
  rw [after_cons]
  let t_main_call0_v7 : (⟨S4x8192x16x128, .f32⟩ : BufTy).Contents (Elt F) := Host.absf t_main_call0_v3
  have h47_main_call0_v7 : (o_46.result V46) (Proc.devRef .tc main_call0_v7) = t_main_call0_v7 := by rw [unary_result, h46_main_call0_v3]; try rfl
  have h47_main_arg0 : (o_46.result V46) (Proc.devRef .tc main_arg0) = x0 := by rw [unary_result_ne, h46_main_arg0]; decide
  have h47_main_arg1 : (o_46.result V46) (Proc.devRef .tc main_arg1) = x1 := by rw [unary_result_ne, h46_main_arg1]; decide
  have h47_main_arg2 : (o_46.result V46) (Proc.devRef .tc main_arg2) = x2 := by rw [unary_result_ne, h46_main_arg2]; decide
  have h47_main_arg3 : (o_46.result V46) (Proc.devRef .tc main_arg3) = x3 := by rw [unary_result_ne, h46_main_arg3]; decide
  have h47_main_arg4 : (o_46.result V46) (Proc.devRef .tc main_arg4) = x4 := by rw [unary_result_ne, h46_main_arg4]; decide
  have h47_main_arg5 : (o_46.result V46) (Proc.devRef .tc main_arg5) = x5 := by rw [unary_result_ne, h46_main_arg5]; decide
  have h47_main_v31 : (o_46.result V46) (Proc.devRef .tc main_v31) = t_main_v31 := by rw [unary_result_ne, h46_main_v31]; decide
  have h47_main_call0_v4 : (o_46.result V46) (Proc.devRef .tc main_call0_v4) = t_main_call0_v4 := by rw [unary_result_ne, h46_main_call0_v4]; decide
  have h47_main_call0_v6 : (o_46.result V46) (Proc.devRef .tc main_call0_v6) = t_main_call0_v6 := by rw [unary_result_ne, h46_main_call0_v6]; decide
  have h47_main_call0_v1 : (o_46.result V46) (Proc.devRef .tc main_call0_v1) = t_main_call0_v1 := by rw [unary_result_ne, h46_main_call0_v1]; decide
  generalize o_46.result V46 = V47 at h47_main_call0_v7 h47_main_arg0 h47_main_arg1 h47_main_arg2 h47_main_arg3 h47_main_arg4 h47_main_arg5 h47_main_v31 h47_main_call0_v4 h47_main_call0_v6 h47_main_call0_v1 ⊢
  clear h46_main_arg0 h46_main_arg1 h46_main_arg2 h46_main_arg3 h46_main_arg4 h46_main_arg5 h46_main_v31 h46_main_call0_v4 h46_main_call0_v6 h46_main_call0_v1 h46_main_call0_v3
  rw [after_cons]
  let t_main_call0_v8 : (⟨S4x8192x16x128, .f32⟩ : BufTy).Contents (Elt F) := Host.negf t_main_call0_v7
  have h48_main_call0_v8 : (o_47.result V47) (Proc.devRef .tc main_call0_v8) = t_main_call0_v8 := by rw [unary_result, h47_main_call0_v7]; try rfl
  have h48_main_arg0 : (o_47.result V47) (Proc.devRef .tc main_arg0) = x0 := by rw [unary_result_ne, h47_main_arg0]; decide
  have h48_main_arg1 : (o_47.result V47) (Proc.devRef .tc main_arg1) = x1 := by rw [unary_result_ne, h47_main_arg1]; decide
  have h48_main_arg2 : (o_47.result V47) (Proc.devRef .tc main_arg2) = x2 := by rw [unary_result_ne, h47_main_arg2]; decide
  have h48_main_arg3 : (o_47.result V47) (Proc.devRef .tc main_arg3) = x3 := by rw [unary_result_ne, h47_main_arg3]; decide
  have h48_main_arg4 : (o_47.result V47) (Proc.devRef .tc main_arg4) = x4 := by rw [unary_result_ne, h47_main_arg4]; decide
  have h48_main_arg5 : (o_47.result V47) (Proc.devRef .tc main_arg5) = x5 := by rw [unary_result_ne, h47_main_arg5]; decide
  have h48_main_v31 : (o_47.result V47) (Proc.devRef .tc main_v31) = t_main_v31 := by rw [unary_result_ne, h47_main_v31]; decide
  have h48_main_call0_v4 : (o_47.result V47) (Proc.devRef .tc main_call0_v4) = t_main_call0_v4 := by rw [unary_result_ne, h47_main_call0_v4]; decide
  have h48_main_call0_v6 : (o_47.result V47) (Proc.devRef .tc main_call0_v6) = t_main_call0_v6 := by rw [unary_result_ne, h47_main_call0_v6]; decide
  have h48_main_call0_v1 : (o_47.result V47) (Proc.devRef .tc main_call0_v1) = t_main_call0_v1 := by rw [unary_result_ne, h47_main_call0_v1]; decide
  generalize o_47.result V47 = V48 at h48_main_call0_v8 h48_main_arg0 h48_main_arg1 h48_main_arg2 h48_main_arg3 h48_main_arg4 h48_main_arg5 h48_main_v31 h48_main_call0_v4 h48_main_call0_v6 h48_main_call0_v1 ⊢
  clear h47_main_arg0 h47_main_arg1 h47_main_arg2 h47_main_arg3 h47_main_arg4 h47_main_arg5 h47_main_v31 h47_main_call0_v4 h47_main_call0_v6 h47_main_call0_v1 h47_main_call0_v7
  rw [after_cons]
  let t_main_call0_v9 : (⟨S4x8192x16x128, .f32⟩ : BufTy).Contents (Elt F) := Host.exp t_main_call0_v8
  have h49_main_call0_v9 : (o_48.result V48) (Proc.devRef .tc main_call0_v9) = t_main_call0_v9 := by rw [unary_result, h48_main_call0_v8]; try rfl
  have h49_main_arg0 : (o_48.result V48) (Proc.devRef .tc main_arg0) = x0 := by rw [unary_result_ne, h48_main_arg0]; decide
  have h49_main_arg1 : (o_48.result V48) (Proc.devRef .tc main_arg1) = x1 := by rw [unary_result_ne, h48_main_arg1]; decide
  have h49_main_arg2 : (o_48.result V48) (Proc.devRef .tc main_arg2) = x2 := by rw [unary_result_ne, h48_main_arg2]; decide
  have h49_main_arg3 : (o_48.result V48) (Proc.devRef .tc main_arg3) = x3 := by rw [unary_result_ne, h48_main_arg3]; decide
  have h49_main_arg4 : (o_48.result V48) (Proc.devRef .tc main_arg4) = x4 := by rw [unary_result_ne, h48_main_arg4]; decide
  have h49_main_arg5 : (o_48.result V48) (Proc.devRef .tc main_arg5) = x5 := by rw [unary_result_ne, h48_main_arg5]; decide
  have h49_main_v31 : (o_48.result V48) (Proc.devRef .tc main_v31) = t_main_v31 := by rw [unary_result_ne, h48_main_v31]; decide
  have h49_main_call0_v4 : (o_48.result V48) (Proc.devRef .tc main_call0_v4) = t_main_call0_v4 := by rw [unary_result_ne, h48_main_call0_v4]; decide
  have h49_main_call0_v6 : (o_48.result V48) (Proc.devRef .tc main_call0_v6) = t_main_call0_v6 := by rw [unary_result_ne, h48_main_call0_v6]; decide
  have h49_main_call0_v1 : (o_48.result V48) (Proc.devRef .tc main_call0_v1) = t_main_call0_v1 := by rw [unary_result_ne, h48_main_call0_v1]; decide
  generalize o_48.result V48 = V49 at h49_main_call0_v9 h49_main_arg0 h49_main_arg1 h49_main_arg2 h49_main_arg3 h49_main_arg4 h49_main_arg5 h49_main_v31 h49_main_call0_v4 h49_main_call0_v6 h49_main_call0_v1 ⊢
  clear h48_main_arg0 h48_main_arg1 h48_main_arg2 h48_main_arg3 h48_main_arg4 h48_main_arg5 h48_main_v31 h48_main_call0_v4 h48_main_call0_v6 h48_main_call0_v1 h48_main_call0_v8
  rw [after_cons]
  let t_main_call0_v10 : (⟨S4x8192x16x128, .f32⟩ : BufTy).Contents (Elt F) := Host.log1p t_main_call0_v9
  have h50_main_call0_v10 : (o_49.result V49) (Proc.devRef .tc main_call0_v10) = t_main_call0_v10 := by rw [unary_result, h49_main_call0_v9]; try rfl
  have h50_main_arg0 : (o_49.result V49) (Proc.devRef .tc main_arg0) = x0 := by rw [unary_result_ne, h49_main_arg0]; decide
  have h50_main_arg1 : (o_49.result V49) (Proc.devRef .tc main_arg1) = x1 := by rw [unary_result_ne, h49_main_arg1]; decide
  have h50_main_arg2 : (o_49.result V49) (Proc.devRef .tc main_arg2) = x2 := by rw [unary_result_ne, h49_main_arg2]; decide
  have h50_main_arg3 : (o_49.result V49) (Proc.devRef .tc main_arg3) = x3 := by rw [unary_result_ne, h49_main_arg3]; decide
  have h50_main_arg4 : (o_49.result V49) (Proc.devRef .tc main_arg4) = x4 := by rw [unary_result_ne, h49_main_arg4]; decide
  have h50_main_arg5 : (o_49.result V49) (Proc.devRef .tc main_arg5) = x5 := by rw [unary_result_ne, h49_main_arg5]; decide
  have h50_main_v31 : (o_49.result V49) (Proc.devRef .tc main_v31) = t_main_v31 := by rw [unary_result_ne, h49_main_v31]; decide
  have h50_main_call0_v4 : (o_49.result V49) (Proc.devRef .tc main_call0_v4) = t_main_call0_v4 := by rw [unary_result_ne, h49_main_call0_v4]; decide
  have h50_main_call0_v6 : (o_49.result V49) (Proc.devRef .tc main_call0_v6) = t_main_call0_v6 := by rw [unary_result_ne, h49_main_call0_v6]; decide
  have h50_main_call0_v1 : (o_49.result V49) (Proc.devRef .tc main_call0_v1) = t_main_call0_v1 := by rw [unary_result_ne, h49_main_call0_v1]; decide
  generalize o_49.result V49 = V50 at h50_main_call0_v10 h50_main_arg0 h50_main_arg1 h50_main_arg2 h50_main_arg3 h50_main_arg4 h50_main_arg5 h50_main_v31 h50_main_call0_v4 h50_main_call0_v6 h50_main_call0_v1 ⊢
  clear h49_main_arg0 h49_main_arg1 h49_main_arg2 h49_main_arg3 h49_main_arg4 h49_main_arg5 h49_main_v31 h49_main_call0_v4 h49_main_call0_v6 h49_main_call0_v1 h49_main_call0_v9
  rw [after_cons]
  let t_main_call0_v11 : (⟨S4x8192x16x128, .f32⟩ : BufTy).Contents (Elt F) := addf t_main_call0_v1 t_main_call0_v10
  have h51_main_call0_v11 : (o_50.result V50) (Proc.devRef .tc main_call0_v11) = t_main_call0_v11 := by rw [binary_result, h50_main_call0_v1, h50_main_call0_v10]; try rfl
  have h51_main_arg0 : (o_50.result V50) (Proc.devRef .tc main_arg0) = x0 := by rw [binary_result_ne, h50_main_arg0]; decide
  have h51_main_arg1 : (o_50.result V50) (Proc.devRef .tc main_arg1) = x1 := by rw [binary_result_ne, h50_main_arg1]; decide
  have h51_main_arg2 : (o_50.result V50) (Proc.devRef .tc main_arg2) = x2 := by rw [binary_result_ne, h50_main_arg2]; decide
  have h51_main_arg3 : (o_50.result V50) (Proc.devRef .tc main_arg3) = x3 := by rw [binary_result_ne, h50_main_arg3]; decide
  have h51_main_arg4 : (o_50.result V50) (Proc.devRef .tc main_arg4) = x4 := by rw [binary_result_ne, h50_main_arg4]; decide
  have h51_main_arg5 : (o_50.result V50) (Proc.devRef .tc main_arg5) = x5 := by rw [binary_result_ne, h50_main_arg5]; decide
  have h51_main_v31 : (o_50.result V50) (Proc.devRef .tc main_v31) = t_main_v31 := by rw [binary_result_ne, h50_main_v31]; decide
  have h51_main_call0_v4 : (o_50.result V50) (Proc.devRef .tc main_call0_v4) = t_main_call0_v4 := by rw [binary_result_ne, h50_main_call0_v4]; decide
  have h51_main_call0_v6 : (o_50.result V50) (Proc.devRef .tc main_call0_v6) = t_main_call0_v6 := by rw [binary_result_ne, h50_main_call0_v6]; decide
  generalize o_50.result V50 = V51 at h51_main_call0_v11 h51_main_arg0 h51_main_arg1 h51_main_arg2 h51_main_arg3 h51_main_arg4 h51_main_arg5 h51_main_v31 h51_main_call0_v4 h51_main_call0_v6 ⊢
  clear h50_main_arg0 h50_main_arg1 h50_main_arg2 h50_main_arg3 h50_main_arg4 h50_main_arg5 h50_main_v31 h50_main_call0_v4 h50_main_call0_v6 h50_main_call0_v1 h50_main_call0_v10
  rw [after_cons]
  let t_main_v32 : (⟨S4x8192x16x128, .f32⟩ : BufTy).Contents (Elt F) := select t_main_call0_v4 t_main_call0_v6 t_main_call0_v11
  have h52_main_v32 : (o_51.result V51) (Proc.devRef .tc main_v32) = t_main_v32 := by rw [ternary_result, h51_main_call0_v4, h51_main_call0_v6, h51_main_call0_v11]; try rfl
  have h52_main_arg0 : (o_51.result V51) (Proc.devRef .tc main_arg0) = x0 := by rw [ternary_result_ne, h51_main_arg0]; decide
  have h52_main_arg1 : (o_51.result V51) (Proc.devRef .tc main_arg1) = x1 := by rw [ternary_result_ne, h51_main_arg1]; decide
  have h52_main_arg2 : (o_51.result V51) (Proc.devRef .tc main_arg2) = x2 := by rw [ternary_result_ne, h51_main_arg2]; decide
  have h52_main_arg3 : (o_51.result V51) (Proc.devRef .tc main_arg3) = x3 := by rw [ternary_result_ne, h51_main_arg3]; decide
  have h52_main_arg4 : (o_51.result V51) (Proc.devRef .tc main_arg4) = x4 := by rw [ternary_result_ne, h51_main_arg4]; decide
  have h52_main_arg5 : (o_51.result V51) (Proc.devRef .tc main_arg5) = x5 := by rw [ternary_result_ne, h51_main_arg5]; decide
  have h52_main_v31 : (o_51.result V51) (Proc.devRef .tc main_v31) = t_main_v31 := by rw [ternary_result_ne, h51_main_v31]; decide
  generalize o_51.result V51 = V52 at h52_main_v32 h52_main_arg0 h52_main_arg1 h52_main_arg2 h52_main_arg3 h52_main_arg4 h52_main_arg5 h52_main_v31 ⊢
  clear h51_main_arg0 h51_main_arg1 h51_main_arg2 h51_main_arg3 h51_main_arg4 h51_main_arg5 h51_main_v31 h51_main_call0_v4 h51_main_call0_v6 h51_main_call0_v11
  rw [after_cons]
  let t_main_c_4 : (⟨S_, .i32⟩ : BufTy).Contents (Elt F) := (constantI S_ 32 0#32)
  have h53_main_c_4 : (o_52.result V52) (Proc.devRef .tc main_c_4) = t_main_c_4 := by rw [nullary_result]; try rfl
  have h53_main_arg0 : (o_52.result V52) (Proc.devRef .tc main_arg0) = x0 := by rw [nullary_result_ne, h52_main_arg0]; decide
  have h53_main_arg1 : (o_52.result V52) (Proc.devRef .tc main_arg1) = x1 := by rw [nullary_result_ne, h52_main_arg1]; decide
  have h53_main_arg2 : (o_52.result V52) (Proc.devRef .tc main_arg2) = x2 := by rw [nullary_result_ne, h52_main_arg2]; decide
  have h53_main_arg3 : (o_52.result V52) (Proc.devRef .tc main_arg3) = x3 := by rw [nullary_result_ne, h52_main_arg3]; decide
  have h53_main_arg4 : (o_52.result V52) (Proc.devRef .tc main_arg4) = x4 := by rw [nullary_result_ne, h52_main_arg4]; decide
  have h53_main_arg5 : (o_52.result V52) (Proc.devRef .tc main_arg5) = x5 := by rw [nullary_result_ne, h52_main_arg5]; decide
  have h53_main_v32 : (o_52.result V52) (Proc.devRef .tc main_v32) = t_main_v32 := by rw [nullary_result_ne, h52_main_v32]; decide
  have h53_main_v31 : (o_52.result V52) (Proc.devRef .tc main_v31) = t_main_v31 := by rw [nullary_result_ne, h52_main_v31]; decide
  generalize o_52.result V52 = V53 at h53_main_c_4 h53_main_arg0 h53_main_arg1 h53_main_arg2 h53_main_arg3 h53_main_arg4 h53_main_arg5 h53_main_v32 h53_main_v31 ⊢
  clear h52_main_arg0 h52_main_arg1 h52_main_arg2 h52_main_arg3 h52_main_arg4 h52_main_arg5 h52_main_v32 h52_main_v31
  rw [after_cons]
  let t_main_v33 : (⟨S4x8192x16, .i32⟩ : BufTy).Contents (Elt F) := (broadcastInDim S4x8192x16 ![] bcast_S_S4x8192x16 : (⟨S_, .i32⟩ : BufTy).Contents (Elt F) → (⟨S4x8192x16, .i32⟩ : BufTy).Contents (Elt F)) t_main_c_4
  have h54_main_v33 : (o_53.result V53) (Proc.devRef .tc main_v33) = t_main_v33 := by rw [unary_result, h53_main_c_4]; try rfl
  have h54_main_arg0 : (o_53.result V53) (Proc.devRef .tc main_arg0) = x0 := by rw [unary_result_ne, h53_main_arg0]; decide
  have h54_main_arg1 : (o_53.result V53) (Proc.devRef .tc main_arg1) = x1 := by rw [unary_result_ne, h53_main_arg1]; decide
  have h54_main_arg2 : (o_53.result V53) (Proc.devRef .tc main_arg2) = x2 := by rw [unary_result_ne, h53_main_arg2]; decide
  have h54_main_arg3 : (o_53.result V53) (Proc.devRef .tc main_arg3) = x3 := by rw [unary_result_ne, h53_main_arg3]; decide
  have h54_main_arg4 : (o_53.result V53) (Proc.devRef .tc main_arg4) = x4 := by rw [unary_result_ne, h53_main_arg4]; decide
  have h54_main_arg5 : (o_53.result V53) (Proc.devRef .tc main_arg5) = x5 := by rw [unary_result_ne, h53_main_arg5]; decide
  have h54_main_v32 : (o_53.result V53) (Proc.devRef .tc main_v32) = t_main_v32 := by rw [unary_result_ne, h53_main_v32]; decide
  have h54_main_v31 : (o_53.result V53) (Proc.devRef .tc main_v31) = t_main_v31 := by rw [unary_result_ne, h53_main_v31]; decide
  generalize o_53.result V53 = V54 at h54_main_v33 h54_main_arg0 h54_main_arg1 h54_main_arg2 h54_main_arg3 h54_main_arg4 h54_main_arg5 h54_main_v32 h54_main_v31 ⊢
  clear h53_main_arg0 h53_main_arg1 h53_main_arg2 h53_main_arg3 h53_main_arg4 h53_main_arg5 h53_main_v32 h53_main_v31 h53_main_c_4
  rw [after_cons]
  let t_main_v34 : (⟨S4x8192x16, .i1⟩ : BufTy).Contents (Elt F) := (cmpi .sge : (⟨S4x8192x16, .i32⟩ : BufTy).Contents (Elt F) → (⟨S4x8192x16, .i32⟩ : BufTy).Contents (Elt F) → (⟨S4x8192x16, .i1⟩ : BufTy).Contents (Elt F)) x2 t_main_v33
  have h55_main_v34 : (o_54.result V54) (Proc.devRef .tc main_v34) = t_main_v34 := by rw [binary_result, h54_main_arg2, h54_main_v33]; try rfl
  have h55_main_arg0 : (o_54.result V54) (Proc.devRef .tc main_arg0) = x0 := by rw [binary_result_ne, h54_main_arg0]; decide
  have h55_main_arg1 : (o_54.result V54) (Proc.devRef .tc main_arg1) = x1 := by rw [binary_result_ne, h54_main_arg1]; decide
  have h55_main_arg2 : (o_54.result V54) (Proc.devRef .tc main_arg2) = x2 := by rw [binary_result_ne, h54_main_arg2]; decide
  have h55_main_arg3 : (o_54.result V54) (Proc.devRef .tc main_arg3) = x3 := by rw [binary_result_ne, h54_main_arg3]; decide
  have h55_main_arg4 : (o_54.result V54) (Proc.devRef .tc main_arg4) = x4 := by rw [binary_result_ne, h54_main_arg4]; decide
  have h55_main_arg5 : (o_54.result V54) (Proc.devRef .tc main_arg5) = x5 := by rw [binary_result_ne, h54_main_arg5]; decide
  have h55_main_v32 : (o_54.result V54) (Proc.devRef .tc main_v32) = t_main_v32 := by rw [binary_result_ne, h54_main_v32]; decide
  have h55_main_v31 : (o_54.result V54) (Proc.devRef .tc main_v31) = t_main_v31 := by rw [binary_result_ne, h54_main_v31]; decide
  generalize o_54.result V54 = V55 at h55_main_v34 h55_main_arg0 h55_main_arg1 h55_main_arg2 h55_main_arg3 h55_main_arg4 h55_main_arg5 h55_main_v32 h55_main_v31 ⊢
  clear h54_main_arg0 h54_main_arg1 h54_main_arg2 h54_main_arg3 h54_main_arg4 h54_main_arg5 h54_main_v32 h54_main_v31 h54_main_v33
  rw [after_cons]
  let t_main_v35 : (⟨S4x8192x16, .f32⟩ : BufTy).Contents (Elt F) := (uitofp .f32 : (⟨S4x8192x16, .i1⟩ : BufTy).Contents (Elt F) → (⟨S4x8192x16, .f32⟩ : BufTy).Contents (Elt F)) t_main_v34
  have h56_main_v35 : (o_55.result V55) (Proc.devRef .tc main_v35) = t_main_v35 := by rw [unary_result, h55_main_v34]; try rfl
  have h56_main_arg0 : (o_55.result V55) (Proc.devRef .tc main_arg0) = x0 := by rw [unary_result_ne, h55_main_arg0]; decide
  have h56_main_arg1 : (o_55.result V55) (Proc.devRef .tc main_arg1) = x1 := by rw [unary_result_ne, h55_main_arg1]; decide
  have h56_main_arg2 : (o_55.result V55) (Proc.devRef .tc main_arg2) = x2 := by rw [unary_result_ne, h55_main_arg2]; decide
  have h56_main_arg3 : (o_55.result V55) (Proc.devRef .tc main_arg3) = x3 := by rw [unary_result_ne, h55_main_arg3]; decide
  have h56_main_arg4 : (o_55.result V55) (Proc.devRef .tc main_arg4) = x4 := by rw [unary_result_ne, h55_main_arg4]; decide
  have h56_main_arg5 : (o_55.result V55) (Proc.devRef .tc main_arg5) = x5 := by rw [unary_result_ne, h55_main_arg5]; decide
  have h56_main_v32 : (o_55.result V55) (Proc.devRef .tc main_v32) = t_main_v32 := by rw [unary_result_ne, h55_main_v32]; decide
  have h56_main_v31 : (o_55.result V55) (Proc.devRef .tc main_v31) = t_main_v31 := by rw [unary_result_ne, h55_main_v31]; decide
  generalize o_55.result V55 = V56 at h56_main_v35 h56_main_arg0 h56_main_arg1 h56_main_arg2 h56_main_arg3 h56_main_arg4 h56_main_arg5 h56_main_v32 h56_main_v31 ⊢
  clear h55_main_arg0 h55_main_arg1 h55_main_arg2 h55_main_arg3 h55_main_arg4 h55_main_arg5 h55_main_v32 h55_main_v31 h55_main_v34
  rw [after_cons]
  let t_main_v36 : (⟨S4x8192x16x1, .f32⟩ : BufTy).Contents (Elt F) := (broadcastInDim S4x8192x16x1 ![0, 1, 2] bcast_S4x8192x16_S4x8192x16x1_0_1_2 : (⟨S4x8192x16, .f32⟩ : BufTy).Contents (Elt F) → (⟨S4x8192x16x1, .f32⟩ : BufTy).Contents (Elt F)) t_main_v35
  have h57_main_v36 : (o_56.result V56) (Proc.devRef .tc main_v36) = t_main_v36 := by rw [unary_result, h56_main_v35]; try rfl
  have h57_main_arg0 : (o_56.result V56) (Proc.devRef .tc main_arg0) = x0 := by rw [unary_result_ne, h56_main_arg0]; decide
  have h57_main_arg1 : (o_56.result V56) (Proc.devRef .tc main_arg1) = x1 := by rw [unary_result_ne, h56_main_arg1]; decide
  have h57_main_arg2 : (o_56.result V56) (Proc.devRef .tc main_arg2) = x2 := by rw [unary_result_ne, h56_main_arg2]; decide
  have h57_main_arg3 : (o_56.result V56) (Proc.devRef .tc main_arg3) = x3 := by rw [unary_result_ne, h56_main_arg3]; decide
  have h57_main_arg4 : (o_56.result V56) (Proc.devRef .tc main_arg4) = x4 := by rw [unary_result_ne, h56_main_arg4]; decide
  have h57_main_arg5 : (o_56.result V56) (Proc.devRef .tc main_arg5) = x5 := by rw [unary_result_ne, h56_main_arg5]; decide
  have h57_main_v32 : (o_56.result V56) (Proc.devRef .tc main_v32) = t_main_v32 := by rw [unary_result_ne, h56_main_v32]; decide
  have h57_main_v31 : (o_56.result V56) (Proc.devRef .tc main_v31) = t_main_v31 := by rw [unary_result_ne, h56_main_v31]; decide
  generalize o_56.result V56 = V57 at h57_main_v36 h57_main_arg0 h57_main_arg1 h57_main_arg2 h57_main_arg3 h57_main_arg4 h57_main_arg5 h57_main_v32 h57_main_v31 ⊢
  clear h56_main_arg0 h56_main_arg1 h56_main_arg2 h56_main_arg3 h56_main_arg4 h56_main_arg5 h56_main_v32 h56_main_v31 h56_main_v35
  rw [after_cons]
  let t_main_v37 : (⟨S4x8192x16x128, .f32⟩ : BufTy).Contents (Elt F) := (broadcastInDim S4x8192x16x128 ![0, 1, 2, 3] bcast_S4x8192x16x1_S4x8192x16x128_0_1_2_3 : (⟨S4x8192x16x1, .f32⟩ : BufTy).Contents (Elt F) → (⟨S4x8192x16x128, .f32⟩ : BufTy).Contents (Elt F)) t_main_v36
  have h58_main_v37 : (o_57.result V57) (Proc.devRef .tc main_v37) = t_main_v37 := by rw [unary_result, h57_main_v36]; try rfl
  have h58_main_arg0 : (o_57.result V57) (Proc.devRef .tc main_arg0) = x0 := by rw [unary_result_ne, h57_main_arg0]; decide
  have h58_main_arg1 : (o_57.result V57) (Proc.devRef .tc main_arg1) = x1 := by rw [unary_result_ne, h57_main_arg1]; decide
  have h58_main_arg2 : (o_57.result V57) (Proc.devRef .tc main_arg2) = x2 := by rw [unary_result_ne, h57_main_arg2]; decide
  have h58_main_arg3 : (o_57.result V57) (Proc.devRef .tc main_arg3) = x3 := by rw [unary_result_ne, h57_main_arg3]; decide
  have h58_main_arg4 : (o_57.result V57) (Proc.devRef .tc main_arg4) = x4 := by rw [unary_result_ne, h57_main_arg4]; decide
  have h58_main_arg5 : (o_57.result V57) (Proc.devRef .tc main_arg5) = x5 := by rw [unary_result_ne, h57_main_arg5]; decide
  have h58_main_v32 : (o_57.result V57) (Proc.devRef .tc main_v32) = t_main_v32 := by rw [unary_result_ne, h57_main_v32]; decide
  have h58_main_v31 : (o_57.result V57) (Proc.devRef .tc main_v31) = t_main_v31 := by rw [unary_result_ne, h57_main_v31]; decide
  generalize o_57.result V57 = V58 at h58_main_v37 h58_main_arg0 h58_main_arg1 h58_main_arg2 h58_main_arg3 h58_main_arg4 h58_main_arg5 h58_main_v32 h58_main_v31 ⊢
  clear h57_main_arg0 h57_main_arg1 h57_main_arg2 h57_main_arg3 h57_main_arg4 h57_main_arg5 h57_main_v32 h57_main_v31 h57_main_v36
  rw [after_cons]
  let t_main_v38 : (⟨S4x8192x16x128, .f32⟩ : BufTy).Contents (Elt F) := (mulf : (⟨S4x8192x16x128, .f32⟩ : BufTy).Contents (Elt F) → (⟨S4x8192x16x128, .f32⟩ : BufTy).Contents (Elt F) → (⟨S4x8192x16x128, .f32⟩ : BufTy).Contents (Elt F)) t_main_v31 t_main_v37
  have h59_main_v38 : (o_58.result V58) (Proc.devRef .tc main_v38) = t_main_v38 := by rw [binary_result, h58_main_v31, h58_main_v37]; try rfl
  have h59_main_arg0 : (o_58.result V58) (Proc.devRef .tc main_arg0) = x0 := by rw [binary_result_ne, h58_main_arg0]; decide
  have h59_main_arg1 : (o_58.result V58) (Proc.devRef .tc main_arg1) = x1 := by rw [binary_result_ne, h58_main_arg1]; decide
  have h59_main_arg2 : (o_58.result V58) (Proc.devRef .tc main_arg2) = x2 := by rw [binary_result_ne, h58_main_arg2]; decide
  have h59_main_arg3 : (o_58.result V58) (Proc.devRef .tc main_arg3) = x3 := by rw [binary_result_ne, h58_main_arg3]; decide
  have h59_main_arg4 : (o_58.result V58) (Proc.devRef .tc main_arg4) = x4 := by rw [binary_result_ne, h58_main_arg4]; decide
  have h59_main_arg5 : (o_58.result V58) (Proc.devRef .tc main_arg5) = x5 := by rw [binary_result_ne, h58_main_arg5]; decide
  have h59_main_v32 : (o_58.result V58) (Proc.devRef .tc main_v32) = t_main_v32 := by rw [binary_result_ne, h58_main_v32]; decide
  generalize o_58.result V58 = V59 at h59_main_v38 h59_main_arg0 h59_main_arg1 h59_main_arg2 h59_main_arg3 h59_main_arg4 h59_main_arg5 h59_main_v32 ⊢
  clear h58_main_arg0 h58_main_arg1 h58_main_arg2 h58_main_arg3 h58_main_arg4 h58_main_arg5 h58_main_v32 h58_main_v31 h58_main_v37
  rw [after_cons]
  let t_main_v39 : (⟨S4x8192x16x128, .f32⟩ : BufTy).Contents (Elt F) := (mulf : (⟨S4x8192x16x128, .f32⟩ : BufTy).Contents (Elt F) → (⟨S4x8192x16x128, .f32⟩ : BufTy).Contents (Elt F) → (⟨S4x8192x16x128, .f32⟩ : BufTy).Contents (Elt F)) t_main_v38 t_main_v32
  have h60_main_v39 : (o_59.result V59) (Proc.devRef .tc main_v39) = t_main_v39 := by rw [binary_result, h59_main_v38, h59_main_v32]; try rfl
  have h60_main_arg0 : (o_59.result V59) (Proc.devRef .tc main_arg0) = x0 := by rw [binary_result_ne, h59_main_arg0]; decide
  have h60_main_arg1 : (o_59.result V59) (Proc.devRef .tc main_arg1) = x1 := by rw [binary_result_ne, h59_main_arg1]; decide
  have h60_main_arg2 : (o_59.result V59) (Proc.devRef .tc main_arg2) = x2 := by rw [binary_result_ne, h59_main_arg2]; decide
  have h60_main_arg3 : (o_59.result V59) (Proc.devRef .tc main_arg3) = x3 := by rw [binary_result_ne, h59_main_arg3]; decide
  have h60_main_arg4 : (o_59.result V59) (Proc.devRef .tc main_arg4) = x4 := by rw [binary_result_ne, h59_main_arg4]; decide
  have h60_main_arg5 : (o_59.result V59) (Proc.devRef .tc main_arg5) = x5 := by rw [binary_result_ne, h59_main_arg5]; decide
  generalize o_59.result V59 = V60 at h60_main_v39 h60_main_arg0 h60_main_arg1 h60_main_arg2 h60_main_arg3 h60_main_arg4 h60_main_arg5 ⊢
  clear h59_main_arg0 h59_main_arg1 h59_main_arg2 h59_main_arg3 h59_main_arg4 h59_main_arg5 h59_main_v38 h59_main_v32
  rw [after_cons]
  let t_main_cst_5 : (⟨S_, .f32⟩ : BufTy).Contents (Elt F) := (constant S_ .f32 0x00000000#32)
  have h61_main_cst_5 : (o_60.result V60) (Proc.devRef .tc main_cst_5) = t_main_cst_5 := by rw [nullary_result]; try rfl
  have h61_main_arg0 : (o_60.result V60) (Proc.devRef .tc main_arg0) = x0 := by rw [nullary_result_ne, h60_main_arg0]; decide
  have h61_main_arg1 : (o_60.result V60) (Proc.devRef .tc main_arg1) = x1 := by rw [nullary_result_ne, h60_main_arg1]; decide
  have h61_main_arg2 : (o_60.result V60) (Proc.devRef .tc main_arg2) = x2 := by rw [nullary_result_ne, h60_main_arg2]; decide
  have h61_main_arg3 : (o_60.result V60) (Proc.devRef .tc main_arg3) = x3 := by rw [nullary_result_ne, h60_main_arg3]; decide
  have h61_main_arg4 : (o_60.result V60) (Proc.devRef .tc main_arg4) = x4 := by rw [nullary_result_ne, h60_main_arg4]; decide
  have h61_main_arg5 : (o_60.result V60) (Proc.devRef .tc main_arg5) = x5 := by rw [nullary_result_ne, h60_main_arg5]; decide
  have h61_main_v39 : (o_60.result V60) (Proc.devRef .tc main_v39) = t_main_v39 := by rw [nullary_result_ne, h60_main_v39]; decide
  generalize o_60.result V60 = V61 at h61_main_cst_5 h61_main_arg0 h61_main_arg1 h61_main_arg2 h61_main_arg3 h61_main_arg4 h61_main_arg5 h61_main_v39 ⊢
  clear h60_main_arg0 h60_main_arg1 h60_main_arg2 h60_main_arg3 h60_main_arg4 h60_main_arg5 h60_main_v39
  rw [after_cons]
  let t_main_v40 : (⟨S4x8192x128, .f32⟩ : BufTy).Contents (Elt F) := ((fun x v => Host.reduceAdd x v reducesTo_S4x8192x16x128_S4x8192x128_d2 h_S_) : (⟨S4x8192x16x128, .f32⟩ : BufTy).Contents (Elt F) → (⟨S_, .f32⟩ : BufTy).Contents (Elt F) → (⟨S4x8192x128, .f32⟩ : BufTy).Contents (Elt F)) t_main_v39 t_main_cst_5
  have h62_main_v40 : (o_61.result V61) (Proc.devRef .tc main_v40) = t_main_v40 := by rw [binary_result, h61_main_v39, h61_main_cst_5]; try rfl
  have h62_main_arg0 : (o_61.result V61) (Proc.devRef .tc main_arg0) = x0 := by rw [binary_result_ne, h61_main_arg0]; decide
  have h62_main_arg1 : (o_61.result V61) (Proc.devRef .tc main_arg1) = x1 := by rw [binary_result_ne, h61_main_arg1]; decide
  have h62_main_arg2 : (o_61.result V61) (Proc.devRef .tc main_arg2) = x2 := by rw [binary_result_ne, h61_main_arg2]; decide
  have h62_main_arg3 : (o_61.result V61) (Proc.devRef .tc main_arg3) = x3 := by rw [binary_result_ne, h61_main_arg3]; decide
  have h62_main_arg4 : (o_61.result V61) (Proc.devRef .tc main_arg4) = x4 := by rw [binary_result_ne, h61_main_arg4]; decide
  have h62_main_arg5 : (o_61.result V61) (Proc.devRef .tc main_arg5) = x5 := by rw [binary_result_ne, h61_main_arg5]; decide
  generalize o_61.result V61 = V62 at h62_main_v40 h62_main_arg0 h62_main_arg1 h62_main_arg2 h62_main_arg3 h62_main_arg4 h62_main_arg5 ⊢
  clear h61_main_arg0 h61_main_arg1 h61_main_arg2 h61_main_arg3 h61_main_arg4 h61_main_arg5 h61_main_v39 h61_main_cst_5
  rw [after_cons]
  let t_main_v41 : (⟨S4x8192x128, .f32⟩ : BufTy).Contents (Elt F) := (broadcastInDim S4x8192x128 ![] bcast_S_S4x8192x128 : (⟨S_, .f32⟩ : BufTy).Contents (Elt F) → (⟨S4x8192x128, .f32⟩ : BufTy).Contents (Elt F)) x5
  have h63_main_v41 : (o_62.result V62) (Proc.devRef .tc main_v41) = t_main_v41 := by rw [unary_result, h62_main_arg5]; try rfl
  have h63_main_arg0 : (o_62.result V62) (Proc.devRef .tc main_arg0) = x0 := by rw [unary_result_ne, h62_main_arg0]; decide
  have h63_main_arg1 : (o_62.result V62) (Proc.devRef .tc main_arg1) = x1 := by rw [unary_result_ne, h62_main_arg1]; decide
  have h63_main_arg2 : (o_62.result V62) (Proc.devRef .tc main_arg2) = x2 := by rw [unary_result_ne, h62_main_arg2]; decide
  have h63_main_arg3 : (o_62.result V62) (Proc.devRef .tc main_arg3) = x3 := by rw [unary_result_ne, h62_main_arg3]; decide
  have h63_main_arg4 : (o_62.result V62) (Proc.devRef .tc main_arg4) = x4 := by rw [unary_result_ne, h62_main_arg4]; decide
  have h63_main_arg5 : (o_62.result V62) (Proc.devRef .tc main_arg5) = x5 := by rw [unary_result_ne, h62_main_arg5]; decide
  have h63_main_v40 : (o_62.result V62) (Proc.devRef .tc main_v40) = t_main_v40 := by rw [unary_result_ne, h62_main_v40]; decide
  generalize o_62.result V62 = V63 at h63_main_v41 h63_main_arg0 h63_main_arg1 h63_main_arg2 h63_main_arg3 h63_main_arg4 h63_main_arg5 h63_main_v40 ⊢
  clear h62_main_arg0 h62_main_arg1 h62_main_arg2 h62_main_arg3 h62_main_arg4 h62_main_arg5 h62_main_v40
  rw [after_cons]
  let t_main_v42 : (⟨S4x8192x128, .f32⟩ : BufTy).Contents (Elt F) := (mulf : (⟨S4x8192x128, .f32⟩ : BufTy).Contents (Elt F) → (⟨S4x8192x128, .f32⟩ : BufTy).Contents (Elt F) → (⟨S4x8192x128, .f32⟩ : BufTy).Contents (Elt F)) t_main_v41 x0
  have h64_main_v42 : (o_63.result V63) (Proc.devRef .tc main_v42) = t_main_v42 := by rw [binary_result, h63_main_v41, h63_main_arg0]; try rfl
  have h64_main_arg0 : (o_63.result V63) (Proc.devRef .tc main_arg0) = x0 := by rw [binary_result_ne, h63_main_arg0]; decide
  have h64_main_arg1 : (o_63.result V63) (Proc.devRef .tc main_arg1) = x1 := by rw [binary_result_ne, h63_main_arg1]; decide
  have h64_main_arg2 : (o_63.result V63) (Proc.devRef .tc main_arg2) = x2 := by rw [binary_result_ne, h63_main_arg2]; decide
  have h64_main_arg3 : (o_63.result V63) (Proc.devRef .tc main_arg3) = x3 := by rw [binary_result_ne, h63_main_arg3]; decide
  have h64_main_arg4 : (o_63.result V63) (Proc.devRef .tc main_arg4) = x4 := by rw [binary_result_ne, h63_main_arg4]; decide
  have h64_main_arg5 : (o_63.result V63) (Proc.devRef .tc main_arg5) = x5 := by rw [binary_result_ne, h63_main_arg5]; decide
  have h64_main_v40 : (o_63.result V63) (Proc.devRef .tc main_v40) = t_main_v40 := by rw [binary_result_ne, h63_main_v40]; decide
  generalize o_63.result V63 = V64 at h64_main_v42 h64_main_arg0 h64_main_arg1 h64_main_arg2 h64_main_arg3 h64_main_arg4 h64_main_arg5 h64_main_v40 ⊢
  clear h63_main_arg0 h63_main_arg1 h63_main_arg2 h63_main_arg3 h63_main_arg4 h63_main_arg5 h63_main_v40 h63_main_v41
  rw [after_cons]
  let t_main_v43 : (⟨S4x8192x128, .f32⟩ : BufTy).Contents (Elt F) := (addf : (⟨S4x8192x128, .f32⟩ : BufTy).Contents (Elt F) → (⟨S4x8192x128, .f32⟩ : BufTy).Contents (Elt F) → (⟨S4x8192x128, .f32⟩ : BufTy).Contents (Elt F)) t_main_v42 t_main_v40
  have h65_main_v43 : (o_64.result V64) (Proc.devRef .tc main_v43) = t_main_v43 := by rw [binary_result, h64_main_v42, h64_main_v40]; try rfl
  have h65_main_arg0 : (o_64.result V64) (Proc.devRef .tc main_arg0) = x0 := by rw [binary_result_ne, h64_main_arg0]; decide
  have h65_main_arg1 : (o_64.result V64) (Proc.devRef .tc main_arg1) = x1 := by rw [binary_result_ne, h64_main_arg1]; decide
  have h65_main_arg2 : (o_64.result V64) (Proc.devRef .tc main_arg2) = x2 := by rw [binary_result_ne, h64_main_arg2]; decide
  have h65_main_arg3 : (o_64.result V64) (Proc.devRef .tc main_arg3) = x3 := by rw [binary_result_ne, h64_main_arg3]; decide
  have h65_main_arg4 : (o_64.result V64) (Proc.devRef .tc main_arg4) = x4 := by rw [binary_result_ne, h64_main_arg4]; decide
  have h65_main_arg5 : (o_64.result V64) (Proc.devRef .tc main_arg5) = x5 := by rw [binary_result_ne, h64_main_arg5]; decide
  generalize o_64.result V64 = V65 at h65_main_v43 h65_main_arg0 h65_main_arg1 h65_main_arg2 h65_main_arg3 h65_main_arg4 h65_main_arg5 ⊢
  clear h64_main_arg0 h64_main_arg1 h64_main_arg2 h64_main_arg3 h64_main_arg4 h64_main_arg5 h64_main_v42 h64_main_v40
  rw [after_cons]
  let t_main_call1_cst : (⟨S_, .f32⟩ : BufTy).Contents (Elt F) := (constant S_ .f32 0x00000000#32)
  have h66_main_call1_cst : (o_65.result V65) (Proc.devRef .tc main_call1_cst) = t_main_call1_cst := by rw [nullary_result]; try rfl
  have h66_main_arg0 : (o_65.result V65) (Proc.devRef .tc main_arg0) = x0 := by rw [nullary_result_ne, h65_main_arg0]; decide
  have h66_main_arg1 : (o_65.result V65) (Proc.devRef .tc main_arg1) = x1 := by rw [nullary_result_ne, h65_main_arg1]; decide
  have h66_main_arg2 : (o_65.result V65) (Proc.devRef .tc main_arg2) = x2 := by rw [nullary_result_ne, h65_main_arg2]; decide
  have h66_main_arg3 : (o_65.result V65) (Proc.devRef .tc main_arg3) = x3 := by rw [nullary_result_ne, h65_main_arg3]; decide
  have h66_main_arg4 : (o_65.result V65) (Proc.devRef .tc main_arg4) = x4 := by rw [nullary_result_ne, h65_main_arg4]; decide
  have h66_main_arg5 : (o_65.result V65) (Proc.devRef .tc main_arg5) = x5 := by rw [nullary_result_ne, h65_main_arg5]; decide
  have h66_main_v43 : (o_65.result V65) (Proc.devRef .tc main_v43) = t_main_v43 := by rw [nullary_result_ne, h65_main_v43]; decide
  generalize o_65.result V65 = V66 at h66_main_call1_cst h66_main_arg0 h66_main_arg1 h66_main_arg2 h66_main_arg3 h66_main_arg4 h66_main_arg5 h66_main_v43 ⊢
  clear h65_main_arg0 h65_main_arg1 h65_main_arg2 h65_main_arg3 h65_main_arg4 h65_main_arg5 h65_main_v43
  rw [after_cons]
  let t_main_call1_v0 : (⟨S4x8192x128, .f32⟩ : BufTy).Contents (Elt F) := (broadcastInDim S4x8192x128 ![] bcast_S_S4x8192x128) t_main_call1_cst
  have h67_main_call1_v0 : (o_66.result V66) (Proc.devRef .tc main_call1_v0) = t_main_call1_v0 := by rw [unary_result, h66_main_call1_cst]; try rfl
  have h67_main_arg0 : (o_66.result V66) (Proc.devRef .tc main_arg0) = x0 := by rw [unary_result_ne, h66_main_arg0]; decide
  have h67_main_arg1 : (o_66.result V66) (Proc.devRef .tc main_arg1) = x1 := by rw [unary_result_ne, h66_main_arg1]; decide
  have h67_main_arg2 : (o_66.result V66) (Proc.devRef .tc main_arg2) = x2 := by rw [unary_result_ne, h66_main_arg2]; decide
  have h67_main_arg3 : (o_66.result V66) (Proc.devRef .tc main_arg3) = x3 := by rw [unary_result_ne, h66_main_arg3]; decide
  have h67_main_arg4 : (o_66.result V66) (Proc.devRef .tc main_arg4) = x4 := by rw [unary_result_ne, h66_main_arg4]; decide
  have h67_main_arg5 : (o_66.result V66) (Proc.devRef .tc main_arg5) = x5 := by rw [unary_result_ne, h66_main_arg5]; decide
  have h67_main_v43 : (o_66.result V66) (Proc.devRef .tc main_v43) = t_main_v43 := by rw [unary_result_ne, h66_main_v43]; decide
  have h67_main_call1_cst : (o_66.result V66) (Proc.devRef .tc main_call1_cst) = t_main_call1_cst := by rw [unary_result_ne, h66_main_call1_cst]; decide
  generalize o_66.result V66 = V67 at h67_main_call1_v0 h67_main_arg0 h67_main_arg1 h67_main_arg2 h67_main_arg3 h67_main_arg4 h67_main_arg5 h67_main_v43 h67_main_call1_cst ⊢
  clear h66_main_arg0 h66_main_arg1 h66_main_arg2 h66_main_arg3 h66_main_arg4 h66_main_arg5 h66_main_v43 h66_main_call1_cst
  rw [after_cons]
  let t_main_call1_v1 : (⟨S4x8192x128, .f32⟩ : BufTy).Contents (Elt F) := maximumf t_main_v43 t_main_call1_v0
  have h68_main_call1_v1 : (o_67.result V67) (Proc.devRef .tc main_call1_v1) = t_main_call1_v1 := by rw [binary_result, h67_main_v43, h67_main_call1_v0]; try rfl
  have h68_main_arg0 : (o_67.result V67) (Proc.devRef .tc main_arg0) = x0 := by rw [binary_result_ne, h67_main_arg0]; decide
  have h68_main_arg1 : (o_67.result V67) (Proc.devRef .tc main_arg1) = x1 := by rw [binary_result_ne, h67_main_arg1]; decide
  have h68_main_arg2 : (o_67.result V67) (Proc.devRef .tc main_arg2) = x2 := by rw [binary_result_ne, h67_main_arg2]; decide
  have h68_main_arg3 : (o_67.result V67) (Proc.devRef .tc main_arg3) = x3 := by rw [binary_result_ne, h67_main_arg3]; decide
  have h68_main_arg4 : (o_67.result V67) (Proc.devRef .tc main_arg4) = x4 := by rw [binary_result_ne, h67_main_arg4]; decide
  have h68_main_arg5 : (o_67.result V67) (Proc.devRef .tc main_arg5) = x5 := by rw [binary_result_ne, h67_main_arg5]; decide
  have h68_main_v43 : (o_67.result V67) (Proc.devRef .tc main_v43) = t_main_v43 := by rw [binary_result_ne, h67_main_v43]; decide
  have h68_main_call1_cst : (o_67.result V67) (Proc.devRef .tc main_call1_cst) = t_main_call1_cst := by rw [binary_result_ne, h67_main_call1_cst]; decide
  generalize o_67.result V67 = V68 at h68_main_call1_v1 h68_main_arg0 h68_main_arg1 h68_main_arg2 h68_main_arg3 h68_main_arg4 h68_main_arg5 h68_main_v43 h68_main_call1_cst ⊢
  clear h67_main_arg0 h67_main_arg1 h67_main_arg2 h67_main_arg3 h67_main_arg4 h67_main_arg5 h67_main_v43 h67_main_call1_cst h67_main_call1_v0
  rw [after_cons]
  let t_main_call1_v2 : (⟨S4x8192x128, .f32⟩ : BufTy).Contents (Elt F) := (broadcastInDim S4x8192x128 ![] bcast_S_S4x8192x128) t_main_call1_cst
  have h69_main_call1_v2 : (o_68.result V68) (Proc.devRef .tc main_call1_v2) = t_main_call1_v2 := by rw [unary_result, h68_main_call1_cst]; try rfl
  have h69_main_arg0 : (o_68.result V68) (Proc.devRef .tc main_arg0) = x0 := by rw [unary_result_ne, h68_main_arg0]; decide
  have h69_main_arg1 : (o_68.result V68) (Proc.devRef .tc main_arg1) = x1 := by rw [unary_result_ne, h68_main_arg1]; decide
  have h69_main_arg2 : (o_68.result V68) (Proc.devRef .tc main_arg2) = x2 := by rw [unary_result_ne, h68_main_arg2]; decide
  have h69_main_arg3 : (o_68.result V68) (Proc.devRef .tc main_arg3) = x3 := by rw [unary_result_ne, h68_main_arg3]; decide
  have h69_main_arg4 : (o_68.result V68) (Proc.devRef .tc main_arg4) = x4 := by rw [unary_result_ne, h68_main_arg4]; decide
  have h69_main_arg5 : (o_68.result V68) (Proc.devRef .tc main_arg5) = x5 := by rw [unary_result_ne, h68_main_arg5]; decide
  have h69_main_call1_v1 : (o_68.result V68) (Proc.devRef .tc main_call1_v1) = t_main_call1_v1 := by rw [unary_result_ne, h68_main_call1_v1]; decide
  have h69_main_v43 : (o_68.result V68) (Proc.devRef .tc main_v43) = t_main_v43 := by rw [unary_result_ne, h68_main_v43]; decide
  have h69_main_call1_cst : (o_68.result V68) (Proc.devRef .tc main_call1_cst) = t_main_call1_cst := by rw [unary_result_ne, h68_main_call1_cst]; decide
  generalize o_68.result V68 = V69 at h69_main_call1_v2 h69_main_arg0 h69_main_arg1 h69_main_arg2 h69_main_arg3 h69_main_arg4 h69_main_arg5 h69_main_call1_v1 h69_main_v43 h69_main_call1_cst ⊢
  clear h68_main_arg0 h68_main_arg1 h68_main_arg2 h68_main_arg3 h68_main_arg4 h68_main_arg5 h68_main_call1_v1 h68_main_v43 h68_main_call1_cst
  rw [after_cons]
  let t_main_call1_v3 : (⟨S4x8192x128, .f32⟩ : BufTy).Contents (Elt F) := subf t_main_v43 t_main_call1_v2
  have h70_main_call1_v3 : (o_69.result V69) (Proc.devRef .tc main_call1_v3) = t_main_call1_v3 := by rw [binary_result, h69_main_v43, h69_main_call1_v2]; try rfl
  have h70_main_arg0 : (o_69.result V69) (Proc.devRef .tc main_arg0) = x0 := by rw [binary_result_ne, h69_main_arg0]; decide
  have h70_main_arg1 : (o_69.result V69) (Proc.devRef .tc main_arg1) = x1 := by rw [binary_result_ne, h69_main_arg1]; decide
  have h70_main_arg2 : (o_69.result V69) (Proc.devRef .tc main_arg2) = x2 := by rw [binary_result_ne, h69_main_arg2]; decide
  have h70_main_arg3 : (o_69.result V69) (Proc.devRef .tc main_arg3) = x3 := by rw [binary_result_ne, h69_main_arg3]; decide
  have h70_main_arg4 : (o_69.result V69) (Proc.devRef .tc main_arg4) = x4 := by rw [binary_result_ne, h69_main_arg4]; decide
  have h70_main_arg5 : (o_69.result V69) (Proc.devRef .tc main_arg5) = x5 := by rw [binary_result_ne, h69_main_arg5]; decide
  have h70_main_call1_v1 : (o_69.result V69) (Proc.devRef .tc main_call1_v1) = t_main_call1_v1 := by rw [binary_result_ne, h69_main_call1_v1]; decide
  have h70_main_v43 : (o_69.result V69) (Proc.devRef .tc main_v43) = t_main_v43 := by rw [binary_result_ne, h69_main_v43]; decide
  have h70_main_call1_cst : (o_69.result V69) (Proc.devRef .tc main_call1_cst) = t_main_call1_cst := by rw [binary_result_ne, h69_main_call1_cst]; decide
  generalize o_69.result V69 = V70 at h70_main_call1_v3 h70_main_arg0 h70_main_arg1 h70_main_arg2 h70_main_arg3 h70_main_arg4 h70_main_arg5 h70_main_call1_v1 h70_main_v43 h70_main_call1_cst ⊢
  clear h69_main_arg0 h69_main_arg1 h69_main_arg2 h69_main_arg3 h69_main_arg4 h69_main_arg5 h69_main_call1_v1 h69_main_v43 h69_main_call1_cst h69_main_call1_v2
  rw [after_cons]
  let t_main_call1_v4 : (⟨S4x8192x128, .i1⟩ : BufTy).Contents (Elt F) := (cmpf .une) t_main_call1_v3 t_main_call1_v3
  have h71_main_call1_v4 : (o_70.result V70) (Proc.devRef .tc main_call1_v4) = t_main_call1_v4 := by rw [binary_result, h70_main_call1_v3]; try rfl
  have h71_main_arg0 : (o_70.result V70) (Proc.devRef .tc main_arg0) = x0 := by rw [binary_result_ne, h70_main_arg0]; decide
  have h71_main_arg1 : (o_70.result V70) (Proc.devRef .tc main_arg1) = x1 := by rw [binary_result_ne, h70_main_arg1]; decide
  have h71_main_arg2 : (o_70.result V70) (Proc.devRef .tc main_arg2) = x2 := by rw [binary_result_ne, h70_main_arg2]; decide
  have h71_main_arg3 : (o_70.result V70) (Proc.devRef .tc main_arg3) = x3 := by rw [binary_result_ne, h70_main_arg3]; decide
  have h71_main_arg4 : (o_70.result V70) (Proc.devRef .tc main_arg4) = x4 := by rw [binary_result_ne, h70_main_arg4]; decide
  have h71_main_arg5 : (o_70.result V70) (Proc.devRef .tc main_arg5) = x5 := by rw [binary_result_ne, h70_main_arg5]; decide
  have h71_main_call1_v1 : (o_70.result V70) (Proc.devRef .tc main_call1_v1) = t_main_call1_v1 := by rw [binary_result_ne, h70_main_call1_v1]; decide
  have h71_main_call1_v3 : (o_70.result V70) (Proc.devRef .tc main_call1_v3) = t_main_call1_v3 := by rw [binary_result_ne, h70_main_call1_v3]; decide
  have h71_main_v43 : (o_70.result V70) (Proc.devRef .tc main_v43) = t_main_v43 := by rw [binary_result_ne, h70_main_v43]; decide
  have h71_main_call1_cst : (o_70.result V70) (Proc.devRef .tc main_call1_cst) = t_main_call1_cst := by rw [binary_result_ne, h70_main_call1_cst]; decide
  generalize o_70.result V70 = V71 at h71_main_call1_v4 h71_main_arg0 h71_main_arg1 h71_main_arg2 h71_main_arg3 h71_main_arg4 h71_main_arg5 h71_main_call1_v1 h71_main_call1_v3 h71_main_v43 h71_main_call1_cst ⊢
  clear h70_main_arg0 h70_main_arg1 h70_main_arg2 h70_main_arg3 h70_main_arg4 h70_main_arg5 h70_main_call1_v1 h70_main_call1_v3 h70_main_v43 h70_main_call1_cst
  rw [after_cons]
  let t_main_call1_v5 : (⟨S4x8192x128, .f32⟩ : BufTy).Contents (Elt F) := (broadcastInDim S4x8192x128 ![] bcast_S_S4x8192x128) t_main_call1_cst
  have h72_main_call1_v5 : (o_71.result V71) (Proc.devRef .tc main_call1_v5) = t_main_call1_v5 := by rw [unary_result, h71_main_call1_cst]; try rfl
  have h72_main_arg0 : (o_71.result V71) (Proc.devRef .tc main_arg0) = x0 := by rw [unary_result_ne, h71_main_arg0]; decide
  have h72_main_arg1 : (o_71.result V71) (Proc.devRef .tc main_arg1) = x1 := by rw [unary_result_ne, h71_main_arg1]; decide
  have h72_main_arg2 : (o_71.result V71) (Proc.devRef .tc main_arg2) = x2 := by rw [unary_result_ne, h71_main_arg2]; decide
  have h72_main_arg3 : (o_71.result V71) (Proc.devRef .tc main_arg3) = x3 := by rw [unary_result_ne, h71_main_arg3]; decide
  have h72_main_arg4 : (o_71.result V71) (Proc.devRef .tc main_arg4) = x4 := by rw [unary_result_ne, h71_main_arg4]; decide
  have h72_main_arg5 : (o_71.result V71) (Proc.devRef .tc main_arg5) = x5 := by rw [unary_result_ne, h71_main_arg5]; decide
  have h72_main_call1_v4 : (o_71.result V71) (Proc.devRef .tc main_call1_v4) = t_main_call1_v4 := by rw [unary_result_ne, h71_main_call1_v4]; decide
  have h72_main_call1_v1 : (o_71.result V71) (Proc.devRef .tc main_call1_v1) = t_main_call1_v1 := by rw [unary_result_ne, h71_main_call1_v1]; decide
  have h72_main_call1_v3 : (o_71.result V71) (Proc.devRef .tc main_call1_v3) = t_main_call1_v3 := by rw [unary_result_ne, h71_main_call1_v3]; decide
  have h72_main_v43 : (o_71.result V71) (Proc.devRef .tc main_v43) = t_main_v43 := by rw [unary_result_ne, h71_main_v43]; decide
  generalize o_71.result V71 = V72 at h72_main_call1_v5 h72_main_arg0 h72_main_arg1 h72_main_arg2 h72_main_arg3 h72_main_arg4 h72_main_arg5 h72_main_call1_v4 h72_main_call1_v1 h72_main_call1_v3 h72_main_v43 ⊢
  clear h71_main_arg0 h71_main_arg1 h71_main_arg2 h71_main_arg3 h71_main_arg4 h71_main_arg5 h71_main_call1_v4 h71_main_call1_v1 h71_main_call1_v3 h71_main_v43 h71_main_call1_cst
  rw [after_cons]
  let t_main_call1_v6 : (⟨S4x8192x128, .f32⟩ : BufTy).Contents (Elt F) := addf t_main_v43 t_main_call1_v5
  have h73_main_call1_v6 : (o_72.result V72) (Proc.devRef .tc main_call1_v6) = t_main_call1_v6 := by rw [binary_result, h72_main_v43, h72_main_call1_v5]; try rfl
  have h73_main_arg0 : (o_72.result V72) (Proc.devRef .tc main_arg0) = x0 := by rw [binary_result_ne, h72_main_arg0]; decide
  have h73_main_arg1 : (o_72.result V72) (Proc.devRef .tc main_arg1) = x1 := by rw [binary_result_ne, h72_main_arg1]; decide
  have h73_main_arg2 : (o_72.result V72) (Proc.devRef .tc main_arg2) = x2 := by rw [binary_result_ne, h72_main_arg2]; decide
  have h73_main_arg3 : (o_72.result V72) (Proc.devRef .tc main_arg3) = x3 := by rw [binary_result_ne, h72_main_arg3]; decide
  have h73_main_arg4 : (o_72.result V72) (Proc.devRef .tc main_arg4) = x4 := by rw [binary_result_ne, h72_main_arg4]; decide
  have h73_main_arg5 : (o_72.result V72) (Proc.devRef .tc main_arg5) = x5 := by rw [binary_result_ne, h72_main_arg5]; decide
  have h73_main_call1_v4 : (o_72.result V72) (Proc.devRef .tc main_call1_v4) = t_main_call1_v4 := by rw [binary_result_ne, h72_main_call1_v4]; decide
  have h73_main_call1_v1 : (o_72.result V72) (Proc.devRef .tc main_call1_v1) = t_main_call1_v1 := by rw [binary_result_ne, h72_main_call1_v1]; decide
  have h73_main_call1_v3 : (o_72.result V72) (Proc.devRef .tc main_call1_v3) = t_main_call1_v3 := by rw [binary_result_ne, h72_main_call1_v3]; decide
  generalize o_72.result V72 = V73 at h73_main_call1_v6 h73_main_arg0 h73_main_arg1 h73_main_arg2 h73_main_arg3 h73_main_arg4 h73_main_arg5 h73_main_call1_v4 h73_main_call1_v1 h73_main_call1_v3 ⊢
  clear h72_main_arg0 h72_main_arg1 h72_main_arg2 h72_main_arg3 h72_main_arg4 h72_main_arg5 h72_main_call1_v4 h72_main_call1_v1 h72_main_call1_v3 h72_main_v43 h72_main_call1_v5
  rw [after_cons]
  let t_main_call1_v7 : (⟨S4x8192x128, .f32⟩ : BufTy).Contents (Elt F) := Host.absf t_main_call1_v3
  have h74_main_call1_v7 : (o_73.result V73) (Proc.devRef .tc main_call1_v7) = t_main_call1_v7 := by rw [unary_result, h73_main_call1_v3]; try rfl
  have h74_main_arg0 : (o_73.result V73) (Proc.devRef .tc main_arg0) = x0 := by rw [unary_result_ne, h73_main_arg0]; decide
  have h74_main_arg1 : (o_73.result V73) (Proc.devRef .tc main_arg1) = x1 := by rw [unary_result_ne, h73_main_arg1]; decide
  have h74_main_arg2 : (o_73.result V73) (Proc.devRef .tc main_arg2) = x2 := by rw [unary_result_ne, h73_main_arg2]; decide
  have h74_main_arg3 : (o_73.result V73) (Proc.devRef .tc main_arg3) = x3 := by rw [unary_result_ne, h73_main_arg3]; decide
  have h74_main_arg4 : (o_73.result V73) (Proc.devRef .tc main_arg4) = x4 := by rw [unary_result_ne, h73_main_arg4]; decide
  have h74_main_arg5 : (o_73.result V73) (Proc.devRef .tc main_arg5) = x5 := by rw [unary_result_ne, h73_main_arg5]; decide
  have h74_main_call1_v4 : (o_73.result V73) (Proc.devRef .tc main_call1_v4) = t_main_call1_v4 := by rw [unary_result_ne, h73_main_call1_v4]; decide
  have h74_main_call1_v6 : (o_73.result V73) (Proc.devRef .tc main_call1_v6) = t_main_call1_v6 := by rw [unary_result_ne, h73_main_call1_v6]; decide
  have h74_main_call1_v1 : (o_73.result V73) (Proc.devRef .tc main_call1_v1) = t_main_call1_v1 := by rw [unary_result_ne, h73_main_call1_v1]; decide
  generalize o_73.result V73 = V74 at h74_main_call1_v7 h74_main_arg0 h74_main_arg1 h74_main_arg2 h74_main_arg3 h74_main_arg4 h74_main_arg5 h74_main_call1_v4 h74_main_call1_v6 h74_main_call1_v1 ⊢
  clear h73_main_arg0 h73_main_arg1 h73_main_arg2 h73_main_arg3 h73_main_arg4 h73_main_arg5 h73_main_call1_v4 h73_main_call1_v6 h73_main_call1_v1 h73_main_call1_v3
  rw [after_cons]
  let t_main_call1_v8 : (⟨S4x8192x128, .f32⟩ : BufTy).Contents (Elt F) := Host.negf t_main_call1_v7
  have h75_main_call1_v8 : (o_74.result V74) (Proc.devRef .tc main_call1_v8) = t_main_call1_v8 := by rw [unary_result, h74_main_call1_v7]; try rfl
  have h75_main_arg0 : (o_74.result V74) (Proc.devRef .tc main_arg0) = x0 := by rw [unary_result_ne, h74_main_arg0]; decide
  have h75_main_arg1 : (o_74.result V74) (Proc.devRef .tc main_arg1) = x1 := by rw [unary_result_ne, h74_main_arg1]; decide
  have h75_main_arg2 : (o_74.result V74) (Proc.devRef .tc main_arg2) = x2 := by rw [unary_result_ne, h74_main_arg2]; decide
  have h75_main_arg3 : (o_74.result V74) (Proc.devRef .tc main_arg3) = x3 := by rw [unary_result_ne, h74_main_arg3]; decide
  have h75_main_arg4 : (o_74.result V74) (Proc.devRef .tc main_arg4) = x4 := by rw [unary_result_ne, h74_main_arg4]; decide
  have h75_main_arg5 : (o_74.result V74) (Proc.devRef .tc main_arg5) = x5 := by rw [unary_result_ne, h74_main_arg5]; decide
  have h75_main_call1_v4 : (o_74.result V74) (Proc.devRef .tc main_call1_v4) = t_main_call1_v4 := by rw [unary_result_ne, h74_main_call1_v4]; decide
  have h75_main_call1_v6 : (o_74.result V74) (Proc.devRef .tc main_call1_v6) = t_main_call1_v6 := by rw [unary_result_ne, h74_main_call1_v6]; decide
  have h75_main_call1_v1 : (o_74.result V74) (Proc.devRef .tc main_call1_v1) = t_main_call1_v1 := by rw [unary_result_ne, h74_main_call1_v1]; decide
  generalize o_74.result V74 = V75 at h75_main_call1_v8 h75_main_arg0 h75_main_arg1 h75_main_arg2 h75_main_arg3 h75_main_arg4 h75_main_arg5 h75_main_call1_v4 h75_main_call1_v6 h75_main_call1_v1 ⊢
  clear h74_main_arg0 h74_main_arg1 h74_main_arg2 h74_main_arg3 h74_main_arg4 h74_main_arg5 h74_main_call1_v4 h74_main_call1_v6 h74_main_call1_v1 h74_main_call1_v7
  rw [after_cons]
  let t_main_call1_v9 : (⟨S4x8192x128, .f32⟩ : BufTy).Contents (Elt F) := Host.exp t_main_call1_v8
  have h76_main_call1_v9 : (o_75.result V75) (Proc.devRef .tc main_call1_v9) = t_main_call1_v9 := by rw [unary_result, h75_main_call1_v8]; try rfl
  have h76_main_arg0 : (o_75.result V75) (Proc.devRef .tc main_arg0) = x0 := by rw [unary_result_ne, h75_main_arg0]; decide
  have h76_main_arg1 : (o_75.result V75) (Proc.devRef .tc main_arg1) = x1 := by rw [unary_result_ne, h75_main_arg1]; decide
  have h76_main_arg2 : (o_75.result V75) (Proc.devRef .tc main_arg2) = x2 := by rw [unary_result_ne, h75_main_arg2]; decide
  have h76_main_arg3 : (o_75.result V75) (Proc.devRef .tc main_arg3) = x3 := by rw [unary_result_ne, h75_main_arg3]; decide
  have h76_main_arg4 : (o_75.result V75) (Proc.devRef .tc main_arg4) = x4 := by rw [unary_result_ne, h75_main_arg4]; decide
  have h76_main_arg5 : (o_75.result V75) (Proc.devRef .tc main_arg5) = x5 := by rw [unary_result_ne, h75_main_arg5]; decide
  have h76_main_call1_v4 : (o_75.result V75) (Proc.devRef .tc main_call1_v4) = t_main_call1_v4 := by rw [unary_result_ne, h75_main_call1_v4]; decide
  have h76_main_call1_v6 : (o_75.result V75) (Proc.devRef .tc main_call1_v6) = t_main_call1_v6 := by rw [unary_result_ne, h75_main_call1_v6]; decide
  have h76_main_call1_v1 : (o_75.result V75) (Proc.devRef .tc main_call1_v1) = t_main_call1_v1 := by rw [unary_result_ne, h75_main_call1_v1]; decide
  generalize o_75.result V75 = V76 at h76_main_call1_v9 h76_main_arg0 h76_main_arg1 h76_main_arg2 h76_main_arg3 h76_main_arg4 h76_main_arg5 h76_main_call1_v4 h76_main_call1_v6 h76_main_call1_v1 ⊢
  clear h75_main_arg0 h75_main_arg1 h75_main_arg2 h75_main_arg3 h75_main_arg4 h75_main_arg5 h75_main_call1_v4 h75_main_call1_v6 h75_main_call1_v1 h75_main_call1_v8
  rw [after_cons]
  let t_main_call1_v10 : (⟨S4x8192x128, .f32⟩ : BufTy).Contents (Elt F) := Host.log1p t_main_call1_v9
  have h77_main_call1_v10 : (o_76.result V76) (Proc.devRef .tc main_call1_v10) = t_main_call1_v10 := by rw [unary_result, h76_main_call1_v9]; try rfl
  have h77_main_arg0 : (o_76.result V76) (Proc.devRef .tc main_arg0) = x0 := by rw [unary_result_ne, h76_main_arg0]; decide
  have h77_main_arg1 : (o_76.result V76) (Proc.devRef .tc main_arg1) = x1 := by rw [unary_result_ne, h76_main_arg1]; decide
  have h77_main_arg2 : (o_76.result V76) (Proc.devRef .tc main_arg2) = x2 := by rw [unary_result_ne, h76_main_arg2]; decide
  have h77_main_arg3 : (o_76.result V76) (Proc.devRef .tc main_arg3) = x3 := by rw [unary_result_ne, h76_main_arg3]; decide
  have h77_main_arg4 : (o_76.result V76) (Proc.devRef .tc main_arg4) = x4 := by rw [unary_result_ne, h76_main_arg4]; decide
  have h77_main_arg5 : (o_76.result V76) (Proc.devRef .tc main_arg5) = x5 := by rw [unary_result_ne, h76_main_arg5]; decide
  have h77_main_call1_v4 : (o_76.result V76) (Proc.devRef .tc main_call1_v4) = t_main_call1_v4 := by rw [unary_result_ne, h76_main_call1_v4]; decide
  have h77_main_call1_v6 : (o_76.result V76) (Proc.devRef .tc main_call1_v6) = t_main_call1_v6 := by rw [unary_result_ne, h76_main_call1_v6]; decide
  have h77_main_call1_v1 : (o_76.result V76) (Proc.devRef .tc main_call1_v1) = t_main_call1_v1 := by rw [unary_result_ne, h76_main_call1_v1]; decide
  generalize o_76.result V76 = V77 at h77_main_call1_v10 h77_main_arg0 h77_main_arg1 h77_main_arg2 h77_main_arg3 h77_main_arg4 h77_main_arg5 h77_main_call1_v4 h77_main_call1_v6 h77_main_call1_v1 ⊢
  clear h76_main_arg0 h76_main_arg1 h76_main_arg2 h76_main_arg3 h76_main_arg4 h76_main_arg5 h76_main_call1_v4 h76_main_call1_v6 h76_main_call1_v1 h76_main_call1_v9
  rw [after_cons]
  let t_main_call1_v11 : (⟨S4x8192x128, .f32⟩ : BufTy).Contents (Elt F) := addf t_main_call1_v1 t_main_call1_v10
  have h78_main_call1_v11 : (o_77.result V77) (Proc.devRef .tc main_call1_v11) = t_main_call1_v11 := by rw [binary_result, h77_main_call1_v1, h77_main_call1_v10]; try rfl
  have h78_main_arg0 : (o_77.result V77) (Proc.devRef .tc main_arg0) = x0 := by rw [binary_result_ne, h77_main_arg0]; decide
  have h78_main_arg1 : (o_77.result V77) (Proc.devRef .tc main_arg1) = x1 := by rw [binary_result_ne, h77_main_arg1]; decide
  have h78_main_arg2 : (o_77.result V77) (Proc.devRef .tc main_arg2) = x2 := by rw [binary_result_ne, h77_main_arg2]; decide
  have h78_main_arg3 : (o_77.result V77) (Proc.devRef .tc main_arg3) = x3 := by rw [binary_result_ne, h77_main_arg3]; decide
  have h78_main_arg4 : (o_77.result V77) (Proc.devRef .tc main_arg4) = x4 := by rw [binary_result_ne, h77_main_arg4]; decide
  have h78_main_arg5 : (o_77.result V77) (Proc.devRef .tc main_arg5) = x5 := by rw [binary_result_ne, h77_main_arg5]; decide
  have h78_main_call1_v4 : (o_77.result V77) (Proc.devRef .tc main_call1_v4) = t_main_call1_v4 := by rw [binary_result_ne, h77_main_call1_v4]; decide
  have h78_main_call1_v6 : (o_77.result V77) (Proc.devRef .tc main_call1_v6) = t_main_call1_v6 := by rw [binary_result_ne, h77_main_call1_v6]; decide
  generalize o_77.result V77 = V78 at h78_main_call1_v11 h78_main_arg0 h78_main_arg1 h78_main_arg2 h78_main_arg3 h78_main_arg4 h78_main_arg5 h78_main_call1_v4 h78_main_call1_v6 ⊢
  clear h77_main_arg0 h77_main_arg1 h77_main_arg2 h77_main_arg3 h77_main_arg4 h77_main_arg5 h77_main_call1_v4 h77_main_call1_v6 h77_main_call1_v1 h77_main_call1_v10
  rw [after_cons]
  let t_main_v44 : (⟨S4x8192x128, .f32⟩ : BufTy).Contents (Elt F) := select t_main_call1_v4 t_main_call1_v6 t_main_call1_v11
  have h79_main_v44 : (o_78.result V78) (Proc.devRef .tc main_v44) = t_main_v44 := by rw [ternary_result, h78_main_call1_v4, h78_main_call1_v6, h78_main_call1_v11]; try rfl
  have h79_main_arg0 : (o_78.result V78) (Proc.devRef .tc main_arg0) = x0 := by rw [ternary_result_ne, h78_main_arg0]; decide
  have h79_main_arg1 : (o_78.result V78) (Proc.devRef .tc main_arg1) = x1 := by rw [ternary_result_ne, h78_main_arg1]; decide
  have h79_main_arg2 : (o_78.result V78) (Proc.devRef .tc main_arg2) = x2 := by rw [ternary_result_ne, h78_main_arg2]; decide
  have h79_main_arg3 : (o_78.result V78) (Proc.devRef .tc main_arg3) = x3 := by rw [ternary_result_ne, h78_main_arg3]; decide
  have h79_main_arg4 : (o_78.result V78) (Proc.devRef .tc main_arg4) = x4 := by rw [ternary_result_ne, h78_main_arg4]; decide
  have h79_main_arg5 : (o_78.result V78) (Proc.devRef .tc main_arg5) = x5 := by rw [ternary_result_ne, h78_main_arg5]; decide
  generalize o_78.result V78 = V79 at h79_main_v44 h79_main_arg0 h79_main_arg1 h79_main_arg2 h79_main_arg3 h79_main_arg4 h79_main_arg5 ⊢
  clear h78_main_arg0 h78_main_arg1 h78_main_arg2 h78_main_arg3 h78_main_arg4 h78_main_arg5 h78_main_call1_v4 h78_main_call1_v6 h78_main_call1_v11
  rw [after_nil]
  exact ⟨h79_main_v44, h79_main_arg0, h79_main_arg1, h79_main_arg2, h79_main_arg3, h79_main_arg4, h79_main_arg5⟩

/-- The reference runs: every weakly fair execution ends with the result buffer at the staged composition of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v44).trans (after_line _).1,
      (h c main_arg0).trans (after_line _).2.1,
      (h c main_arg1).trans (after_line _).2.2.1,
      (h c main_arg2).trans (after_line _).2.2.2.1,
      (h c main_arg3).trans (after_line _).2.2.2.2.1,
      (h c main_arg4).trans (after_line _).2.2.2.2.2.1,
      (h c main_arg5).trans (after_line _).2.2.2.2.2.2⟩)
    (line_runs m ρ)

end Cert.ReferenceIdeal.Line

end
-- ==== Proof.ReferenceAtIndex.lean ====
/-
  The reference read at one entry. For every (batch, row, slot) it lays the row's own features, the gathered
  neighbour's features and the edge's features side by side into 320 columns, multiplies by the 256 × 320 weight
  matrix, adds the bias, gates the two halves, masks, sums the 16 slots and applies softplus to alpha · x + sum.
  Cut the 320-column sum at columns 128 and 256 and the pre-activation is the sum of a self, a neighbour and an
  edge product; the reference's sigmoid 1 / (1 + exp(−T)) is the logistic function; so entry (b, n, f) of the
  result is the row formula of RowMath, with the weight blocks W[:, :128], W[:, 128:256], W[:, 256:] read
  transposed and the neighbour features the gathered array, whatever it holds.
-/
import proofs.«124449_j27573690040695_2_alg».proof.Proof.ReferenceLine
import proofs.«124449_j27573690040695_2_alg».proof.Proof.RowMath
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RowRead

open Cert.ReferenceIdeal Cert.ReferenceIdeal.Gen Cert.ReferenceIdeal.Line
open Idealize.ShloMosaic Idealize.ShloMosaic.TcCoe Idealize.SL.Sem Idealize.ShloMosaic.StableHlo
open Idealize.ShloMosaic.ValueIdx Cert.RowMath

/-! ## Re-laid and contracted pieces at an index -/

section Pieces
variable {α : Type}

/-- The row's own features, given a unit slot axis and then spread over the 16 slots: at (b, n, s, k) they are X(b, n, k). -/
theorem ownRows_at (X : S4x8192x128.Idx → α) (b : Fin 4) (n : Fin 8192) (s : Fin 16) (k : Fin 128) :
    broadcastInDim S4x8192x16x128 ![0, 1, 2, 3] bcast_S4x8192x1x128_S4x8192x16x128_0_1_2_3
        (broadcastInDim S4x8192x1x128 ![0, 1, 3] bcast_S4x8192x128_S4x8192x1x128_0_1_3 X) (ix4 b n s k)
      = X (ix3 b n k) := by
  rw [broadcastInDim_apply _ bcast_S4x8192x1x128_S4x8192x16x128_0_1_2_3 _ (ix4 b n s k) (ix4 b n (0 : Fin 1) k) (fun a => by
      match a with
      | ⟨0, _⟩ => show b.val = if (4 : Nat) = 1 then 0 else b.val; rw [if_neg (by decide)]
      | ⟨1, _⟩ => show n.val = if (8192 : Nat) = 1 then 0 else n.val; rw [if_neg (by decide)]
      | ⟨2, _⟩ => show 0 = if (1 : Nat) = 1 then 0 else s.val; rw [if_pos rfl]
      | ⟨3, _⟩ => show k.val = if (128 : Nat) = 1 then 0 else k.val; rw [if_neg (by decide)]),
    broadcastInDim_apply _ bcast_S4x8192x128_S4x8192x1x128_0_1_3 X (ix4 b n (0 : Fin 1) k) (ix3 b n k) (fun a => by
      match a with
      | ⟨0, _⟩ => show b.val = if (4 : Nat) = 1 then 0 else b.val; rw [if_neg (by decide)]
      | ⟨1, _⟩ => show n.val = if (8192 : Nat) = 1 then 0 else n.val; rw [if_neg (by decide)]
      | ⟨2, _⟩ => show k.val = if (128 : Nat) = 1 then 0 else k.val; rw [if_neg (by decide)])]

/-- The bias, given three unit axes and then spread over batch, row and slot: at (b, n, s, o) it is bias(o). -/
theorem biasAll_at (Bv : S256.Idx → α) (b : Fin 4) (n : Fin 8192) (s : Fin 16) (o : Fin 256) :
    broadcastInDim S4x8192x16x256 ![0, 1, 2, 3] bcast_S1x1x1x256_S4x8192x16x256_0_1_2_3
        (broadcastInDim S1x1x1x256 ![3] bcast_S256_S1x1x1x256_3 Bv) (ix4 b n s o)
      = Bv (ix1 o) := by
  rw [broadcastInDim_apply _ bcast_S1x1x1x256_S4x8192x16x256_0_1_2_3 _ (ix4 b n s o) (ix4 (0 : Fin 1) (0 : Fin 1) (0 : Fin 1) o) (fun a => by
      match a with
      | ⟨0, _⟩ => show 0 = if (1 : Nat) = 1 then 0 else b.val; rw [if_pos rfl]
      | ⟨1, _⟩ => show 0 = if (1 : Nat) = 1 then 0 else n.val; rw [if_pos rfl]
      | ⟨2, _⟩ => show 0 = if (1 : Nat) = 1 then 0 else s.val; rw [if_pos rfl]
      | ⟨3, _⟩ => show o.val = if (256 : Nat) = 1 then 0 else o.val; rw [if_neg (by decide)]),
    broadcastInDim_apply _ bcast_S256_S1x1x1x256_3 Bv (ix4 (0 : Fin 1) (0 : Fin 1) (0 : Fin 1) o) (ix1 o) (fun a => by
      match a with
      | ⟨0, _⟩ => show o.val = if (256 : Nat) = 1 then 0 else o.val; rw [if_neg (by decide)])]

/-- A value per (batch, row, slot), given a unit feature axis and then spread over the 128 features. -/
theorem perSlot_at (M : S4x8192x16.Idx → α) (b : Fin 4) (n : Fin 8192) (s : Fin 16) (f : Fin 128) :
    broadcastInDim S4x8192x16x128 ![0, 1, 2, 3] bcast_S4x8192x16x1_S4x8192x16x128_0_1_2_3
        (broadcastInDim S4x8192x16x1 ![0, 1, 2] bcast_S4x8192x16_S4x8192x16x1_0_1_2 M) (ix4 b n s f)
      = M (ix3 b n s) := by
  rw [broadcastInDim_apply _ bcast_S4x8192x16x1_S4x8192x16x128_0_1_2_3 _ (ix4 b n s f) (ix4 b n s (0 : Fin 1)) (fun a => by
      match a with
      | ⟨0, _⟩ => show b.val = if (4 : Nat) = 1 then 0 else b.val; rw [if_neg (by decide)]
      | ⟨1, _⟩ => show n.val = if (8192 : Nat) = 1 then 0 else n.val; rw [if_neg (by decide)]
      | ⟨2, _⟩ => show s.val = if (16 : Nat) = 1 then 0 else s.val; rw [if_neg (by decide)]
      | ⟨3, _⟩ => show 0 = if (1 : Nat) = 1 then 0 else f.val; rw [if_pos rfl]),
    broadcastInDim_apply _ bcast_S4x8192x16_S4x8192x16x1_0_1_2 M (ix4 b n s (0 : Fin 1)) (ix3 b n s) (fun a => by
      match a with
      | ⟨0, _⟩ => show b.val = if (4 : Nat) = 1 then 0 else b.val; rw [if_neg (by decide)]
      | ⟨1, _⟩ => show n.val = if (8192 : Nat) = 1 then 0 else n.val; rw [if_neg (by decide)]
      | ⟨2, _⟩ => show s.val = if (16 : Nat) = 1 then 0 else s.val; rw [if_neg (by decide)])]

/-- The first 128 of the 256 output columns. -/
theorem firstHalf_at (T : S4x8192x16x256.Idx → α) (b : Fin 4) (n : Fin 8192) (s : Fin 16) (f : Fin 128) :
    extractStridedSlice S4x8192x16x128 ![0, 0, 0, 0] T slices_S4x8192x16x256_S4x8192x16x128_0_0_0_0 (ix4 b n s f)
      = T (ix4 b n s (⟨f.val, by have := f.isLt; omega⟩ : Fin 256)) :=
  extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)

/-- The last 128 of the 256 output columns. -/
theorem secondHalf_at (T : S4x8192x16x256.Idx → α) (b : Fin 4) (n : Fin 8192) (s : Fin 16) (f : Fin 128) :
    extractStridedSlice S4x8192x16x128 ![0, 0, 0, 128] T slices_S4x8192x16x256_S4x8192x16x128_0_0_0_128 (ix4 b n s f)
      = T (ix4 b n s (⟨128 + f.val, by have := f.isLt; omega⟩ : Fin 256)) :=
  extractStridedSlice_apply _ _ _ _ _ (fun a => by
    match a with
    | ⟨0, _⟩ => exact (Nat.zero_add _).symm
    | ⟨1, _⟩ => exact (Nat.zero_add _).symm
    | ⟨2, _⟩ => exact (Nat.zero_add _).symm
    | ⟨3, _⟩ => rfl)

/-- The self, neighbour and edge features of every (batch, row, slot), as the list the concatenation takes. -/
abbrev pieces (P Q : S4x8192x16x128.Idx → α) (R : S4x8192x16x64.Idx → α) : List ((s : Shape) × (s.Idx → α)) :=
  [⟨S4x8192x16x128, P⟩, ⟨S4x8192x16x128, Q⟩, ⟨S4x8192x16x64, R⟩]

/-- The three pieces laid side by side along the last axis, read in each piece's column range. -/
theorem joined_apply (P Q : S4x8192x16x128.Idx → α) (R : S4x8192x16x64.Idx → α)
    (h : Shape.Concatenates [S4x8192x16x128, S4x8192x16x128, S4x8192x16x64] S4x8192x16x320 3)
    (b : Fin 4) (n : Fin 8192) (s : Fin 16) :
    (∀ k : Fin 128, concatenate S4x8192x16x320 3 [⟨S4x8192x16x128, P⟩, ⟨S4x8192x16x128, Q⟩, ⟨S4x8192x16x64, R⟩] h
        (ix4 b n s (⟨k.val, by have := k.isLt; omega⟩ : Fin 320)) = P (ix4 b n s k))
    ∧ (∀ k : Fin 128, concatenate S4x8192x16x320 3 [⟨S4x8192x16x128, P⟩, ⟨S4x8192x16x128, Q⟩, ⟨S4x8192x16x64, R⟩] h
        (ix4 b n s (⟨128 + k.val, by have := k.isLt; omega⟩ : Fin 320)) = Q (ix4 b n s k))
    ∧ (∀ k : Fin 64, concatenate S4x8192x16x320 3 [⟨S4x8192x16x128, P⟩, ⟨S4x8192x16x128, Q⟩, ⟨S4x8192x16x64, R⟩] h
        (ix4 b n s (⟨256 + k.val, by have := k.isLt; omega⟩ : Fin 320)) = R (ix4 b n s k)) := by
  refine ⟨fun k => ?_, fun k => ?_, fun k => ?_⟩
  · refine concatenate_apply_piece 3 (pieces P Q R) h _ 0 (show (0 : ℕ) < 3 by decide) S4x8192x16x128 P rfl rfl 0 rfl (ix4 b n s k) (fun a ha => ?_) (Nat.zero_add _)
    match a with
    | ⟨0, _⟩ => rfl
    | ⟨1, _⟩ => rfl
    | ⟨2, _⟩ => rfl
    | ⟨3, _⟩ => exact absurd rfl ha
  · refine concatenate_apply_piece 3 (pieces P Q R) h _ 1 (show (1 : ℕ) < 3 by decide) S4x8192x16x128 Q rfl rfl 128 rfl (ix4 b n s k) (fun a ha => ?_) rfl
    match a with
    | ⟨0, _⟩ => rfl
    | ⟨1, _⟩ => rfl
    | ⟨2, _⟩ => rfl
    | ⟨3, _⟩ => exact absurd rfl ha
  · refine concatenate_apply_piece 3 (pieces P Q R) h _ 2 (show (2 : ℕ) < 3 by decide) S4x8192x16x64 R rfl rfl 256 rfl (ix4 b n s k) (fun a ha => ?_) rfl
    match a with
    | ⟨0, _⟩ => rfl
    | ⟨1, _⟩ => rfl
    | ⟨2, _⟩ => rfl
    | ⟨3, _⟩ => exact absurd rfl ha

end Pieces

theorem lhs320_0 (i : S4x8192x16x256.Idx) (q : dot_S4x8192x16x320_S256x320_S4x8192x16x256_3_1_012_0_n_n.contr.Idx) :
    (dot_S4x8192x16x320_S256x320_S4x8192x16x256_3_1_012_0_n_n.lhsIdx i q 0).val = (i 0).val := by
  unfold DotDims.lhsIdx
  rw [dif_neg (show ¬(0 : Fin S4x8192x16x320.rank) ∈ dot_S4x8192x16x320_S256x320_S4x8192x16x256_3_1_012_0_n_n.lhsBatch by decide),
    dif_pos (show (0 : Fin S4x8192x16x320.rank) ∈ dot_S4x8192x16x320_S256x320_S4x8192x16x256_3_1_012_0_n_n.lhsNonContracting by decide)]
  rfl

theorem lhs320_1 (i : S4x8192x16x256.Idx) (q : dot_S4x8192x16x320_S256x320_S4x8192x16x256_3_1_012_0_n_n.contr.Idx) :
    (dot_S4x8192x16x320_S256x320_S4x8192x16x256_3_1_012_0_n_n.lhsIdx i q 1).val = (i 1).val := by
  unfold DotDims.lhsIdx
  rw [dif_neg (show ¬(1 : Fin S4x8192x16x320.rank) ∈ dot_S4x8192x16x320_S256x320_S4x8192x16x256_3_1_012_0_n_n.lhsBatch by decide),
    dif_pos (show (1 : Fin S4x8192x16x320.rank) ∈ dot_S4x8192x16x320_S256x320_S4x8192x16x256_3_1_012_0_n_n.lhsNonContracting by decide)]
  rfl

theorem lhs320_2 (i : S4x8192x16x256.Idx) (q : dot_S4x8192x16x320_S256x320_S4x8192x16x256_3_1_012_0_n_n.contr.Idx) :
    (dot_S4x8192x16x320_S256x320_S4x8192x16x256_3_1_012_0_n_n.lhsIdx i q 2).val = (i 2).val := by
  unfold DotDims.lhsIdx
  rw [dif_neg (show ¬(2 : Fin S4x8192x16x320.rank) ∈ dot_S4x8192x16x320_S256x320_S4x8192x16x256_3_1_012_0_n_n.lhsBatch by decide),
    dif_pos (show (2 : Fin S4x8192x16x320.rank) ∈ dot_S4x8192x16x320_S256x320_S4x8192x16x256_3_1_012_0_n_n.lhsNonContracting by decide)]
  rfl

theorem rhs320_0 (i : S4x8192x16x256.Idx) (q : dot_S4x8192x16x320_S256x320_S4x8192x16x256_3_1_012_0_n_n.contr.Idx) :
    (dot_S4x8192x16x320_S256x320_S4x8192x16x256_3_1_012_0_n_n.rhsIdx i q 0).val = (i 3).val := by
  unfold DotDims.rhsIdx
  rw [dif_neg (show ¬(0 : Fin S256x320.rank) ∈ dot_S4x8192x16x320_S256x320_S4x8192x16x256_3_1_012_0_n_n.rhsBatch by decide),
    dif_pos (show (0 : Fin S256x320.rank) ∈ dot_S4x8192x16x320_S256x320_S4x8192x16x256_3_1_012_0_n_n.rhsNonContracting by decide)]
  rfl

/-- The 320-column product at (b, n, s, o): Σ_k A(b, n, s, k) · W(o, k). -/
theorem product320_at (A : FVec Ideal S4x8192x16x320 .f32) (W : FVec Ideal S256x320 .f32)
    (b : Fin 4) (n : Fin 8192) (s : Fin 16) (o : Fin 256) :
    Host.dotGeneral dot_S4x8192x16x320_S256x320_S4x8192x16x256_3_1_012_0_n_n none A W (ix4 b n s o) = ∑ k : Fin 320, A (ix4 b n s k) * W (ix2 o k) := by
  simp only [Host.dotGeneral]
  rw [Ideal.dotGeneral_apply, ← Equiv.sum_comp (ValueIdx.contrEquiv1 dot_S4x8192x16x320_S256x320_S4x8192x16x256_3_1_012_0_n_n 320 rfl rfl).symm]
  refine Finset.sum_congr rfl fun k _ => ?_
  have hk := ValueIdx.contrEquiv1_symm_val dot_S4x8192x16x320_S256x320_S4x8192x16x256_3_1_012_0_n_n 320 rfl rfl k
  have el : dot_S4x8192x16x320_S256x320_S4x8192x16x256_3_1_012_0_n_n.lhsIdx (ix4 b n s o) ((ValueIdx.contrEquiv1 dot_S4x8192x16x320_S256x320_S4x8192x16x256_3_1_012_0_n_n 320 rfl rfl).symm k) = ix4 b n s k :=
    funext fun a => Fin.ext (by
      match a with
      | ⟨0, _⟩ => exact lhs320_0 _ _
      | ⟨1, _⟩ => exact lhs320_1 _ _
      | ⟨2, _⟩ => exact lhs320_2 _ _
      | ⟨3, _⟩ => exact (dot_S4x8192x16x320_S256x320_S4x8192x16x256_3_1_012_0_n_n.lhsIdx_val_of_single rfl _ _).trans hk)
  have er : dot_S4x8192x16x320_S256x320_S4x8192x16x256_3_1_012_0_n_n.rhsIdx (ix4 b n s o) ((ValueIdx.contrEquiv1 dot_S4x8192x16x320_S256x320_S4x8192x16x256_3_1_012_0_n_n 320 rfl rfl).symm k) = ix2 o k :=
    funext fun a => Fin.ext (by
      match a with
      | ⟨0, _⟩ => exact rhs320_0 _ _
      | ⟨1, _⟩ => exact (dot_S4x8192x16x320_S256x320_S4x8192x16x256_3_1_012_0_n_n.rhsIdx_val_of_single rfl _ _).trans hk)
  rw [el, er]

/-- The sum over the 16 slots at (b, n, f): the initial value plus Σ_s G(b, n, s, f). -/
theorem slotSum_at (G : FVec Ideal S4x8192x16x128 .f32) (init : S_.Idx → Ideal .f32) (b : Fin 4) (n : Fin 8192) (f : Fin 128) :
    Host.reduceAdd G init reducesTo_S4x8192x16x128_S4x8192x128_d2 h_S_ (ix3 b n f)
      = init ix0 + ∑ s : Fin 16, G (ix4 b n s f) := by
  rw [hostReduceAdd_apply, Ideal.hostReduceAdd_single reducesTo_S4x8192x16x128_S4x8192x128_d2 (by decide)]
  refine congr (congrArg _ (congrArg init (funext fun a => a.elim0))) (Finset.sum_congr rfl fun s _ => ?_)
  exact congrArg G (funext fun a => Fin.ext (by match a with | ⟨0, _⟩ => rfl | ⟨1, _⟩ => rfl | ⟨2, _⟩ => rfl | ⟨3, _⟩ => rfl))

/-! ## The stages at an index -/

variable (X : S4x8192x128.Idx → EReal) (E : S4x8192x16x64.Idx → EReal) (I : S4x8192x16.Idx → BitVec 32)
  (W : S256x320.Idx → EReal) (Bv : S256.Idx → EReal) (A : S_.Idx → EReal)

/-- The reference's pre-activation at (b, n, s, o) is the row formula's: the 320-column product cut into its self,
    neighbour and edge ranges, plus the bias. -/
theorem preAct_eq (b : Fin 4) (n : Fin 8192) (s : Fin 16) (o : Fin 256) :
    preActs (F := Ideal) X E I W Bv (ix4 b n s o)
      = preAct (fun k => X (ix3 b n k)) (fun k => gathered (F := Ideal) X I (ix4 b n s k)) (fun k => E (ix4 b n s k))
          (fun k o => W (ix2 o (⟨k.val, by have := k.isLt; omega⟩ : Fin 320))) (fun k o => W (ix2 o (⟨128 + k.val, by have := k.isLt; omega⟩ : Fin 320))) (fun k o => W (ix2 o (⟨256 + k.val, by have := k.isLt; omega⟩ : Fin 320)))
          (fun o => Bv (ix1 o)) o := by
  unfold preActs
  beta_reduce
  rw [addf_apply, product320_at, biasAll_at, sum_three_ranges]
  obtain ⟨c0, c1, c2⟩ := joined_apply
    (broadcastInDim S4x8192x16x128 ![0, 1, 2, 3] bcast_S4x8192x1x128_S4x8192x16x128_0_1_2_3
      (broadcastInDim S4x8192x1x128 ![0, 1, 3] bcast_S4x8192x128_S4x8192x1x128_0_1_3 X))
    (gathered (F := Ideal) X I) E concatenates_S4x8192x16x128_S4x8192x16x128_S4x8192x16x64_S4x8192x16x320_d3 b n s
  have hs : ∀ k : Fin 128, broadcastInDim S4x8192x16x128 ![0, 1, 2, 3] bcast_S4x8192x1x128_S4x8192x16x128_0_1_2_3
      (broadcastInDim S4x8192x1x128 ![0, 1, 3] bcast_S4x8192x128_S4x8192x1x128_0_1_3 X) (ix4 b n s k) = X (ix3 b n k) :=
    fun k => ownRows_at X b n s k
  unfold preAct
  simp only [c0, c1, c2, hs]

/-- softplus as the reference spells it (a guard that never fires on the extended reals, then the formula). -/
theorem softplus_eq (u : EReal) :
    Scalar.select (Ideal.cmp .une (u - Ideal.ofBits .f32 0x00000000#32) (u - Ideal.ofBits .f32 0x00000000#32))
        (u + Ideal.ofBits .f32 0x00000000#32)
        (max u (Ideal.ofBits .f32 0x00000000#32)
          + Ideal.log1p (Ideal.exp (-(max (u - Ideal.ofBits .f32 0x00000000#32) (-(u - Ideal.ofBits .f32 0x00000000#32))))))
      = softplus u := by
  rw [Ideal.ofBits_zero_f32]
  have hc : Ideal.cmp .une (u - 0) (u - 0) = 0#1 := by simp [Ideal.cmp]
  rw [hc, select_zero]
  unfold softplus
  rw [zero_sub]

/-- The sigmoid half at (b, n, s, f): the logistic function of the pre-activation's column f. -/
theorem sigmoid_at (b : Fin 4) (n : Fin 8192) (s : Fin 16) (f : Fin 128) :
    sigmoids (F := Ideal) X E I W Bv (ix4 b n s f)
      = Ideal.logistic (preActs (F := Ideal) X E I W Bv (ix4 b n s (⟨f.val, by have := f.isLt; omega⟩ : Fin 256))) := by
  unfold sigmoids
  beta_reduce
  rw [hostDivf_apply, addf_apply, broadcastInDim_scalar_apply]
  show Ideal.div (Ideal.ofBits .f32 0x3F800000#32) (Ideal.ofBits .f32 0x3F800000#32
      + Ideal.exp (-(extractStridedSlice S4x8192x16x128 ![0, 0, 0, 0] (preActs (F := Ideal) X E I W Bv) slices_S4x8192x16x256_S4x8192x16x128_0_0_0_0 (ix4 b n s f)))) = _
  rw [firstHalf_at, Ideal.ofBits_one_f32]
  rfl

/-- The softplus half at (b, n, s, f): softplus of the pre-activation's column 128 + f. -/
theorem softGate_at (b : Fin 4) (n : Fin 8192) (s : Fin 16) (f : Fin 128) :
    softGates (F := Ideal) X E I W Bv (ix4 b n s f)
      = softplus (preActs (F := Ideal) X E I W Bv (ix4 b n s (⟨128 + f.val, by have := f.isLt; omega⟩ : Fin 256))) := by
  have hz : ∀ j : S4x8192x16x128.Idx, broadcastInDim S4x8192x16x128 ![] bcast_S_S4x8192x16x128 (constant (F := Ideal) S_ .f32 0x00000000#32) j
      = Ideal.ofBits .f32 0x00000000#32 := fun j => broadcastInDim_scalar_apply _ _ j
  have hu := secondHalf_at (preActs (F := Ideal) X E I W Bv) b n s f
  unfold softGates
  show Scalar.select (Ideal.cmp .une (_ - _) (_ - _)) (_ + _) (max _ _ + Ideal.log1p (Ideal.exp (-(max (_ - _) (-(_ - _)))))) = _
  simp only [hz, hu]
  exact softplus_eq _

/-- The mask at (b, n, s, f): 1 if the index entry of (b, n, s) is non-negative, else 0. -/
theorem mask_at (b : Fin 4) (n : Fin 8192) (s : Fin 16) (f : Fin 128) :
    masks (F := Ideal) I (ix4 b n s f) = bitValue (IntOp.cmpi .sge (I (ix3 b n s)) 0#32) := by
  unfold masks
  rw [perSlot_at]
  show (((IntOp.cmpi .sge (I (ix3 b n s)) (broadcastInDim S4x8192x16 ![] bcast_S_S4x8192x16 (constantI S_ 32 0#32) (ix3 b n s))).toNat : ℝ) : EReal) = _
  rw [broadcastInDim_scalar_apply]
  rfl

/-- One slot's masked, gated term at (b, n, s, f) is the row formula's gated term over the slot's pre-activation. -/
theorem gated_eq (b : Fin 4) (n : Fin 8192) (s : Fin 16) (f : Fin 128) :
    gatedAll (F := Ideal) X E I W Bv (ix4 b n s f)
      = gated (fun o => preActs (F := Ideal) X E I W Bv (ix4 b n s o))
          (bitValue (IntOp.cmpi .sge (I (ix3 b n s)) 0#32)) f := by
  unfold gatedAll
  show (sigmoids (F := Ideal) X E I W Bv (ix4 b n s f) * masks (F := Ideal) I (ix4 b n s f)) * softGates (F := Ideal) X E I W Bv (ix4 b n s f) = _
  rw [sigmoid_at, mask_at, softGate_at]
  rfl

/-- The reference's result at (b, n, f) is the row formula of row (b, n) at feature f. -/
theorem result_apply (b : Fin 4) (n : Fin 8192) (f : Fin 128) :
    result (F := Ideal) X E I W Bv A (ix3 b n f)
      = rowOut (fun k => X (ix3 b n k)) (fun s k => gathered (F := Ideal) X I (ix4 b n s k))
          (fun s k => E (ix4 b n s k)) (fun s => bitValue (IntOp.cmpi .sge (I (ix3 b n s)) 0#32))
          (fun k o => W (ix2 o (⟨k.val, by have := k.isLt; omega⟩ : Fin 320))) (fun k o => W (ix2 o (⟨128 + k.val, by have := k.isLt; omega⟩ : Fin 320))) (fun k o => W (ix2 o (⟨256 + k.val, by have := k.isLt; omega⟩ : Fin 320)))
          (fun o => Bv (ix1 o)) (A ix0) f := by
  have hsum : preOut (F := Ideal) X E I W Bv A (ix3 b n f)
      = A ix0 * X (ix3 b n f) + ∑ s : Fin 16, gated (preAct (fun k => X (ix3 b n k)) (fun k => gathered (F := Ideal) X I (ix4 b n s k))
          (fun k => E (ix4 b n s k)) (fun k o => W (ix2 o (⟨k.val, by have := k.isLt; omega⟩ : Fin 320))) (fun k o => W (ix2 o (⟨128 + k.val, by have := k.isLt; omega⟩ : Fin 320))) (fun k o => W (ix2 o (⟨256 + k.val, by have := k.isLt; omega⟩ : Fin 320)))
          (fun o => Bv (ix1 o))) (bitValue (IntOp.cmpi .sge (I (ix3 b n s)) 0#32)) f := by
    unfold preOut
    show broadcastInDim S4x8192x128 ![] bcast_S_S4x8192x128 A (ix3 b n f) * X (ix3 b n f)
        + Host.reduceAdd (gatedAll (F := Ideal) X E I W Bv) (constant (F := Ideal) S_ .f32 0x00000000#32) reducesTo_S4x8192x16x128_S4x8192x128_d2 h_S_ (ix3 b n f) = _
    rw [broadcastInDim_scalar_apply, slotSum_at]
    show A ix0 * X (ix3 b n f) + (Ideal.ofBits .f32 0x00000000#32 + _) = _
    rw [Ideal.ofBits_zero_f32, zero_add]
    refine congrArg (fun z => A ix0 * X (ix3 b n f) + z) (Finset.sum_congr rfl fun s _ => ?_)
    rw [gated_eq]
    exact congrArg (fun T => gated T _ f) (funext fun o => preAct_eq X E I W Bv b n s o)
  have hz : ∀ j : S4x8192x128.Idx, broadcastInDim S4x8192x128 ![] bcast_S_S4x8192x128 (constant (F := Ideal) S_ .f32 0x00000000#32) j
      = Ideal.ofBits .f32 0x00000000#32 := fun j => broadcastInDim_scalar_apply _ _ j
  unfold result
  show Scalar.select (Ideal.cmp .une (_ - _) (_ - _)) (_ + _) (max _ _ + Ideal.log1p (Ideal.exp (-(max (_ - _) (-(_ - _)))))) = _
  simp only [hz, hsum]
  exact softplus_eq _

end Cert.ReferenceIdeal.RowRead

end
-- ==== Proof.Bridge.lean ====
/-
  The two programs meet. After the kernel's run the output array is the row formula at every (b, n, f), of the
  arrays the region finds: the arguments themselves, the neighbour features the host gathered before the call,
  the three column blocks of W sliced, transposed and (a change of format only) narrowed, the bias as one row and
  alpha as a 1 × 1 array. The reference's result is the same row formula with W's columns read directly. So it is
  enough that the gathered array is the same array on both sides (the same operations of node_in_fea and the
  indices), that block s of the transposed weights at (k, o) is W(o, s + k), and that the reshaped bias and alpha
  hold the bias and alpha.
-/
import proofs.«124449_j27573690040695_2_alg».proof.Proof.KernelArray
import proofs.«124449_j27573690040695_2_alg».proof.Proof.ReferenceAtIndex
import Idealize.ShloMosaic.Lib.StableHlo.Run

noncomputable section

namespace Cert.KernelIdeal.Layer

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.RowMath

variable (m : (ℓ : Loc nD τ sig) → Buf (Elt Ideal) ℓ) (ρ : Dev nD → PrngReg)

/-- An index of the output array is in point t's block iff each coordinate is in the block's range. -/
theorem mem_block (t : Fin cfg0.N) (i : S4x8192x128.Idx) :
    i ∈ ((cfg0.win 9).blk t).view.set ↔ ∀ a : Fin 3, win0_9.index t a * S1x256x128.size a ≤ (i a).val
      ∧ (i a).val < win0_9.index t a * S1x256x128.size a + S1x256x128.size a := by
  show i ∈ ((View.whole main_v28).slice (win0_9.rect t)).set ↔ _
  rw [View.set_slice_whole, Rect.mem_set_unit]
  exact Iff.rfl

/-- The blocks tile the output array. -/
theorem covered (i : S4x8192x128.Idx) : ∃ t : Fin cfg0.N, (cfg0.win 9).flush t = true ∧ i ∈ ((cfg0.win 9).blk t).view.set := by
  have h0 : (i 0).val < 4 := (i 0).isLt
  have h1 : (i 1).val < 8192 := (i 1).isLt
  have h2 : (i 2).val < 128 := (i 2).isLt
  obtain ⟨t, ht⟩ := index_onto ⟨(i 0).val, h0⟩ ⟨(i 1).val / 256, by omega⟩
  have q0 : win0_9.index t (0 : Fin 3) = (i 0).val := congrFun ht 0
  have q1 : win0_9.index t (1 : Fin 3) = (i 1).val / 256 := congrFun ht 1
  have q2 : win0_9.index t (2 : Fin 3) = 0 := congrFun ht 2
  refine ⟨t, flush0_9 t, ?_⟩
  rw [mem_block]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 128 ≤ (i 2).val ∧ (i 2).val < win0_9.index t (2 : Fin 3) * 128 + 128; omega

/-- After the run the output array is the whole-array function of the arrays the region finds. -/
theorem final (c : Dev nD) : (dats m 0 c).arrAt 9 cfg0.N
    = layerOut (V m c main_arg0) (V m c main_v16) (V m c main_arg1) (V m c main_arg2) (V m c main_v19) (V m c main_v22)
        (V m c main_v25) (V m c main_v26) (V m c main_v27) :=
  (dats m 0 c).arrAt_eq_of_cover 9 _ (fun t _ => flushed_eq m c t) covered

/-- The kernel's run with its result named. -/
theorem run : θ_run defs (onTc (τ := τ) (main (F := Ideal))) ⟨m, fun _ => 0, ρ⟩ fun r => ∀ c : Dev nD,
      r.2.mem ((c : Thread nD τ).loc main_v28)
        = layerOut (V m c main_arg0) (V m c main_v16) (V m c main_arg1) (V m c main_arg2) (V m c main_v19) (V m c main_v22)
            (V m c main_v25) (V m c main_v26) (V m c main_v27)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

/-! ## The arrays the region finds -/

set_option maxHeartbeats 4000000 in
/-- The gathered neighbour features are the reference's gathered array of the same arguments. -/
theorem gathered_eq (c : Dev nD) : (V m c main_v16 : S4x8192x16x128.Idx → EReal)
    = Cert.ReferenceIdeal.Line.gathered (F := Ideal) (m ((c : Thread nD τ).loc main_arg0)) (m ((c : Thread nD τ).loc main_arg2)) := by
  dsimp only [Gen.V, Gen.hostOps0]
  after_results
  rfl

/-- The self block of the weights at (k, o) is W(o, k). -/
theorem wself_apply (c : Dev nD) (k : Fin 128) (o : Fin 256) :
    (V m c main_v19 : S128x256.Idx → EReal) (ix2 k o)
      = (m ((c : Thread nD τ).loc main_arg3) : S256x320.Idx → EReal) (ix2 o (⟨k.val, by have := k.isLt; omega⟩ : Fin 320)) := by
  have e : (V m c main_v19 : S128x256.Idx → EReal)
      = truncf (F := Ideal) .bf16 (transpose S128x256 [1, 0] (extractStridedSlice S256x128 ![0, 0] (m ((c : Thread nD τ).loc main_arg3) : S256x320.Idx → EReal) slices_S256x320_S256x128_0_0) transposes_S256x128_S128x256_1_0) bitsLt_bf16_f32 := by
    dsimp only [Gen.V, Gen.hostOps0]
    after_results
  rw [e, truncf_apply, transpose_ix2_apply]
  exact slice2_axis1_apply 0 _ slices_S256x320_S256x128_0_0 o k _ (Nat.zero_add _).symm

/-- The neighbour block of the weights at (k, o) is W(o, 128 + k). -/
theorem wnbr_apply (c : Dev nD) (k : Fin 128) (o : Fin 256) :
    (V m c main_v22 : S128x256.Idx → EReal) (ix2 k o)
      = (m ((c : Thread nD τ).loc main_arg3) : S256x320.Idx → EReal) (ix2 o (⟨128 + k.val, by have := k.isLt; omega⟩ : Fin 320)) := by
  have e : (V m c main_v22 : S128x256.Idx → EReal)
      = truncf (F := Ideal) .bf16 (transpose S128x256 [1, 0] (extractStridedSlice S256x128 ![0, 128] (m ((c : Thread nD τ).loc main_arg3) : S256x320.Idx → EReal) slices_S256x320_S256x128_0_128) transposes_S256x128_S128x256_1_0) bitsLt_bf16_f32 := by
    dsimp only [Gen.V, Gen.hostOps0]
    after_results
  rw [e, truncf_apply, transpose_ix2_apply]
  exact slice2_axis1_apply 128 _ slices_S256x320_S256x128_0_128 o k _ rfl

/-- The edge block of the weights at (k, o) is W(o, 256 + k). -/
theorem wedge_apply (c : Dev nD) (k : Fin 64) (o : Fin 256) :
    (V m c main_v25 : S64x256.Idx → EReal) (ix2 k o)
      = (m ((c : Thread nD τ).loc main_arg3) : S256x320.Idx → EReal) (ix2 o (⟨256 + k.val, by have := k.isLt; omega⟩ : Fin 320)) := by
  have e : (V m c main_v25 : S64x256.Idx → EReal)
      = truncf (F := Ideal) .bf16 (transpose S64x256 [1, 0] (extractStridedSlice S256x64 ![0, 256] (m ((c : Thread nD τ).loc main_arg3) : S256x320.Idx → EReal) slices_S256x320_S256x64_0_256) transposes_S256x64_S64x256_1_0) bitsLt_bf16_f32 := by
    dsimp only [Gen.V, Gen.hostOps0]
    after_results
  rw [e, truncf_apply, transpose_ix2_apply]
  exact slice2_axis1_apply 256 _ slices_S256x320_S256x64_0_256 o k _ rfl

/-- The bias row at (0, o) is the bias at o. -/
theorem bias_apply (c : Dev nD) (o : Fin 256) :
    (V m c main_v26 : S1x256.Idx → EReal) (ix2 (0 : Fin 1) o) = (m ((c : Thread nD τ).loc main_arg4) : S256.Idx → EReal) (ix1 o) := by
  have e : (V m c main_v26 : S1x256.Idx → EReal)
      = shapeCast S1x256 (m ((c : Thread nD τ).loc main_arg4) : S256.Idx → EReal) shapeCasts_S256_S1x256 := by
    dsimp only [Gen.V, Gen.hostOps0]
    after_results
    rfl
  rw [e, shapeCast_a_1a_apply]

/-- The 1 × 1 alpha array holds alpha. -/
theorem alpha_apply (c : Dev nD) :
    (V m c main_v27 : S1x1.Idx → EReal) (ix2 (0 : Fin 1) (0 : Fin 1)) = (m ((c : Thread nD τ).loc main_arg5) : S_.Idx → EReal) ix0 := by
  have e : (V m c main_v27 : S1x1.Idx → EReal)
      = shapeCast S1x1 (m ((c : Thread nD τ).loc main_arg5) : S_.Idx → EReal) shapeCasts_S_S1x1 := by
    dsimp only [Gen.V, Gen.hostOps0]
    after_results
    rfl
  rw [e]
  unfold shapeCast
  exact congrArg _ (funext fun a => a.elim0)

/-- The kernel's whole-array function is the reference's result of the same arguments. -/
theorem layer_eq_reference (c : Dev nD) :
    layerOut (V m c main_arg0) (V m c main_v16) (V m c main_arg1) (V m c main_arg2) (V m c main_v19) (V m c main_v22)
        (V m c main_v25) (V m c main_v26) (V m c main_v27)
      = Cert.ReferenceIdeal.Line.result (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  obtain ⟨b, n, f, rfl⟩ : ∃ (b : Fin 4) (n : Fin 8192) (f : Fin 128), i = ix3 b n f := ⟨i 0, i 1, i 2, eq_ix3 i⟩
  rw [Cert.ReferenceIdeal.RowRead.result_apply]
  show rowOut (fun k => (V m c main_arg0 : S4x8192x128.Idx → EReal) (ix3 b n k))
      (fun s k => (V m c main_v16 : S4x8192x16x128.Idx → EReal) (ix4 b n s k))
      (fun s k => (V m c main_arg1 : S4x8192x16x64.Idx → EReal) (ix4 b n s k))
      (fun s => bitValue (IntOp.cmpi .sge ((V m c main_arg2 : S4x8192x16.Idx → BitVec 32) (ix3 b n s)) 0#32))
      (fun k o => (V m c main_v19 : S128x256.Idx → EReal) (ix2 k o)) (fun k o => (V m c main_v22 : S128x256.Idx → EReal) (ix2 k o))
      (fun k o => (V m c main_v25 : S64x256.Idx → EReal) (ix2 k o)) (fun o => (V m c main_v26 : S1x256.Idx → EReal) (ix2 (0 : Fin 1) o))
      ((V m c main_v27 : S1x1.Idx → EReal) (ix2 (0 : Fin 1) (0 : Fin 1))) f
    = rowOut (fun k => ((m ((c : Thread nD τ).loc main_arg0)) : S4x8192x128.Idx → EReal) (ix3 b n k))
      (fun s k => Cert.ReferenceIdeal.Line.gathered (F := Ideal) (m ((c : Thread nD τ).loc main_arg0)) (m ((c : Thread nD τ).loc main_arg2)) (ix4 b n s k))
      (fun s k => ((m ((c : Thread nD τ).loc main_arg1)) : S4x8192x16x64.Idx → EReal) (ix4 b n s k))
      (fun s => bitValue (IntOp.cmpi .sge (((m ((c : Thread nD τ).loc main_arg2)) : S4x8192x16.Idx → BitVec 32) (ix3 b n s)) 0#32))
      (fun k o => ((m ((c : Thread nD τ).loc main_arg3)) : S256x320.Idx → EReal) (ix2 o (⟨k.val, by have := k.isLt; omega⟩ : Fin 320)))
      (fun k o => ((m ((c : Thread nD τ).loc main_arg3)) : S256x320.Idx → EReal) (ix2 o (⟨128 + k.val, by have := k.isLt; omega⟩ : Fin 320)))
      (fun k o => ((m ((c : Thread nD τ).loc main_arg3)) : S256x320.Idx → EReal) (ix2 o (⟨256 + k.val, by have := k.isLt; omega⟩ : Fin 320)))
      (fun o => ((m ((c : Thread nD τ).loc main_arg4)) : S256.Idx → EReal) (ix1 o)) (((m ((c : Thread nD τ).loc main_arg5)) : S_.Idx → EReal) ix0) f
  have h4 : (fun (k : Fin 128) (o : Fin 256) => (V m c main_v19 : S128x256.Idx → EReal) (ix2 k o))
      = fun k o => ((m ((c : Thread nD τ).loc main_arg3)) : S256x320.Idx → EReal) (ix2 o (⟨k.val, by have := k.isLt; omega⟩ : Fin 320)) :=
    funext fun k => funext fun o => wself_apply m c k o
  have h5 : (fun (k : Fin 128) (o : Fin 256) => (V m c main_v22 : S128x256.Idx → EReal) (ix2 k o))
      = fun k o => ((m ((c : Thread nD τ).loc main_arg3)) : S256x320.Idx → EReal) (ix2 o (⟨128 + k.val, by have := k.isLt; omega⟩ : Fin 320)) :=
    funext fun k => funext fun o => wnbr_apply m c k o
  have h6 : (fun (k : Fin 64) (o : Fin 256) => (V m c main_v25 : S64x256.Idx → EReal) (ix2 k o))
      = fun k o => ((m ((c : Thread nD τ).loc main_arg3)) : S256x320.Idx → EReal) (ix2 o (⟨256 + k.val, by have := k.isLt; omega⟩ : Fin 320)) :=
    funext fun k => funext fun o => wedge_apply m c k o
  have h7 : (fun o : Fin 256 => (V m c main_v26 : S1x256.Idx → EReal) (ix2 (0 : Fin 1) o))
      = fun o => ((m ((c : Thread nD τ).loc main_arg4)) : S256.Idx → EReal) (ix1 o) := funext fun o => bias_apply m c o
  rw [h4, h5, h6, h7, alpha_apply, gathered_eq, V_main_arg0, V_main_arg1, V_main_arg2]

end Cert.KernelIdeal.Layer

end
-- ==== Proof.lean ====
/-
  A crystal-graph convolution layer (4 batches, 8192 nodes, 16 neighbour slots, 128 node and 64 edge features)
  as a tiled kernel, against its plain array definition. For every node the layer concatenates the node's own
  features, each neighbour's features and the edge's features, applies one linear map to 256 outputs, gates the
  second half by the sigmoid of the first, masks the missing neighbours, sums over the slots and applies
  softplus to alpha times the node's features plus that sum. The kernel gathers the neighbour features on the
  host, cuts the weight matrix into its self, neighbour and edge column blocks, and handles 256 nodes per grid
  point, adding the three partial products instead of multiplying the concatenation.

  On the extended reals the two are the same function: a sum over the 320 concatenated columns is the sum of its
  three ranges, sixteen terms added one by one are their sum, the kernel's logistic operation is 1 / (1 + exp(−t)),
  and the guard inside softplus never fires; none of this needs the entries to be finite, so the precondition is
  not opened. The kernel's three frames are the generated ones, the reference's frame is its run followed operation by operation, the
  idealization rewrote nothing, and the value claim sets the kernel's output array (the row formula at every
  (batch, node, feature), proved block by block and assembled over the 4 × 32 grid) beside the reference's
  result read at an index.
-/
import proofs.«124449_j27573690040695_2_alg».proof.Defs
import proofs.«124449_j27573690040695_2_alg».proof.Proof.Gen.Kernel
import proofs.«124449_j27573690040695_2_alg».proof.Proof.Gen.Kernel.Skeleton
import proofs.«124449_j27573690040695_2_alg».proof.Proof.Gen.Kernel.Launch
import proofs.«124449_j27573690040695_2_alg».proof.Proof.Gen.Kernel.Points
import proofs.«124449_j27573690040695_2_alg».proof.Proof.Gen.Kernel.Frame
import proofs.«124449_j27573690040695_2_alg».proof.Proof.Gen.KernelIdeal
import proofs.«124449_j27573690040695_2_alg».proof.Proof.Gen.KernelIdeal.Skeleton
import proofs.«124449_j27573690040695_2_alg».proof.Proof.Gen.KernelIdeal.Launch
import proofs.«124449_j27573690040695_2_alg».proof.Proof.Gen.KernelIdeal.Points
import proofs.«124449_j27573690040695_2_alg».proof.Proof.Gen.KernelIdeal.Frame
import proofs.«124449_j27573690040695_2_alg».proof.Proof.Gen.ReferenceIdeal
import proofs.«124449_j27573690040695_2_alg».proof.Proof.Gen.Pre_finite_inputs
import proofs.«124449_j27573690040695_2_alg».proof.Proof.Gen.KernelIdeal.Value
import proofs.«124449_j27573690040695_2_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Line.run (F := Ideal) m ρ)

/-- The idealization rewrote no operation. -/
theorem preserves : Cert.preserves_Kernel_KernelIdeal := trivial

/-- From memories that agree on the arguments, both programs end with the row formula at every (batch, node, feature). -/
theorem algebraic : Cert.algebraic_KernelIdeal_ReferenceIdeal := by
  intro m ρ m' ρ' _ hagree
  refine ⟨fun c => Cert.ReferenceIdeal.Line.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Layer.layer_eq_reference m c), (h c).2⟩)
      (Cert.KernelIdeal.Layer.run m ρ)
  · refine (θ_run Cert.ReferenceIdeal.defs _ _).mono (fun _ h c => ⟨(h c).1.trans ?_, (h c).2⟩)
      (Cert.ReferenceIdeal.Line.run (F := Ideal) m' ρ')
    rw [(hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
